-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v28)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v28) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v136) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4096x1000 : Shape := ⟨2, ![4096, 1000]⟩
abbrev S4096x256 : Shape := ⟨2, ![4096, 256]⟩
abbrev S_ : Shape := ⟨0, ![]⟩

class Facts : Prop where
  bcast_S_S4096x1000 : S_.BroadcastsInDim S4096x1000 (![] : Fin 0 → Fin S4096x1000.rank)
  reducesTo_S4096x1000_S_d0_1 : S4096x1000.ReducesTo [0, 1] S_
  h_S_ : 0 < S_.numel
  bcast_S_S4096x256 : S_.BroadcastsInDim S4096x256 (![] : Fin 0 → Fin S4096x256.rank)
  reducesTo_S4096x256_S_d0_1 : S4096x256.ReducesTo [0, 1] S_

variable [Facts]

def fn_part2 {F : FTy → Type} [FloatOps F] (main_arg7 : FVec F S4096x256 .f32) (main_v33 : IVec S_ 1) : IVec S_ 1 :=
  let main_v34 : FVec F S4096x256 .f32 := Host.absf main_arg7
  let main_cst_12 : FVec F S_ .f32 := constant S_ .f32 0x7F800000#32
  let main_v35 : FVec F S4096x256 .f32 := broadcastInDim S4096x256 ![] bcast_S_S4096x256 main_cst_12
  let main_v36 : IVec S4096x256 1 := cmpf .olt main_v34 main_v35
  let main_c_13 : IVec S_ 1 := constantI S_ 1 1#1
  let main_v37 : IVec S_ 1 := (fun x v => Host.reduce IntOp.andi x v reducesTo_S4096x256_S_d0_1 h_S_) main_v36 main_c_13
  let main_v38 : IVec S_ 1 := andi main_v33 main_v37
  main_v38

def fn_part1 {F : FTy → Type} [FloatOps F] (main_arg4 : FVec F S4096x256 .f32) (main_arg5 : FVec F S4096x256 .f32) (main_arg6 : FVec F S4096x256 .f32) (main_arg7 : FVec F S4096x256 .f32) (main_v13 : IVec S_ 1) (main_v16 : IVec S4096x256 1) : IVec S_ 1 :=
  let main_c_5 : IVec S_ 1 := constantI S_ 1 1#1
  let main_v17 : IVec S_ 1 := (fun x v => Host.reduce IntOp.andi x v reducesTo_S4096x256_S_d0_1 h_S_) main_v16 main_c_5
  let main_v18 : IVec S_ 1 := andi main_v13 main_v17
  let main_v19 : FVec F S4096x256 .f32 := Host.absf main_arg4
  let main_cst_6 : FVec F S_ .f32 := constant S_ .f32 0x7F800000#32
  let main_v20 : FVec F S4096x256 .f32 := broadcastInDim S4096x256 ![] bcast_S_S4096x256 main_cst_6
  let main_v21 : IVec S4096x256 1 := cmpf .olt main_v19 main_v20
  let main_c_7 : IVec S_ 1 := constantI S_ 1 1#1
  let main_v22 : IVec S_ 1 := (fun x v => Host.reduce IntOp.andi x v reducesTo_S4096x256_S_d0_1 h_S_) main_v21 main_c_7
  let main_v23 : IVec S_ 1 := andi main_v18 main_v22
  let main_v24 : FVec F S4096x256 .f32 := Host.absf main_arg5
  let main_cst_8 : FVec F S_ .f32 := constant S_ .f32 0x7F800000#32
  let main_v25 : FVec F S4096x256 .f32 := broadcastInDim S4096x256 ![] bcast_S_S4096x256 main_cst_8
  let main_v26 : IVec S4096x256 1 := cmpf .olt main_v24 main_v25
  let main_c_9 : IVec S_ 1 := constantI S_ 1 1#1
  let main_v27 : IVec S_ 1 := (fun x v => Host.reduce IntOp.andi x v reducesTo_S4096x256_S_d0_1 h_S_) main_v26 main_c_9
  let main_v28 : IVec S_ 1 := andi main_v23 main_v27
  let main_v29 : FVec F S4096x256 .f32 := Host.absf main_arg6
  let main_cst_10 : FVec F S_ .f32 := constant S_ .f32 0x7F800000#32
  let main_v30 : FVec F S4096x256 .f32 := broadcastInDim S4096x256 ![] bcast_S_S4096x256 main_cst_10
  let main_v31 : IVec S4096x256 1 := cmpf .olt main_v29 main_v30
  let main_c_11 : IVec S_ 1 := constantI S_ 1 1#1
  let main_v32 : IVec S_ 1 := (fun x v => Host.reduce IntOp.andi x v reducesTo_S4096x256_S_d0_1 h_S_) main_v31 main_c_11
  let main_v33 : IVec S_ 1 := andi main_v28 main_v32
  fn_part2 (F := F) main_arg7 main_v33

def fn {F : FTy → Type} [FloatOps F] (main_arg0 : FVec F S4096x1000 .f32) (main_arg1 : FVec F S4096x1000 .f32) (main_arg2 : FVec F S4096x256 .f32) (main_arg3 : FVec F S4096x256 .f32) (main_arg4 : FVec F S4096x256 .f32) (main_arg5 : FVec F S4096x256 .f32) (main_arg6 : FVec F S4096x256 .f32) (main_arg7 : FVec F S4096x256 .f32) : IVec S_ 1 :=
  let main_v0 : FVec F S4096x1000 .f32 := Host.absf main_arg0
  let main_cst : FVec F S_ .f32 := constant S_ .f32 0x7F800000#32
  let main_v1 : FVec F S4096x1000 .f32 := broadcastInDim S4096x1000 ![] bcast_S_S4096x1000 main_cst
  let main_v2 : IVec S4096x1000 1 := cmpf .olt main_v0 main_v1
  let main_c : IVec S_ 1 := constantI S_ 1 1#1
  let main_v3 : IVec S_ 1 := (fun x v => Host.reduce IntOp.andi x v reducesTo_S4096x1000_S_d0_1 h_S_) main_v2 main_c
  let main_v4 : FVec F S4096x1000 .f32 := Host.absf main_arg1
  let main_cst_0 : FVec F S_ .f32 := constant S_ .f32 0x7F800000#32
  let main_v5 : FVec F S4096x1000 .f32 := broadcastInDim S4096x1000 ![] bcast_S_S4096x1000 main_cst_0
  let main_v6 : IVec S4096x1000 1 := cmpf .olt main_v4 main_v5
  let main_c_1 : IVec S_ 1 := constantI S_ 1 1#1
  let main_v7 : IVec S_ 1 := (fun x v => Host.reduce IntOp.andi x v reducesTo_S4096x1000_S_d0_1 h_S_) main_v6 main_c_1
  let main_v8 : IVec S_ 1 := andi main_v3 main_v7
  let main_v9 : FVec F S4096x256 .f32 := Host.absf main_arg2
  let main_cst_2 : FVec F S_ .f32 := constant S_ .f32 0x7F800000#32
  let main_v10 : FVec F S4096x256 .f32 := broadcastInDim S4096x256 ![] bcast_S_S4096x256 main_cst_2
  let main_v11 : IVec S4096x256 1 := cmpf .olt main_v9 main_v10
  let main_c_3 : IVec S_ 1 := constantI S_ 1 1#1
  let main_v12 : IVec S_ 1 := (fun x v => Host.reduce IntOp.andi x v reducesTo_S4096x256_S_d0_1 h_S_) main_v11 main_c_3
  let main_v13 : IVec S_ 1 := andi main_v8 main_v12
  let main_v14 : FVec F S4096x256 .f32 := Host.absf main_arg3
  let main_cst_4 : FVec F S_ .f32 := constant S_ .f32 0x7F800000#32
  let main_v15 : FVec F S4096x256 .f32 := broadcastInDim S4096x256 ![] bcast_S_S4096x256 main_cst_4
  let main_v16 : IVec S4096x256 1 := cmpf .olt main_v14 main_v15
  fn_part1 (F := F) main_arg4 main_arg5 main_arg6 main_arg7 main_v13 main_v16
-- ==== Kernel.lean ====
abbrev S4096x1000 : Shape := ⟨2, ![4096, 1000]⟩
abbrev S4096x256 : Shape := ⟨2, ![4096, 256]⟩
abbrev S8x8x128 : Shape := ⟨3, ![8, 8, 128]⟩
abbrev S512x1000 : Shape := ⟨2, ![512, 1000]⟩
abbrev S1x8x128 : Shape := ⟨3, ![1, 8, 128]⟩
abbrev S512 : Shape := ⟨1, ![512]⟩
abbrev S512x1 : Shape := ⟨2, ![512, 1]⟩
abbrev S1 : Shape := ⟨1, ![1]⟩
abbrev S1x1 : Shape := ⟨2, ![1, 1]⟩
abbrev S8x128 : Shape := ⟨2, ![8, 128]⟩
abbrev S_ : Shape := ⟨0, ![]⟩
abbrev S1x4096x256 : Shape := ⟨3, ![1, 4096, 256]⟩
abbrev S3x4096x256 : Shape := ⟨3, ![3, 4096, 256]⟩
abbrev S3x4096 : Shape := ⟨2, ![3, 4096]⟩
abbrev S3x1x4096 : Shape := ⟨3, ![3, 1, 4096]⟩
abbrev S3x4096x1 : Shape := ⟨3, ![3, 4096, 1]⟩
abbrev S3x32x8x128 : Shape := ⟨4, ![3, 32, 8, 128]⟩
abbrev S1x1x4096 : Shape := ⟨3, ![1, 1, 4096]⟩
abbrev S1x128x1 : Shape := ⟨3, ![1, 128, 1]⟩
abbrev S1x1x8x128 : Shape := ⟨4, ![1, 1, 8, 128]⟩
abbrev S1x128x256 : Shape := ⟨3, ![1, 128, 256]⟩
abbrev S128x256 : Shape := ⟨2, ![128, 256]⟩
abbrev S256x4096 : Shape := ⟨2, ![256, 4096]⟩
abbrev S128x4096 : Shape := ⟨2, ![128, 4096]⟩
abbrev S1x4096 : Shape := ⟨2, ![1, 4096]⟩
abbrev S128x1 : Shape := ⟨2, ![128, 1]⟩
abbrev S128 : Shape := ⟨1, ![128]⟩

abbrev nBuf : Space → Nat
  | .hbm => 47
  | .vmem => 20
  | .smem => 0
  | _ => 0

abbrev bufTy : (tb : Table) → Fin (tcTables nBuf tb) → BufTy
  | .hbm, ⟨0, _⟩ => ⟨S4096x1000, .f32⟩
  | .hbm, ⟨1, _⟩ => ⟨S4096x1000, .f32⟩
  | .hbm, ⟨2, _⟩ => ⟨S4096x256, .f32⟩
  | .hbm, ⟨3, _⟩ => ⟨S4096x256, .f32⟩
  | .hbm, ⟨4, _⟩ => ⟨S4096x256, .f32⟩
  | .hbm, ⟨5, _⟩ => ⟨S4096x256, .f32⟩
  | .hbm, ⟨6, _⟩ => ⟨S4096x256, .f32⟩
  | .hbm, ⟨7, _⟩ => ⟨S4096x256, .f32⟩
  | .hbm, ⟨8, _⟩ => ⟨S8x8x128, .f32⟩
  | .hbm, ⟨9, _⟩ => ⟨S_, .f32⟩
  | .hbm, ⟨10, _⟩ => ⟨S_, .f32⟩
  | .hbm, ⟨11, _⟩ => ⟨S_, .f32⟩
  | .hbm, ⟨12, _⟩ => ⟨S_, .f32⟩
  | .hbm, ⟨13, _⟩ => ⟨S_, .f32⟩
  | .hbm, ⟨14, _⟩ => ⟨S_, .f32⟩
  | .hbm, ⟨15, _⟩ => ⟨S1x4096x256, .f32⟩
  | .hbm, ⟨16, _⟩ => ⟨S1x4096x256, .f32⟩
  | .hbm, ⟨17, _⟩ => ⟨S1x4096x256, .f32⟩
  | .hbm, ⟨18, _⟩ => ⟨S3x4096x256, .f32⟩
  | .hbm, ⟨19, _⟩ => ⟨S1x4096x256, .f32⟩
  | .hbm, ⟨20, _⟩ => ⟨S1x4096x256, .f32⟩
  | .hbm, ⟨21, _⟩ => ⟨S1x4096x256, .f32⟩
  | .hbm, ⟨22, _⟩ => ⟨S3x4096x256, .f32⟩
  | .hbm, ⟨23, _⟩ => ⟨S3x4096x256, .bf16⟩
  | .hbm, ⟨24, _⟩ => ⟨S3x4096x256, .bf16⟩
  | .hbm, ⟨25, _⟩ => ⟨S3x4096x256, .f32⟩
  | .hbm, ⟨26, _⟩ => ⟨S_, .f32⟩
  | .hbm, ⟨27, _⟩ => ⟨S3x4096, .f32⟩
  | .hbm, ⟨28, _⟩ => ⟨S3x4096x256, .f32⟩
  | .hbm, ⟨29, _⟩ => ⟨S_, .f32⟩
  | .hbm, ⟨30, _⟩ => ⟨S3x4096, .f32⟩
  | .hbm, ⟨31, _⟩ => ⟨S3x1x4096, .f32⟩
  | .hbm, ⟨32, _⟩ => ⟨S3x1x4096, .f32⟩
  | .hbm, ⟨33, _⟩ => ⟨S3x4096x1, .f32⟩
  | .hbm, ⟨34, _⟩ => ⟨S3x4096x1, .f32⟩
  | .hbm, ⟨35, _⟩ => ⟨S3x32x8x128, .f32⟩
  | .hbm, ⟨36, _⟩ => ⟨S_, .f32⟩
  | .hbm, ⟨37, _⟩ => ⟨S_, .f32⟩
  | .hbm, ⟨38, _⟩ => ⟨S_, .f32⟩
  | .hbm, ⟨39, _⟩ => ⟨S_, .f32⟩
  | .hbm, ⟨40, _⟩ => ⟨S_, .f32⟩
  | .hbm, ⟨41, _⟩ => ⟨S_, .f32⟩
  | .hbm, ⟨42, _⟩ => ⟨S_, .f32⟩
  | .hbm, ⟨43, _⟩ => ⟨S_, .f32⟩
  | .hbm, ⟨44, _⟩ => ⟨S_, .f32⟩
  | .hbm, ⟨45, _⟩ => ⟨S_, .f32⟩
  | .hbm, ⟨46, _⟩ => ⟨S_, .f32⟩
  | .local _ .vmem, ⟨0, _⟩ => ⟨S512x1000, .f32⟩
  | .local _ .vmem, ⟨1, _⟩ => ⟨S512x1000, .f32⟩
  | .local _ .vmem, ⟨2, _⟩ => ⟨S512x1000, .f32⟩
  | .local _ .vmem, ⟨3, _⟩ => ⟨S512x1000, .f32⟩
  | .local _ .vmem, ⟨4, _⟩ => ⟨S1x8x128, .f32⟩
  | .local _ .vmem, ⟨5, _⟩ => ⟨S1x8x128, .f32⟩
  | .local _ .vmem, ⟨6, _⟩ => ⟨S1x4096x256, .bf16⟩
  | .local _ .vmem, ⟨7, _⟩ => ⟨S1x4096x256, .bf16⟩
  | .local _ .vmem, ⟨8, _⟩ => ⟨S1x4096x256, .bf16⟩
  | .local _ .vmem, ⟨9, _⟩ => ⟨S1x4096x256, .bf16⟩
  | .local _ .vmem, ⟨10, _⟩ => ⟨S1x1x4096, .f32⟩
  | .local _ .vmem, ⟨11, _⟩ => ⟨S1x1x4096, .f32⟩
  | .local _ .vmem, ⟨12, _⟩ => ⟨S1x1x4096, .f32⟩
  | .local _ .vmem, ⟨13, _⟩ => ⟨S1x1x4096, .f32⟩
  | .local _ .vmem, ⟨14, _⟩ => ⟨S1x128x1, .f32⟩
  | .local _ .vmem, ⟨15, _⟩ => ⟨S1x128x1, .f32⟩
  | .local _ .vmem, ⟨16, _⟩ => ⟨S1x128x1, .f32⟩
  | .local _ .vmem, ⟨17, _⟩ => ⟨S1x128x1, .f32⟩
  | .local _ .vmem, ⟨18, _⟩ => ⟨S1x1x8x128, .f32⟩
  | .local _ .vmem, ⟨19, _⟩ => ⟨S1x1x8x128, .f32⟩
  | _, _ => ⟨S4096x1000, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_cst : Ref sig .tc := ⟨.hbm, 9, rfl⟩
abbrev main_v1 : Ref sig .tc := ⟨.hbm, 10, rfl⟩
abbrev main_cst_0 : Ref sig .tc := ⟨.hbm, 11, rfl⟩
abbrev main_v2 : Ref sig .tc := ⟨.hbm, 12, rfl⟩
abbrev main_cst_1 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_cst_2 : Ref sig .tc := ⟨.hbm, 26, rfl⟩
abbrev main_v15 : Ref sig .tc := ⟨.hbm, 27, rfl⟩
abbrev main_v16 : Ref sig .tc := ⟨.hbm, 28, rfl⟩
abbrev main_cst_3 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_cst_4 : Ref sig .tc := ⟨.hbm, 36, rfl⟩
abbrev main_v23 : Ref sig .tc := ⟨.hbm, 37, rfl⟩
abbrev main_cst_5 : Ref sig .tc := ⟨.hbm, 38, rfl⟩
abbrev main_v24 : Ref sig .tc := ⟨.hbm, 39, rfl⟩
abbrev main_cst_6 : Ref sig .tc := ⟨.hbm, 40, rfl⟩
abbrev main_v25 : Ref sig .tc := ⟨.hbm, 41, rfl⟩
abbrev main_cst_7 : Ref sig .tc := ⟨.hbm, 42, rfl⟩
abbrev main_v26 : Ref sig .tc := ⟨.hbm, 43, rfl⟩
abbrev main_cst_8 : Ref sig .tc := ⟨.hbm, 44, rfl⟩
abbrev main_v27 : Ref sig .tc := ⟨.hbm, 45, rfl⟩
abbrev main_v28 : Ref sig .tc := ⟨.hbm, 46, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg1_1 : Ref sig .tc := ⟨.vmem, 9, rfl⟩
abbrev cc1_stg2_0 : Ref sig .tc := ⟨.vmem, 10, rfl⟩
abbrev cc1_stg2_1 : Ref sig .tc := ⟨.vmem, 11, rfl⟩
abbrev cc1_stg3_0 : Ref sig .tc := ⟨.vmem, 12, rfl⟩
abbrev cc1_stg3_1 : Ref sig .tc := ⟨.vmem, 13, rfl⟩
abbrev cc1_stg4_0 : Ref sig .tc := ⟨.vmem, 14, rfl⟩
abbrev cc1_stg4_1 : Ref sig .tc := ⟨.vmem, 15, rfl⟩
abbrev cc1_stg5_0 : Ref sig .tc := ⟨.vmem, 16, rfl⟩
abbrev cc1_stg5_1 : Ref sig .tc := ⟨.vmem, 17, rfl⟩
abbrev cc1_stg6_0 : Ref sig .tc := ⟨.vmem, 18, rfl⟩
abbrev cc1_stg6_1 : Ref sig .tc := ⟨.vmem, 19, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc1_sem0_0 : DmaSem sig := 6
abbrev cc1_sem0_1 : DmaSem sig := 7
abbrev cc1_sem1_0 : DmaSem sig := 8
abbrev cc1_sem1_1 : DmaSem sig := 9
abbrev cc1_sem2_0 : DmaSem sig := 10
abbrev cc1_sem2_1 : DmaSem sig := 11
abbrev cc1_sem3_0 : DmaSem sig := 12
abbrev cc1_sem3_1 : DmaSem sig := 13
abbrev cc1_sem4_0 : DmaSem sig := 14
abbrev cc1_sem4_1 : DmaSem sig := 15
abbrev cc1_sem5_0 : DmaSem sig := 16
abbrev cc1_sem5_1 : DmaSem sig := 17
abbrev cc1_sem6_0 : DmaSem sig := 18
abbrev cc1_sem6_1 : DmaSem sig := 19

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S512x1000 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1000 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x8x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨2, ![3, 32], ![false, false]⟩

def k1_mult1 (i : grid1.Coords) : BitVec 32 :=
  let arg1 : BitVec 32 := BitVec.ofNat 32 (i 1).val
  let c128_i32 : BitVec 32 := 128#32
  let v0 : BitVec 32 := Scalar.muli arg1 c128_i32
  v0
def k1_off1 (i : grid1.Coords) : Fin 3 → Nat :=
  let c0 : Index := 0#32
  let arg1 : BitVec 32 := BitVec.ofNat 32 (i 1).val
  let c128_i32 : BitVec 32 := 128#32
  let v0 : BitVec 32 := Scalar.muli arg1 c128_i32
  let v1 : BitVec 32 := v0
  let v2 : Index := Scalar.indexCast v1
  let c0_0 : Index := 0#32
  ![0, v2.toNat, 0]
def cc1_transform_0 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc1_transform_1 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc1_transform_2 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc1_transform_3 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc1_transform_4 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc1_transform_5 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc1_transform_6 (i : grid1.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

abbrev stage1_0 : Fin 2 → Memref sig .tc .vmem S1x4096x256 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, false]

abbrev stage1_1 : Fin 2 → Memref sig .tc .vmem S1x4096x256 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, false]

abbrev stage1_2 : Fin 2 → Memref sig .tc .vmem S1x1x4096 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, false]

abbrev stage1_3 : Fin 2 → Memref sig .tc .vmem S1x1x4096 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, false]

abbrev stage1_4 : Fin 2 → Memref sig .tc .vmem S1x128x1 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true, true]

abbrev stage1_5 : Fin 2 → Memref sig .tc .vmem S1x128x1 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true, true]

abbrev stage1_6 : Fin 2 → Memref sig .tc .vmem S1x1x8x128 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true, true]

class Facts₀ : Prop where
  inb_S512x1000_S512x1000_0_0 : ∀ a, (![0, 0] : Fin 2 → Nat) a + S512x1000.size a ≤ S512x1000.size a
  h_S512x1000 : 0 < S512x1000.numel
  reduces_S512x1000_S512 : S512x1000.Reduces [1] S512
  shapeCasts_S512_S512x1 : S512.ShapeCasts S512x1
  reduces_S512x1_S1 : S512x1.Reduces [0] S1
  shapeCasts_S1_S1x1 : S1.ShapeCasts S1x1
  shapeCasts_S1x1_S1x1 : S1x1.ShapeCasts S1x1
  broadcasts_S1x1_S8x128 : S1x1.Broadcasts S8x128
  inb_S1x8x128_S1x8x128_0_0_0 : ∀ a, (![0, 0, 0] : Fin 3 → Nat) a + S1x8x128.size a ≤ S1x8x128.size a
  h_S1x8x128 : 0 < S1x8x128.numel
  shapeCasts_S1x8x128_S8x128 : S1x8x128.ShapeCasts S8x128
  shapeCasts_S8x128_S1x8x128 : S8x128.ShapeCasts S1x8x128
  reducesTo_S8x8x128_S_d0_1_2 : S8x8x128.ReducesTo [0, 1, 2] S_
  h_S_ : 0 < S_.numel
  bcast_S4096x256_S1x4096x256_1_2 : S4096x256.BroadcastsInDim S1x4096x256 (![1, 2] : Fin 2 → Fin S1x4096x256.rank)
  concatenates_S1x4096x256_S1x4096x256_S1x4096x256_S3x4096x256_d0 : Shape.Concatenates [S1x4096x256, S1x4096x256, S1x4096x256] S3x4096x256 0
  bitsLt_bf16_f32 : FTy.bits .bf16 < FTy.bits .f32
  reducesTo_S3x4096x256_S3x4096_d2 : S3x4096x256.ReducesTo [2] S3x4096
  bcast_S3x4096_S3x1x4096_0_2 : S3x4096.BroadcastsInDim S3x1x4096 (![0, 2] : Fin 2 → Fin S3x1x4096.rank)
  bcast_S3x4096_S3x4096x1_0_1 : S3x4096.BroadcastsInDim S3x4096x1 (![0, 1] : Fin 2 → Fin S3x4096x1.rank)
  h_S1x128x256 : 0 < S1x128x256.numel
  shapeCasts_S1x128x256_S128x256 : S1x128x256.ShapeCasts S128x256
  inb_S1x4096x256_S1x4096x256_0_0_0 : ∀ a, (![0, 0, 0] : Fin 3 → Nat) a + S1x4096x256.size a ≤ S1x4096x256.size a
  h_S1x4096x256 : 0 < S1x4096x256.numel
  shapeCasts_S1x4096x256_S4096x256 : S1x4096x256.ShapeCasts S4096x256
  transposes_S4096x256_p1_0_S256x4096 : S4096x256.Transposes [1, 0] S256x4096
  inb_S1x1x4096_S1x1x4096_0_0_0 : ∀ a, (![0, 0, 0] : Fin 3 → Nat) a + S1x1x4096.size a ≤ S1x1x4096.size a
  h_S1x1x4096 : 0 < S1x1x4096.numel
  shapeCasts_S1x1x4096_S1x4096 : S1x1x4096.ShapeCasts S1x4096
  inb_S1x128x1_S1x128x1_0_0_0 : ∀ a, (![0, 0, 0] : Fin 3 → Nat) a + S1x128x1.size a ≤ S1x128x1.size a
  h_S1x128x1 : 0 < S1x128x1.numel
  shapeCasts_S1x128x1_S128x1 : S1x128x1.ShapeCasts S128x1
  broadcasts_S128x1_S128x4096 : S128x1.Broadcasts S128x4096
  broadcasts_S1x4096_S128x4096 : S1x4096.Broadcasts S128x4096
  reduces_S128x4096_S128 : S128x4096.Reduces [1] S128
  shapeCasts_S128_S128x1 : S128.ShapeCasts S128x1
  reduces_S128x1_S1 : S128x1.Reduces [0] S1
  inb_S1x1x8x128_S1x1x8x128_0_0_0_0 : ∀ a, (![0, 0, 0, 0] : Fin 4 → Nat) a + S1x1x8x128.size a ≤ S1x1x8x128.size a
  h_S1x1x8x128 : 0 < S1x1x8x128.numel
  shapeCasts_S1x1x8x128_S8x128 : S1x1x8x128.ShapeCasts S8x128
  shapeCasts_S8x128_S1x1x8x128 : S8x128.ShapeCasts S1x1x8x128
  reducesTo_S3x32x8x128_S_d0_1_2_3 : S3x32x8x128.ReducesTo [0, 1, 2, 3] S_
  dot_S128x256_S256x4096_S128x4096_1_0_0_1_n_n_wf : DotDims.WF S128x256 S256x4096 S128x4096 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x1000.size a ≤ S4096x1000.size a
  hwx0_0 : ∀ i : grid0.Coords, EltTy.bits .f32 = 32 ∨ (Rect.block (s := S4096x1000) S512x1000.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S512x1000.size a ≤ S4096x1000.size a
  hwx0_1 : ∀ i : grid0.Coords, EltTy.bits .f32 = 32 ∨ (Rect.block (s := S4096x1000) S512x1000.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x8x128.size a ≤ S8x8x128.size a
  hwx0_2 : ∀ i : grid0.Coords, EltTy.bits .f32 = 32 ∨ (Rect.block (s := S8x8x128) S1x8x128.size (cc0_transform_2 i) (hinb0_2 i)).WholeWords (EltTy.packing .f32)
  hrank1 : 0 < grid1.rank
  k1_mult1_dvd : ∀ i : grid1.Coords, 128 ∣ (k1_mult1 i).toNat
  k1_off1_inb : ∀ i : grid1.Coords, ∀ a, (k1_off1 i) a + S1x128x256.size a ≤ S1x4096x256.size a
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1x4096x256.size a ≤ S3x4096x256.size a
  hwx1_0 : ∀ i : grid1.Coords, EltTy.bits .bf16 = 32 ∨ (Rect.block (s := S3x4096x256) S1x4096x256.size (cc1_transform_0 i) (hinb1_0 i)).WholeWords (EltTy.packing .bf16)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S1x4096x256.size a ≤ S3x4096x256.size a
  hwx1_1 : ∀ i : grid1.Coords, EltTy.bits .bf16 = 32 ∨ (Rect.block (s := S3x4096x256) S1x4096x256.size (cc1_transform_1 i) (hinb1_1 i)).WholeWords (EltTy.packing .bf16)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S1x1x4096.size a ≤ S3x1x4096.size a
  hwx1_2 : ∀ i : grid1.Coords, EltTy.bits .f32 = 32 ∨ (Rect.block (s := S3x1x4096) S1x1x4096.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S1x1x4096.size a ≤ S3x1x4096.size a
  hwx1_3 : ∀ i : grid1.Coords, EltTy.bits .f32 = 32 ∨ (Rect.block (s := S3x1x4096) S1x1x4096.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S1x128x1.size a ≤ S3x4096x1.size a
  hwx1_4 : ∀ i : grid1.Coords, EltTy.bits .f32 = 32 ∨ (Rect.block (s := S3x4096x1) S1x128x1.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S1x128x1.size a ≤ S3x4096x1.size a
  hwx1_5 : ∀ i : grid1.Coords, EltTy.bits .f32 = 32 ∨ (Rect.block (s := S3x4096x1) S1x128x1.size (cc1_transform_5 i) (hinb1_5 i)).WholeWords (EltTy.packing .f32)
  hstage1_6 : ∀ j, (stage1_6 j).IsWhole
  nbuf1_6 : grid1.bufCount reads1_6 false = 2
  hreads1_6 : ∀ i i' : grid1.Coords, (∀ a, reads1_6 a = true → i a = i' a) → cc1_transform_6 i = cc1_transform_6 i'
  hinb1_6 : ∀ (i : grid1.Coords) a, (cc1_transform_6 i a + 1) * S1x1x8x128.size a ≤ S3x32x8x128.size a
  hwx1_6 : ∀ i : grid1.Coords, EltTy.bits .f32 = 32 ∨ (Rect.block (s := S3x32x8x128) S1x1x8x128.size (cc1_transform_6 i) (hinb1_6 i)).WholeWords (EltTy.packing .f32)

variable [Facts₀]

def dot_S128x256_S256x4096_S128x4096_1_0_0_1_n_n : DotDims S128x256 S256x4096 S128x4096 where
  lhsContracting := [1]
  rhsContracting := [0]
  lhsNonContracting := [0]
  rhsNonContracting := [1]
  lhsBatch := []
  rhsBatch := []
  wf := dot_S128x256_S256x4096_S128x4096_1_0_0_1_n_n_wf

abbrev win0_0 : Pipeline.Window sig grid0 :=
  Pipeline.Window.ofSpec (Memref.whole main_arg0) S512x1000.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S512x1000.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0) S1x8x128.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v12) S1x4096x256.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v13) S1x4096x256.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v18) S1x1x4096.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v19) S1x1x4096.size cc1_transform_3 reads1_3 false false 2 stage1_3 sem1_3
    hrank1 hreads1_3 hinb1_3 nbuf1_3 (Memref.isWhole_whole _) hwx1_3 hstage1_3

abbrev win1_4 : Pipeline.Window sig grid1 :=
  Pipeline.Window.ofSpec (Memref.whole main_v20) S1x128x1.size cc1_transform_4 reads1_4 false false 2 stage1_4 sem1_4
    hrank1 hreads1_4 hinb1_4 nbuf1_4 (Memref.isWhole_whole _) hwx1_4 hstage1_4

abbrev win1_5 : Pipeline.Window sig grid1 :=
  Pipeline.Window.ofSpec (Memref.whole main_v21) S1x128x1.size cc1_transform_5 reads1_5 false false 2 stage1_5 sem1_5
    hrank1 hreads1_5 hinb1_5 nbuf1_5 (Memref.isWhole_whole _) hwx1_5 hstage1_5

abbrev win1_6 : Pipeline.Window sig grid1 :=
  Pipeline.Window.ofSpec (Memref.whole main_v22) S1x1x8x128.size cc1_transform_6 reads1_6 true false 2 stage1_6 sem1_6
    hrank1 hreads1_6 hinb1_6 nbuf1_6 (Memref.isWhole_whole _) hwx1_6 hstage1_6

abbrev win1 : Fin 7 → Pipeline.Window sig grid1 := fun | 0 => win1_0 | 1 => win1_1 | 2 => win1_2 | 3 => win1_3 | 4 => win1_4 | 5 => win1_5 | 6 => win1_6 | ⟨_ + 7, h⟩ => absurd h (Nat.not_lt.2 (Nat.le_add_left _ _))
abbrev spec1 : Fin 7 → Pipeline.WinSpec sig grid1.rank := fun w => (win1 w).toWinSpec

class Facts : Prop extends Facts₀ where

variable [Facts]
-- ==== ReferenceIdeal.lean ====
abbrev S4096x1000 : Shape := ⟨2, ![4096, 1000]⟩
abbrev S4096x256 : Shape := ⟨2, ![4096, 256]⟩
abbrev S_ : Shape := ⟨0, ![]⟩
abbrev S4096 : Shape := ⟨1, ![4096]⟩
abbrev S4096x1 : Shape := ⟨2, ![4096, 1]⟩
abbrev S1x4096 : Shape := ⟨2, ![1, 4096]⟩
abbrev S4096x4096 : Shape := ⟨2, ![4096, 4096]⟩
abbrev S256x4096 : Shape := ⟨2, ![256, 4096]⟩

abbrev nBuf : Space → Nat
  | .hbm => 217
  | .vmem => 0
  | .smem => 0
  | _ => 0

abbrev hbmTy0_0 (i : Nat) : BufTy := match i % 128 with
  | 0 => ⟨S4096x1000, .f32⟩
  | 1 => ⟨S4096x1000, .f32⟩
  | 2 => ⟨S4096x256, .f32⟩
  | 3 => ⟨S4096x256, .f32⟩
  | 4 => ⟨S4096x256, .f32⟩
  | 5 => ⟨S4096x256, .f32⟩
  | 6 => ⟨S4096x256, .f32⟩
  | 7 => ⟨S4096x256, .f32⟩
  | 8 => ⟨S4096x1000, .f32⟩
  | 9 => ⟨S4096x1000, .f32⟩
  | 10 => ⟨S_, .f32⟩
  | 11 => ⟨S_, .f32⟩
  | 12 => ⟨S_, .f32⟩
  | 13 => ⟨S_, .f32⟩
  | 14 => ⟨S4096x256, .f32⟩
  | 15 => ⟨S_, .f32⟩
  | 16 => ⟨S4096, .f32⟩
  | 17 => ⟨S4096x1, .f32⟩
  | 18 => ⟨S1x4096, .f32⟩
  | 19 => ⟨S4096x4096, .f32⟩
  | 20 => ⟨S4096x4096, .f32⟩
  | 21 => ⟨S4096x4096, .f32⟩
  | 22 => ⟨S256x4096, .f32⟩
  | 23 => ⟨S4096x4096, .f32⟩
  | 24 => ⟨S_, .f32⟩
  | 25 => ⟨S4096x4096, .f32⟩
  | 26 => ⟨S4096x4096, .f32⟩
  | 27 => ⟨S4096x4096, .f32⟩
  | 28 => ⟨S_, .f32⟩
  | 29 => ⟨S4096x4096, .f32⟩
  | 30 => ⟨S4096x4096, .f32⟩
  | 31 => ⟨S_, .f32⟩
  | 32 => ⟨S4096x4096, .f32⟩
  | 33 => ⟨S4096x4096, .i1⟩
  | 34 => ⟨S_, .f32⟩
  | 35 => ⟨S_, .f32⟩
  | 36 => ⟨S4096x4096, .f32⟩
  | 37 => ⟨S4096x4096, .f32⟩
  | 38 => ⟨S4096x4096, .f32⟩
  | 39 => ⟨S_, .f32⟩
  | 40 => ⟨S_, .f32⟩
  | 41 => ⟨S4096x4096, .f32⟩
  | 42 => ⟨S4096x4096, .f32⟩
  | 43 => ⟨S4096x256, .f32⟩
  | 44 => ⟨S_, .f32⟩
  | 45 => ⟨S4096, .f32⟩
  | 46 => ⟨S4096x1, .f32⟩
  | 47 => ⟨S1x4096, .f32⟩
  | 48 => ⟨S4096x4096, .f32⟩
  | 49 => ⟨S4096x4096, .f32⟩
  | 50 => ⟨S4096x4096, .f32⟩
  | 51 => ⟨S256x4096, .f32⟩
  | 52 => ⟨S4096x4096, .f32⟩
  | 53 => ⟨S_, .f32⟩
  | 54 => ⟨S4096x4096, .f32⟩
  | 55 => ⟨S4096x4096, .f32⟩
  | 56 => ⟨S4096x4096, .f32⟩
  | 57 => ⟨S_, .f32⟩
  | 58 => ⟨S4096x4096, .f32⟩
  | 59 => ⟨S4096x4096, .f32⟩
  | 60 => ⟨S_, .f32⟩
  | 61 => ⟨S4096x4096, .f32⟩
  | 62 => ⟨S4096x4096, .i1⟩
  | 63 => ⟨S_, .f32⟩
  | 64 => ⟨S_, .f32⟩
  | 65 => ⟨S4096x4096, .f32⟩
  | 66 => ⟨S4096x4096, .f32⟩
  | 67 => ⟨S4096x4096, .f32⟩
  | 68 => ⟨S_, .f32⟩
  | 69 => ⟨S_, .f32⟩
  | 70 => ⟨S4096x4096, .f32⟩
  | 71 => ⟨S4096x4096, .f32⟩
  | 72 => ⟨S4096x4096, .f32⟩
  | 73 => ⟨S4096x4096, .f32⟩
  | 74 => ⟨S_, .f32⟩
  | 75 => ⟨S_, .f32⟩
  | 76 => ⟨S_, .f32⟩
  | 77 => ⟨S_, .f32⟩
  | 78 => ⟨S_, .f32⟩
  | 79 => ⟨S_, .f32⟩
  | 80 => ⟨S4096x256, .f32⟩
  | 81 => ⟨S_, .f32⟩
  | 82 => ⟨S4096, .f32⟩
  | 83 => ⟨S4096x1, .f32⟩
  | 84 => ⟨S1x4096, .f32⟩
  | 85 => ⟨S4096x4096, .f32⟩
  | 86 => ⟨S4096x4096, .f32⟩
  | 87 => ⟨S4096x4096, .f32⟩
  | 88 => ⟨S256x4096, .f32⟩
  | 89 => ⟨S4096x4096, .f32⟩
  | 90 => ⟨S_, .f32⟩
  | 91 => ⟨S4096x4096, .f32⟩
  | 92 => ⟨S4096x4096, .f32⟩
  | 93 => ⟨S4096x4096, .f32⟩
  | 94 => ⟨S_, .f32⟩
  | 95 => ⟨S4096x4096, .f32⟩
  | 96 => ⟨S4096x4096, .f32⟩
  | 97 => ⟨S_, .f32⟩
  | 98 => ⟨S4096x4096, .f32⟩
  | 99 => ⟨S4096x4096, .i1⟩
  | 100 => ⟨S_, .f32⟩
  | 101 => ⟨S_, .f32⟩
  | 102 => ⟨S4096x4096, .f32⟩
  | 103 => ⟨S4096x4096, .f32⟩
  | 104 => ⟨S4096x4096, .f32⟩
  | 105 => ⟨S_, .f32⟩
  | 106 => ⟨S_, .f32⟩
  | 107 => ⟨S4096x4096, .f32⟩
  | 108 => ⟨S4096x4096, .f32⟩
  | 109 => ⟨S4096x256, .f32⟩
  | 110 => ⟨S_, .f32⟩
  | 111 => ⟨S4096, .f32⟩
  | 112 => ⟨S4096x1, .f32⟩
  | 113 => ⟨S1x4096, .f32⟩
  | 114 => ⟨S4096x4096, .f32⟩
  | 115 => ⟨S4096x4096, .f32⟩
  | 116 => ⟨S4096x4096, .f32⟩
  | 117 => ⟨S256x4096, .f32⟩
  | 118 => ⟨S4096x4096, .f32⟩
  | 119 => ⟨S_, .f32⟩
  | 120 => ⟨S4096x4096, .f32⟩
  | 121 => ⟨S4096x4096, .f32⟩
  | 122 => ⟨S4096x4096, .f32⟩
  | 123 => ⟨S_, .f32⟩
  | 124 => ⟨S4096x4096, .f32⟩
  | 125 => ⟨S4096x4096, .f32⟩
  | 126 => ⟨S_, .f32⟩
  | 127 => ⟨S4096x4096, .f32⟩
  | _ => ⟨S4096x1000, .f32⟩

abbrev hbmTy0_1 (i : Nat) : BufTy := match i % 128 with
  | 0 => ⟨S4096x4096, .i1⟩
  | 1 => ⟨S_, .f32⟩
  | 2 => ⟨S_, .f32⟩
  | 3 => ⟨S4096x4096, .f32⟩
  | 4 => ⟨S4096x4096, .f32⟩
  | 5 => ⟨S4096x4096, .f32⟩
  | 6 => ⟨S_, .f32⟩
  | 7 => ⟨S_, .f32⟩
  | 8 => ⟨S4096x4096, .f32⟩
  | 9 => ⟨S4096x4096, .f32⟩
  | 10 => ⟨S4096x4096, .f32⟩
  | 11 => ⟨S4096x4096, .f32⟩
  | 12 => ⟨S_, .f32⟩
  | 13 => ⟨S_, .f32⟩
  | 14 => ⟨S_, .f32⟩
  | 15 => ⟨S_, .f32⟩
  | 16 => ⟨S_, .f32⟩
  | 17 => ⟨S4096x256, .f32⟩
  | 18 => ⟨S_, .f32⟩
  | 19 => ⟨S4096, .f32⟩
  | 20 => ⟨S4096x1, .f32⟩
  | 21 => ⟨S1x4096, .f32⟩
  | 22 => ⟨S4096x4096, .f32⟩
  | 23 => ⟨S4096x4096, .f32⟩
  | 24 => ⟨S4096x4096, .f32⟩
  | 25 => ⟨S256x4096, .f32⟩
  | 26 => ⟨S4096x4096, .f32⟩
  | 27 => ⟨S_, .f32⟩
  | 28 => ⟨S4096x4096, .f32⟩
  | 29 => ⟨S4096x4096, .f32⟩
  | 30 => ⟨S4096x4096, .f32⟩
  | 31 => ⟨S_, .f32⟩
  | 32 => ⟨S4096x4096, .f32⟩
  | 33 => ⟨S4096x4096, .f32⟩
  | 34 => ⟨S_, .f32⟩
  | 35 => ⟨S4096x4096, .f32⟩
  | 36 => ⟨S4096x4096, .i1⟩
  | 37 => ⟨S_, .f32⟩
  | 38 => ⟨S_, .f32⟩
  | 39 => ⟨S4096x4096, .f32⟩
  | 40 => ⟨S4096x4096, .f32⟩
  | 41 => ⟨S4096x4096, .f32⟩
  | 42 => ⟨S_, .f32⟩
  | 43 => ⟨S_, .f32⟩
  | 44 => ⟨S4096x4096, .f32⟩
  | 45 => ⟨S4096x4096, .f32⟩
  | 46 => ⟨S4096x256, .f32⟩
  | 47 => ⟨S_, .f32⟩
  | 48 => ⟨S4096, .f32⟩
  | 49 => ⟨S4096x1, .f32⟩
  | 50 => ⟨S1x4096, .f32⟩
  | 51 => ⟨S4096x4096, .f32⟩
  | 52 => ⟨S4096x4096, .f32⟩
  | 53 => ⟨S4096x4096, .f32⟩
  | 54 => ⟨S256x4096, .f32⟩
  | 55 => ⟨S4096x4096, .f32⟩
  | 56 => ⟨S_, .f32⟩
  | 57 => ⟨S4096x4096, .f32⟩
  | 58 => ⟨S4096x4096, .f32⟩
  | 59 => ⟨S4096x4096, .f32⟩
  | 60 => ⟨S_, .f32⟩
  | 61 => ⟨S4096x4096, .f32⟩
  | 62 => ⟨S4096x4096, .f32⟩
  | 63 => ⟨S_, .f32⟩
  | 64 => ⟨S4096x4096, .f32⟩
  | 65 => ⟨S4096x4096, .i1⟩
  | 66 => ⟨S_, .f32⟩
  | 67 => ⟨S_, .f32⟩
  | 68 => ⟨S4096x4096, .f32⟩
  | 69 => ⟨S4096x4096, .f32⟩
  | 70 => ⟨S4096x4096, .f32⟩
  | 71 => ⟨S_, .f32⟩
  | 72 => ⟨S_, .f32⟩
  | 73 => ⟨S4096x4096, .f32⟩
  | 74 => ⟨S4096x4096, .f32⟩
  | 75 => ⟨S4096x4096, .f32⟩
  | 76 => ⟨S4096x4096, .f32⟩
  | 77 => ⟨S_, .f32⟩
  | 78 => ⟨S_, .f32⟩
  | 79 => ⟨S_, .f32⟩
  | 80 => ⟨S_, .f32⟩
  | 81 => ⟨S_, .f32⟩
  | 82 => ⟨S_, .f32⟩
  | 83 => ⟨S_, .f32⟩
  | 84 => ⟨S_, .f32⟩
  | 85 => ⟨S_, .f32⟩
  | 86 => ⟨S_, .f32⟩
  | 87 => ⟨S_, .f32⟩
  | 88 => ⟨S_, .f32⟩
  | _ => ⟨S4096x1000, .f32⟩

abbrev hbmTy (i : Nat) : BufTy := match i / 128 with
  | 0 => hbmTy0_0 i
  | 1 => hbmTy0_1 i
  | _ => ⟨S4096x1000, .f32⟩

abbrev bufTy : (tb : Table) → Fin (tcTables nBuf tb) → BufTy
  | .hbm, ⟨i, _⟩ => hbmTy i
  | _, _ => ⟨S4096x1000, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_cst : Ref sig .tc := ⟨.hbm, 10, rfl⟩
abbrev main_v2 : Ref sig .tc := ⟨.hbm, 11, rfl⟩
abbrev main_cst_0 : Ref sig .tc := ⟨.hbm, 12, rfl⟩
abbrev main_v3 : Ref sig .tc := ⟨.hbm, 13, rfl⟩
abbrev main_v4 : Ref sig .tc := ⟨.hbm, 14, rfl⟩
abbrev main_cst_1 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_cst_2 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_cst_3 : Ref sig .tc := ⟨.hbm, 28, rfl⟩
abbrev main_v16 : Ref sig .tc := ⟨.hbm, 29, rfl⟩
abbrev main_v17 : Ref sig .tc := ⟨.hbm, 30, rfl⟩
abbrev main_cst_4 : Ref sig .tc := ⟨.hbm, 31, rfl⟩
abbrev main_v18 : Ref sig .tc := ⟨.hbm, 32, rfl⟩
abbrev main_v19 : Ref sig .tc := ⟨.hbm, 33, rfl⟩
abbrev main_cst_5 : Ref sig .tc := ⟨.hbm, 34, rfl⟩
abbrev main_call0_v0 : Ref sig .tc := ⟨.hbm, 35, rfl⟩
abbrev main_call0_v1 : Ref sig .tc := ⟨.hbm, 36, rfl⟩
abbrev main_v20 : Ref sig .tc := ⟨.hbm, 37, rfl⟩
abbrev main_v21 : Ref sig .tc := ⟨.hbm, 38, rfl⟩
abbrev main_cst_6 : Ref sig .tc := ⟨.hbm, 39, rfl⟩
abbrev main_call1_v0 : Ref sig .tc := ⟨.hbm, 40, rfl⟩
abbrev main_call1_v1 : Ref sig .tc := ⟨.hbm, 41, rfl⟩
abbrev main_v22 : Ref sig .tc := ⟨.hbm, 42, rfl⟩
abbrev main_v23 : Ref sig .tc := ⟨.hbm, 43, rfl⟩
abbrev main_cst_7 : Ref sig .tc := ⟨.hbm, 44, rfl⟩
abbrev main_v24 : Ref sig .tc := ⟨.hbm, 45, rfl⟩
abbrev main_v25 : Ref sig .tc := ⟨.hbm, 46, rfl⟩
abbrev main_v26 : Ref sig .tc := ⟨.hbm, 47, rfl⟩
abbrev main_v27 : Ref sig .tc := ⟨.hbm, 48, rfl⟩
abbrev main_v28 : Ref sig .tc := ⟨.hbm, 49, rfl⟩
abbrev main_v29 : Ref sig .tc := ⟨.hbm, 50, rfl⟩
abbrev main_v30 : Ref sig .tc := ⟨.hbm, 51, rfl⟩
abbrev main_v31 : Ref sig .tc := ⟨.hbm, 52, rfl⟩
abbrev main_cst_8 : Ref sig .tc := ⟨.hbm, 53, rfl⟩
abbrev main_v32 : Ref sig .tc := ⟨.hbm, 54, rfl⟩
abbrev main_v33 : Ref sig .tc := ⟨.hbm, 55, rfl⟩
abbrev main_v34 : Ref sig .tc := ⟨.hbm, 56, rfl⟩
abbrev main_cst_9 : Ref sig .tc := ⟨.hbm, 57, rfl⟩
abbrev main_v35 : Ref sig .tc := ⟨.hbm, 58, rfl⟩
abbrev main_v36 : Ref sig .tc := ⟨.hbm, 59, rfl⟩
abbrev main_cst_10 : Ref sig .tc := ⟨.hbm, 60, rfl⟩
abbrev main_v37 : Ref sig .tc := ⟨.hbm, 61, rfl⟩
abbrev main_v38 : Ref sig .tc := ⟨.hbm, 62, rfl⟩
abbrev main_cst_11 : Ref sig .tc := ⟨.hbm, 63, rfl⟩
abbrev main_call2_v0 : Ref sig .tc := ⟨.hbm, 64, rfl⟩
abbrev main_call2_v1 : Ref sig .tc := ⟨.hbm, 65, rfl⟩
abbrev main_v39 : Ref sig .tc := ⟨.hbm, 66, rfl⟩
abbrev main_v40 : Ref sig .tc := ⟨.hbm, 67, rfl⟩
abbrev main_cst_12 : Ref sig .tc := ⟨.hbm, 68, rfl⟩
abbrev main_call3_v0 : Ref sig .tc := ⟨.hbm, 69, rfl⟩
abbrev main_call3_v1 : Ref sig .tc := ⟨.hbm, 70, rfl⟩
abbrev main_v41 : Ref sig .tc := ⟨.hbm, 71, rfl⟩
abbrev main_v42 : Ref sig .tc := ⟨.hbm, 72, rfl⟩
abbrev main_v43 : Ref sig .tc := ⟨.hbm, 73, rfl⟩
abbrev main_cst_13 : Ref sig .tc := ⟨.hbm, 74, rfl⟩
abbrev main_v44 : Ref sig .tc := ⟨.hbm, 75, rfl⟩
abbrev main_cst_14 : Ref sig .tc := ⟨.hbm, 76, rfl⟩
abbrev main_v45 : Ref sig .tc := ⟨.hbm, 77, rfl⟩
abbrev main_cst_15 : Ref sig .tc := ⟨.hbm, 78, rfl⟩
abbrev main_v46 : Ref sig .tc := ⟨.hbm, 79, rfl⟩
abbrev main_v47 : Ref sig .tc := ⟨.hbm, 80, rfl⟩
abbrev main_cst_16 : Ref sig .tc := ⟨.hbm, 81, rfl⟩
abbrev main_v48 : Ref sig .tc := ⟨.hbm, 82, rfl⟩
abbrev main_v49 : Ref sig .tc := ⟨.hbm, 83, rfl⟩
abbrev main_v50 : Ref sig .tc := ⟨.hbm, 84, rfl⟩
abbrev main_v51 : Ref sig .tc := ⟨.hbm, 85, rfl⟩
abbrev main_v52 : Ref sig .tc := ⟨.hbm, 86, rfl⟩
abbrev main_v53 : Ref sig .tc := ⟨.hbm, 87, rfl⟩
abbrev main_v54 : Ref sig .tc := ⟨.hbm, 88, rfl⟩
abbrev main_v55 : Ref sig .tc := ⟨.hbm, 89, rfl⟩
abbrev main_cst_17 : Ref sig .tc := ⟨.hbm, 90, rfl⟩
abbrev main_v56 : Ref sig .tc := ⟨.hbm, 91, rfl⟩
abbrev main_v57 : Ref sig .tc := ⟨.hbm, 92, rfl⟩
abbrev main_v58 : Ref sig .tc := ⟨.hbm, 93, rfl⟩
abbrev main_cst_18 : Ref sig .tc := ⟨.hbm, 94, rfl⟩
abbrev main_v59 : Ref sig .tc := ⟨.hbm, 95, rfl⟩
abbrev main_v60 : Ref sig .tc := ⟨.hbm, 96, rfl⟩
abbrev main_cst_19 : Ref sig .tc := ⟨.hbm, 97, rfl⟩
abbrev main_v61 : Ref sig .tc := ⟨.hbm, 98, rfl⟩
abbrev main_v62 : Ref sig .tc := ⟨.hbm, 99, rfl⟩
abbrev main_cst_20 : Ref sig .tc := ⟨.hbm, 100, rfl⟩
abbrev main_call4_v0 : Ref sig .tc := ⟨.hbm, 101, rfl⟩
abbrev main_call4_v1 : Ref sig .tc := ⟨.hbm, 102, rfl⟩
abbrev main_v63 : Ref sig .tc := ⟨.hbm, 103, rfl⟩
abbrev main_v64 : Ref sig .tc := ⟨.hbm, 104, rfl⟩
abbrev main_cst_21 : Ref sig .tc := ⟨.hbm, 105, rfl⟩
abbrev main_call5_v0 : Ref sig .tc := ⟨.hbm, 106, rfl⟩
abbrev main_call5_v1 : Ref sig .tc := ⟨.hbm, 107, rfl⟩
abbrev main_v65 : Ref sig .tc := ⟨.hbm, 108, rfl⟩
abbrev main_v66 : Ref sig .tc := ⟨.hbm, 109, rfl⟩
abbrev main_cst_22 : Ref sig .tc := ⟨.hbm, 110, rfl⟩
abbrev main_v67 : Ref sig .tc := ⟨.hbm, 111, rfl⟩
abbrev main_v68 : Ref sig .tc := ⟨.hbm, 112, rfl⟩
abbrev main_v69 : Ref sig .tc := ⟨.hbm, 113, rfl⟩
abbrev main_v70 : Ref sig .tc := ⟨.hbm, 114, rfl⟩
abbrev main_v71 : Ref sig .tc := ⟨.hbm, 115, rfl⟩
abbrev main_v72 : Ref sig .tc := ⟨.hbm, 116, rfl⟩
abbrev main_v73 : Ref sig .tc := ⟨.hbm, 117, rfl⟩
abbrev main_v74 : Ref sig .tc := ⟨.hbm, 118, rfl⟩
abbrev main_cst_23 : Ref sig .tc := ⟨.hbm, 119, rfl⟩
abbrev main_v75 : Ref sig .tc := ⟨.hbm, 120, rfl⟩
abbrev main_v76 : Ref sig .tc := ⟨.hbm, 121, rfl⟩
abbrev main_v77 : Ref sig .tc := ⟨.hbm, 122, rfl⟩
abbrev main_cst_24 : Ref sig .tc := ⟨.hbm, 123, rfl⟩
abbrev main_v78 : Ref sig .tc := ⟨.hbm, 124, rfl⟩
abbrev main_v79 : Ref sig .tc := ⟨.hbm, 125, rfl⟩
abbrev main_cst_25 : Ref sig .tc := ⟨.hbm, 126, rfl⟩
abbrev main_v80 : Ref sig .tc := ⟨.hbm, 127, rfl⟩
abbrev main_v81 : Ref sig .tc := ⟨.hbm, 128, rfl⟩
abbrev main_cst_26 : Ref sig .tc := ⟨.hbm, 129, rfl⟩
abbrev main_call6_v0 : Ref sig .tc := ⟨.hbm, 130, rfl⟩
abbrev main_call6_v1 : Ref sig .tc := ⟨.hbm, 131, rfl⟩
abbrev main_v82 : Ref sig .tc := ⟨.hbm, 132, rfl⟩
abbrev main_v83 : Ref sig .tc := ⟨.hbm, 133, rfl⟩
abbrev main_cst_27 : Ref sig .tc := ⟨.hbm, 134, rfl⟩
abbrev main_call7_v0 : Ref sig .tc := ⟨.hbm, 135, rfl⟩
abbrev main_call7_v1 : Ref sig .tc := ⟨.hbm, 136, rfl⟩
abbrev main_v84 : Ref sig .tc := ⟨.hbm, 137, rfl⟩
abbrev main_v85 : Ref sig .tc := ⟨.hbm, 138, rfl⟩
abbrev main_v86 : Ref sig .tc := ⟨.hbm, 139, rfl⟩
abbrev main_cst_28 : Ref sig .tc := ⟨.hbm, 140, rfl⟩
abbrev main_v87 : Ref sig .tc := ⟨.hbm, 141, rfl⟩
abbrev main_cst_29 : Ref sig .tc := ⟨.hbm, 142, rfl⟩
abbrev main_v88 : Ref sig .tc := ⟨.hbm, 143, rfl⟩
abbrev main_v89 : Ref sig .tc := ⟨.hbm, 144, rfl⟩
abbrev main_v90 : Ref sig .tc := ⟨.hbm, 145, rfl⟩
abbrev main_cst_30 : Ref sig .tc := ⟨.hbm, 146, rfl⟩
abbrev main_v91 : Ref sig .tc := ⟨.hbm, 147, rfl⟩
abbrev main_v92 : Ref sig .tc := ⟨.hbm, 148, rfl⟩
abbrev main_v93 : Ref sig .tc := ⟨.hbm, 149, rfl⟩
abbrev main_v94 : Ref sig .tc := ⟨.hbm, 150, rfl⟩
abbrev main_v95 : Ref sig .tc := ⟨.hbm, 151, rfl⟩
abbrev main_v96 : Ref sig .tc := ⟨.hbm, 152, rfl⟩
abbrev main_v97 : Ref sig .tc := ⟨.hbm, 153, rfl⟩
abbrev main_v98 : Ref sig .tc := ⟨.hbm, 154, rfl⟩
abbrev main_cst_31 : Ref sig .tc := ⟨.hbm, 155, rfl⟩
abbrev main_v99 : Ref sig .tc := ⟨.hbm, 156, rfl⟩
abbrev main_v100 : Ref sig .tc := ⟨.hbm, 157, rfl⟩
abbrev main_v101 : Ref sig .tc := ⟨.hbm, 158, rfl⟩
abbrev main_cst_32 : Ref sig .tc := ⟨.hbm, 159, rfl⟩
abbrev main_v102 : Ref sig .tc := ⟨.hbm, 160, rfl⟩
abbrev main_v103 : Ref sig .tc := ⟨.hbm, 161, rfl⟩
abbrev main_cst_33 : Ref sig .tc := ⟨.hbm, 162, rfl⟩
abbrev main_v104 : Ref sig .tc := ⟨.hbm, 163, rfl⟩
abbrev main_v105 : Ref sig .tc := ⟨.hbm, 164, rfl⟩
abbrev main_cst_34 : Ref sig .tc := ⟨.hbm, 165, rfl⟩
abbrev main_call8_v0 : Ref sig .tc := ⟨.hbm, 166, rfl⟩
abbrev main_call8_v1 : Ref sig .tc := ⟨.hbm, 167, rfl⟩
abbrev main_v106 : Ref sig .tc := ⟨.hbm, 168, rfl⟩
abbrev main_v107 : Ref sig .tc := ⟨.hbm, 169, rfl⟩
abbrev main_cst_35 : Ref sig .tc := ⟨.hbm, 170, rfl⟩
abbrev main_call9_v0 : Ref sig .tc := ⟨.hbm, 171, rfl⟩
abbrev main_call9_v1 : Ref sig .tc := ⟨.hbm, 172, rfl⟩
abbrev main_v108 : Ref sig .tc := ⟨.hbm, 173, rfl⟩
abbrev main_v109 : Ref sig .tc := ⟨.hbm, 174, rfl⟩
abbrev main_cst_36 : Ref sig .tc := ⟨.hbm, 175, rfl⟩
abbrev main_v110 : Ref sig .tc := ⟨.hbm, 176, rfl⟩
abbrev main_v111 : Ref sig .tc := ⟨.hbm, 177, rfl⟩
abbrev main_v112 : Ref sig .tc := ⟨.hbm, 178, rfl⟩
abbrev main_v113 : Ref sig .tc := ⟨.hbm, 179, rfl⟩
abbrev main_v114 : Ref sig .tc := ⟨.hbm, 180, rfl⟩
abbrev main_v115 : Ref sig .tc := ⟨.hbm, 181, rfl⟩
abbrev main_v116 : Ref sig .tc := ⟨.hbm, 182, rfl⟩
abbrev main_v117 : Ref sig .tc := ⟨.hbm, 183, rfl⟩
abbrev main_cst_37 : Ref sig .tc := ⟨.hbm, 184, rfl⟩
abbrev main_v118 : Ref sig .tc := ⟨.hbm, 185, rfl⟩
abbrev main_v119 : Ref sig .tc := ⟨.hbm, 186, rfl⟩
abbrev main_v120 : Ref sig .tc := ⟨.hbm, 187, rfl⟩
abbrev main_cst_38 : Ref sig .tc := ⟨.hbm, 188, rfl⟩
abbrev main_v121 : Ref sig .tc := ⟨.hbm, 189, rfl⟩
abbrev main_v122 : Ref sig .tc := ⟨.hbm, 190, rfl⟩
abbrev main_cst_39 : Ref sig .tc := ⟨.hbm, 191, rfl⟩
abbrev main_v123 : Ref sig .tc := ⟨.hbm, 192, rfl⟩
abbrev main_v124 : Ref sig .tc := ⟨.hbm, 193, rfl⟩
abbrev main_cst_40 : Ref sig .tc := ⟨.hbm, 194, rfl⟩
abbrev main_call10_v0 : Ref sig .tc := ⟨.hbm, 195, rfl⟩
abbrev main_call10_v1 : Ref sig .tc := ⟨.hbm, 196, rfl⟩
abbrev main_v125 : Ref sig .tc := ⟨.hbm, 197, rfl⟩
abbrev main_v126 : Ref sig .tc := ⟨.hbm, 198, rfl⟩
abbrev main_cst_41 : Ref sig .tc := ⟨.hbm, 199, rfl⟩
abbrev main_call11_v0 : Ref sig .tc := ⟨.hbm, 200, rfl⟩
abbrev main_call11_v1 : Ref sig .tc := ⟨.hbm, 201, rfl⟩
abbrev main_v127 : Ref sig .tc := ⟨.hbm, 202, rfl⟩
abbrev main_v128 : Ref sig .tc := ⟨.hbm, 203, rfl⟩
abbrev main_v129 : Ref sig .tc := ⟨.hbm, 204, rfl⟩
abbrev main_cst_42 : Ref sig .tc := ⟨.hbm, 205, rfl⟩
abbrev main_v130 : Ref sig .tc := ⟨.hbm, 206, rfl⟩
abbrev main_cst_43 : Ref sig .tc := ⟨.hbm, 207, rfl⟩
abbrev main_v131 : Ref sig .tc := ⟨.hbm, 208, rfl⟩
abbrev main_v132 : Ref sig .tc := ⟨.hbm, 209, rfl⟩
abbrev main_cst_44 : Ref sig .tc := ⟨.hbm, 210, rfl⟩
abbrev main_v133 : Ref sig .tc := ⟨.hbm, 211, rfl⟩
abbrev main_cst_45 : Ref sig .tc := ⟨.hbm, 212, rfl⟩
abbrev main_v134 : Ref sig .tc := ⟨.hbm, 213, rfl⟩
abbrev main_cst_46 : Ref sig .tc := ⟨.hbm, 214, rfl⟩
abbrev main_v135 : Ref sig .tc := ⟨.hbm, 215, rfl⟩
abbrev main_v136 : Ref sig .tc := ⟨.hbm, 216, rfl⟩

abbrev nD : Nat := 1
abbrev τ : Topo := Topo.v7x

variable {F : FTy → Type} [FloatOps F]

class Facts₀ : Prop where
  reducesTo_S4096x1000_S_d0_1 : S4096x1000.ReducesTo [0, 1] S_
  h_S_ : 0 < S_.numel
  reducesTo_S4096x256_S4096_d1 : S4096x256.ReducesTo [1] S4096
  bcast_S4096_S4096x1_0 : S4096.BroadcastsInDim S4096x1 (![0] : Fin 1 → Fin S4096x1.rank)
  bcast_S4096_S1x4096_1 : S4096.BroadcastsInDim S1x4096 (![1] : Fin 1 → Fin S1x4096.rank)
  bcast_S4096x1_S4096x4096_0_1 : S4096x1.BroadcastsInDim S4096x4096 (![0, 1] : Fin 2 → Fin S4096x4096.rank)
  bcast_S1x4096_S4096x4096_0_1 : S1x4096.BroadcastsInDim S4096x4096 (![0, 1] : Fin 2 → Fin S4096x4096.rank)
  transposes_S4096x256_S256x4096_1_0 : S4096x256.Transposes [1, 0] S256x4096
  bcast_S_S4096x4096 : S_.BroadcastsInDim S4096x4096 (![] : Fin 0 → Fin S4096x4096.rank)
  reducesTo_S4096x4096_S_d0_1 : S4096x4096.ReducesTo [0, 1] S_
  dot_S4096x256_S256x4096_S4096x4096_1_0_0_1_n_n_wf : DotDims.WF S4096x256 S256x4096 S4096x4096 [1] [0] [0] [1] [] []

variable [Facts₀]

def dot_S4096x256_S256x4096_S4096x4096_1_0_0_1_n_n : DotDims S4096x256 S256x4096 S4096x4096 where
  lhsContracting := [1]
  rhsContracting := [0]
  lhsNonContracting := [0]
  rhsNonContracting := [1]
  lhsBatch := []
  rhsBatch := []
  wf := dot_S4096x256_S256x4096_S4096x4096_1_0_0_1_n_n_wf

class Facts : Prop extends Facts₀ where

variable [Facts]
-- ==== Proof.K.Data.lean ====
/-
  The data of the two kernel regions' runs, stated once for every float instance: what each window's block is at a
  grid point, what each body leaves in its output block as a function of the blocks it loads, the per-region proof
  data, and the contents of every buffer at the four boundaries between the items of the main function (region 0,
  a stretch of host operations, region 1, a final stretch of host operations).
-/
import proofs.«145363_j34256659153337_2_alg».proof.Proof.Gen.Kernel.Launch
import proofs.«145363_j34256659153337_2_alg».proof.Proof.Gen.Kernel.Skeleton
import proofs.«145363_j34256659153337_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.HF

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

variable (m : (ℓ : Loc nD τ sig) → Buf (Elt F) ℓ) (ρ : Dev nD → PrngReg)

section Regions
-- the buffer contents a region is entered from: the parameter every region's half is stated at
variable (V : (c : Dev nD) → (b : Ref sig .tc) → Buf (Elt F) ((c : Thread nD τ).loc b))

/-! ## Region 0: the label kernel -/

/-- Window w's block at point t, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The whole block of 512 rows of a label matrix. -/
abbrev r0_0 : Rect S512x1000 := Rect.unit (s := S512x1000) ![0, 0] S512x1000.size inb_S512x1000_S512x1000_0_0
/-- The whole output block. -/
abbrev r0_2 : Rect S1x8x128 := Rect.unit (s := S1x8x128) ![0, 0, 0] S1x8x128.size inb_S1x8x128_S1x8x128_0_0_0

/-- What the label body leaves in its output block, from the two blocks it loads: one store of the whole block. -/
def out0_2 (x0 x1 : Vec F S512x1000 .f32) : Vec F S1x8x128 .f32 :=
  View.canon [⟨r0_2, k0_pay1 (View.ld x0 r0_0) (View.ld x1 r0_0)⟩]

/-- The proof data of region 0 on core c: the arrays as found; after the body at point t each input's buffer at its
    block and the output's at out0_2 of the input blocks. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => out0_2 (iblk0 V c 0 t) (iblk0 V c 1 t)
  Φ _ := Pipeline.ΦA spec0 c
  q _ := fullShare
  owed _ := 0

theorem A_eq0 (c : Dev nD) (w : Fin cfg0.W) : (dat0 V c).A w = V c (Pipeline.arrRef spec0 w) := by
  dsimp only [dat0]
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) :
    (dat0 V c).after 2 t = out0_2 (iblk0 V c 0 t) (iblk0 V c 1 t) := by dsimp only [dat0]

/-! ## Region 1: the feature kernel -/

/-- Window w's block at point t, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The slab of 128 rows the body reads at grid position i out of a resident feature matrix. -/
abbrev rd1 (i : grid1.Coords) : Rect S1x4096x256 := Rect.unit (s := S1x4096x256) (k1_off1 i) S1x128x256.size (k1_off1_inb i)
/-- A whole resident feature matrix. -/
abbrev r1_0 : Rect S1x4096x256 := Rect.unit (s := S1x4096x256) ![0, 0, 0] S1x4096x256.size inb_S1x4096x256_S1x4096x256_0_0_0
/-- The whole row of squared norms. -/
abbrev r1_2 : Rect S1x1x4096 := Rect.unit (s := S1x1x4096) ![0, 0, 0] S1x1x4096.size inb_S1x1x4096_S1x1x4096_0_0_0
/-- The whole column block of squared norms. -/
abbrev r1_4 : Rect S1x128x1 := Rect.unit (s := S1x128x1) ![0, 0, 0] S1x128x1.size inb_S1x128x1_S1x128x1_0_0_0
/-- The whole output block. -/
abbrev r1_6 : Rect S1x1x8x128 := Rect.unit (s := S1x1x8x128) ![0, 0, 0, 0] S1x1x8x128.size inb_S1x1x8x128_S1x1x8x128_0_0_0_0

/-- What the feature body leaves in its output block at grid position i, from the six blocks it loads: one store of
    the whole block. -/
def out1_6 (i : grid1.Coords) (x0 x1 : Vec F S1x4096x256 .bf16) (x2 x3 : Vec F S1x1x4096 .f32)
    (x4 x5 : Vec F S1x128x1 .f32) : Vec F S1x1x8x128 .f32 :=
  View.canon [⟨r1_6, k1_pay1 (k1_pay2 (View.ld x1 (rd1 i)) (View.ld x1 r1_0)) (k1_pay3 (View.ld x3 r1_2))
    (k1_pay4 (View.ld x5 r1_4)) (k1_pay5 (View.ld x0 (rd1 i)) (View.ld x0 r1_0) (View.ld x2 r1_2) (View.ld x4 r1_4))
    (k1_pay6 (F := F))⟩]

/-- The proof data of region 1 on core c. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => iblk1 V c 5 t
    | ⟨6, _⟩ => out1_6 (grid1.coords t) (iblk1 V c 0 t) (iblk1 V c 1 t) (iblk1 V c 2 t) (iblk1 V c 3 t) (iblk1 V c 4 t) (iblk1 V c 5 t)
  Φ _ := Pipeline.ΦA spec1 c
  q _ := fullShare
  owed _ := 0

theorem A_eq1 (c : Dev nD) (w : Fin cfg1.W) : (dat1 V c).A w = V c (Pipeline.arrRef spec1 w) := by
  dsimp only [dat1]
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]
theorem after1_5 (c : Dev nD) (t : Fin cfg1.N) : (dat1 V c).after 5 t = iblk1 V c 5 t := by dsimp only [dat1]
theorem after1_6 (c : Dev nD) (t : Fin cfg1.N) :
    (dat1 V c).after 6 t = out1_6 (grid1.coords t) (iblk1 V c 0 t) (iblk1 V c 1 t) (iblk1 V c 2 t) (iblk1 V c 3 t) (iblk1 V c 4 t) (iblk1 V c 5 t) := by
  dsimp only [dat1]

end Regions

/-! ## The buffer contents at each boundary between the main function's items -/

/-- Core c's buffers at launch: what region 0 is entered from. -/
abbrev W0 : Dev nD → Valuation τ sig (Elt F) := fun c b => (s₀ m ρ).mem ((c : Dev nD), b)
/-- The same read at the core's references. -/
abbrev V0 : (c : Dev nD) → (b : Ref sig .tc) → Buf (Elt F) ((c : Thread nD τ).loc b) := fun c b => W0 m ρ c b
/-- At region 0's exit: its arrays at what the pipeline leaves, every other buffer as entered. -/
def W1 (c : Dev nD) : Valuation τ sig (Elt F) :=
  Pipeline.withArrays spec0 c (W0 m ρ c) fun w => (dat0 (V0 m ρ) c).arrAt w cfg0.N
theorem W1_arr (c : Dev nD) (w : Fin cfg0.W) :
    W1 m ρ c (Proc.devRef .tc (Pipeline.arrRef spec0 w)) = (dat0 (V0 m ρ) c).arrAt w cfg0.N := by
  unfold W1; exact Pipeline.withArrays_arr spec0 launch0.win.arr_inj c _ _ w
theorem W1_of_ne (c : Dev nD) (b : Ref sig .tc) (hb : ∀ w, Pipeline.arrRef spec0 w ≠ b) :
    W1 m ρ c (Proc.devRef .tc b) = W0 m ρ c (Proc.devRef .tc b) := by
  unfold W1; exact Pipeline.withArrays_of_ne spec0 c _ _ b hb
abbrev V1 : (c : Dev nD) → (b : Ref sig .tc) → Buf (Elt F) ((c : Thread nD τ).loc b) := fun c b => W1 m ρ c b
theorem hF0 (c : Dev nD) (w : Fin cfg0.W) : (dat0 (V0 m ρ) c).arrAt w cfg0.N = V1 m ρ c (Pipeline.arrRef spec0 w) :=
  (W1_arr m ρ c w).symm
theorem hrest0 (c : Dev nD) : ∀ b, b ∉ Finset.univ.image (Pipeline.arrRef spec0) → V1 m ρ c b = V0 m ρ c b :=
  fun b hb => W1_of_ne m ρ c b fun w e => hb (Finset.mem_image.mpr ⟨w, Finset.mem_univ _, e⟩)

/-- After the first stretch of host operations: what region 1 is entered from. -/
abbrev W2 : Dev nD → Valuation τ sig (Elt F) := fun c => StableHlo.after hostOps1 (W1 m ρ c)
abbrev V2 : (c : Dev nD) → (b : Ref sig .tc) → Buf (Elt F) ((c : Thread nD τ).loc b) := fun c b => W2 m ρ c b
/-- At region 1's exit. -/
def W3 (c : Dev nD) : Valuation τ sig (Elt F) :=
  Pipeline.withArrays spec1 c (W2 m ρ c) fun w => (dat1 (V2 m ρ) c).arrAt w cfg1.N
theorem W3_arr (c : Dev nD) (w : Fin cfg1.W) :
    W3 m ρ c (Proc.devRef .tc (Pipeline.arrRef spec1 w)) = (dat1 (V2 m ρ) c).arrAt w cfg1.N := by
  unfold W3; exact Pipeline.withArrays_arr spec1 launch1.win.arr_inj c _ _ w
theorem W3_of_ne (c : Dev nD) (b : Ref sig .tc) (hb : ∀ w, Pipeline.arrRef spec1 w ≠ b) :
    W3 m ρ c (Proc.devRef .tc b) = W2 m ρ c (Proc.devRef .tc b) := by
  unfold W3; exact Pipeline.withArrays_of_ne spec1 c _ _ b hb
abbrev V3 : (c : Dev nD) → (b : Ref sig .tc) → Buf (Elt F) ((c : Thread nD τ).loc b) := fun c b => W3 m ρ c b
theorem hF1 (c : Dev nD) (w : Fin cfg1.W) : (dat1 (V2 m ρ) c).arrAt w cfg1.N = V3 m ρ c (Pipeline.arrRef spec1 w) :=
  (W3_arr m ρ c w).symm
theorem hrest1 (c : Dev nD) : ∀ b, b ∉ Finset.univ.image (Pipeline.arrRef spec1) → V3 m ρ c b = V2 m ρ c b :=
  fun b hb => W3_of_ne m ρ c b fun w e => hb (Finset.mem_image.mpr ⟨w, Finset.mem_univ _, e⟩)

/-- After the last stretch of host operations: what the main function returns from. -/
abbrev W4 : Dev nD → Valuation τ sig (Elt F) := fun c => StableHlo.after hostOps2 (W3 m ρ c)

/-! ## The proof data family -/

/-- No pipeline has a prefetched table. -/
abbrev adm : (p : Fin 2) → (pcfgs (F := F) p).Adm := fun p => (cfgs p).toPCfg_adm
/-- Every pipeline's proof data, each at its region's entry contents. -/
def pdats : (p : Fin 2) → (c : Dev nD) → Dat τ (Elt F) Unit ℕ (UR sig nD τ) ℕ (Pipeline.pin (pcfgs (F := F)) adm p) c
  | ⟨0, _⟩ => fun c => dat0 (V0 m ρ) c
  | ⟨1, _⟩ => fun c => dat1 (V2 m ρ) c

end Cert.Kernel.HF

end
-- ==== Proof.K.Region0.lean ====
/-
  Region 0, the label kernel, at any entry contents: its one store covers the output block; each input block is
  what the body finds in its staging buffer at every grid point; the body, run on whole staging buffers holding the
  two input blocks, leaves them as they were and the output buffer at the block sum of the squared differences
  broadcast over the block; hence the pipeline's obligation for the body at every grid point.
-/
import proofs.«145363_j34256659153337_2_alg».proof.Proof.K.Data

set_option maxRecDepth 16384

noncomputable section

namespace Cert.Kernel.HF

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Regions
variable (V : (c : Dev nD) → (b : Ref sig .tc) → Buf (Elt F) ((c : Thread nD τ).loc b))

/-! ## What the body finds in the input buffers -/

/-- Input window 0's current staging buffer holds its block at every point, fetched there or not, for any proof data
    whose array is the entry contents and whose body leaves the block in place: where the window is not fetched its
    block index has not moved since the previous point, so the block still held is this point's. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- Input window 1's current staging buffer holds its block at every point, fetched there or not, for any proof data
    whose array is the entry contents and whose body leaves the block in place: where the window is not fetched its
    block index has not moved since the previous point, so the block still held is this point's. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d

/-! ## The body's one store covers the output block -/

theorem cover0_2 (p0 : Vec F S1x8x128 .f32) (y : S1x8x128.Idx) :
    ∃ pc ∈ ([⟨r0_2, p0⟩] : List (View.Piece (Elt F) S1x8x128 .f32)), y ∈ pc.1.set :=
  View.cover_of_tiled [⟨r0_2, p0⟩] S1x8x128.size (by rfl) y

/-! ## The body's triple -/

set_option maxHeartbeats 1000000 in
/-- The label body on whole staging buffers, the two inputs' reading x0 and x1 and the output's holding anything,
    runs to the continuation with the inputs' as they were and the output's at out0_2 x0 x1: it loads both input
    blocks whole, loads the output block (a value it does not use), and stores the whole output block once. -/
theorem sound_kernel0 (c : Dev nD) (E : Set ℕ) (i : grid0.Coords) (arg1 : Memref sig .tc .vmem S512x1000 .f32) (harg1 : arg1.IsWhole)
    (arg2 : Memref sig .tc .vmem S512x1000 .f32) (harg2 : arg2.IsWhole) (arg3 : Memref sig .tc .vmem S1x8x128 .f32) (harg3 : arg3.IsWhole)
    (x0 x1 : Vec F S512x1000 .f32) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1
            ∗ owns (c : Thread nD τ) arg3 fullShare (out0_2 x0 x1)) -∗ K ⟨⟩))
      ⊢ wp frame (wpE (defs₀ (F := F)) Variants.none c none) E (cc0__label_kernel i arg1 harg1 arg2 harg2 arg3 harg3) K := by
  simp only [cc0__label_kernel_eq_skeleton]; unfold cc0__label_kernel_skel
  unfold owns
  iintro ⟨⟨%f0, %hf0, H0⟩, ⟨%f1, %hf1, H1⟩, ⟨%d2, %f2, -, H2⟩, Hk⟩
  subst hf0 hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  try dsimp only
  exact View.read_writes_eq_canon _ _ _ (cover0_2 _)

/-! ## The body obligation, at a generic point -/

/-- What the body is called with at point t, the windows one by one, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t))

/-- The body at any point: the input buffers hold their blocks, so the body's triple applies; the invariant and what
    the core owes pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1]
  rw [show (dat0 V c).Φ t.succ = (dat0 V c).Φ t.castSucc from rfl,
    show (dat0 V c).owesAt () t.succ = (dat0 V c).owesAt () t.castSucc from rfl,
    after0_0, after0_1, after0_2]
  iintro ⟨HΦ, Ho, ⟨%d0, H0⟩, ⟨%d1, H1⟩, ⟨%d2, H2⟩⟩
  iapply (sound_kernel0 c Set.univ (grid0.coords t) _ _ _ _ _ _ (iblk0 V c 0 t) (iblk0 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The pipeline's body obligation, at every point. -/
theorem body_obligation0 (c : Dev nD) : BodyObligation (dat0 (F := F) V c) (defs₀ (F := F)) Variants.none () Set.univ := fun t => by
  rw [bigSep_W0, bigSep_W0]
  exact sound_body0 V c t

end Regions

end Cert.Kernel.HF

end
-- ==== Proof.K.Region1.lean ====
/-
  Region 1, the feature kernel, at any entry contents: its one store covers the output block; each of the six input
  blocks is what the body finds in its staging buffer at every grid point (the two resident feature matrices and the
  two rows of squared norms are fetched only when the feature index changes, and in between the buffers still hold
  the same blocks); the body at grid position i, run on whole staging buffers holding the six input blocks, leaves
  them as they were and the output buffer at the block sum of the squared differences of the two distance slabs
  broadcast over the block; hence the pipeline's obligation for the body at every grid point.
-/
import proofs.«145363_j34256659153337_2_alg».proof.Proof.K.Data

set_option maxRecDepth 16384

noncomputable section

namespace Cert.Kernel.HF

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Regions
variable (V : (c : Dev nD) → (b : Ref sig .tc) → Buf (Elt F) ((c : Thread nD τ).loc b))

/-! ## What the body finds in the input buffers -/

/-- Input window 0's current staging buffer holds its block at every point, fetched there or not, for any proof data
    whose array is the entry contents and whose body leaves the block in place: where the window is not fetched its
    block index has not moved since the previous point, so the block still held is this point's. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-- Input window 1's current staging buffer holds its block at every point, fetched there or not, for any proof data
    whose array is the entry contents and whose body leaves the block in place: where the window is not fetched its
    block index has not moved since the previous point, so the block still held is this point's. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-- Input window 2's current staging buffer holds its block at every point, fetched there or not, for any proof data
    whose array is the entry contents and whose body leaves the block in place: where the window is not fetched its
    block index has not moved since the previous point, so the block still held is this point's. -/
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

/-- Input window 3's current staging buffer holds its block at every point, fetched there or not, for any proof data
    whose array is the entry contents and whose body leaves the block in place: where the window is not fetched its
    block index has not moved since the previous point, so the block still held is this point's. -/
theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)

/-- Input window 4's current staging buffer holds its block at every point, fetched there or not, for any proof data
    whose array is the entry contents and whose body leaves the block in place: where the window is not fetched its
    block index has not moved since the previous point, so the block still held is this point's. -/
theorem before1_4_of {c : Dev nD} (dat : Dat τ (Elt F) Unit ℕ (UR sig nD τ) ℕ cfg1 c) (hA : dat.A 4 = V c (Pipeline.arrRef spec1 4))
    (hafter : ∀ t, dat.after 4 t = iblk1 V c 4 t) (t : Fin cfg1.N) (d) : dat.before 4 t d = iblk1 V c 4 t :=
  (dat.before_in_eq_fetched 4 rfl (fun _ => rfl) (fun _ _ _ => rfl) (fun t => by rw [hafter]; unfold Dat.blockOf iblk1; rw [hA]; try rfl) t d).trans
    (by unfold Dat.fetched Dat.blockOf iblk1; rw [hA]; try rfl)

/-- Input window 5's current staging buffer holds its block at every point, fetched there or not, for any proof data
    whose array is the entry contents and whose body leaves the block in place: where the window is not fetched its
    block index has not moved since the previous point, so the block still held is this point's. -/
theorem before1_5_of {c : Dev nD} (dat : Dat τ (Elt F) Unit ℕ (UR sig nD τ) ℕ cfg1 c) (hA : dat.A 5 = V c (Pipeline.arrRef spec1 5))
    (hafter : ∀ t, dat.after 5 t = iblk1 V c 5 t) (t : Fin cfg1.N) (d) : dat.before 5 t d = iblk1 V c 5 t :=
  (dat.before_in_eq_fetched 5 rfl (fun _ => rfl) (fun _ _ _ => rfl) (fun t => by rw [hafter]; unfold Dat.blockOf iblk1; rw [hA]; try rfl) t d).trans
    (by unfold Dat.fetched Dat.blockOf iblk1; rw [hA]; try rfl)

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d
theorem before1_4 (c : Dev nD) (t : Fin cfg1.N) (d) : (dat1 V c).before 4 t d = iblk1 V c 4 t :=
  before1_4_of V (dat1 V c) (A_eq1 V c 4) (after1_4 V c) t d
theorem before1_5 (c : Dev nD) (t : Fin cfg1.N) (d) : (dat1 V c).before 5 t d = iblk1 V c 5 t :=
  before1_5_of V (dat1 V c) (A_eq1 V c 5) (after1_5 V c) t d

/-! ## The body's one store covers the output block -/

theorem cover1_6 (p0 : Vec F S1x1x8x128 .f32) (y : S1x1x8x128.Idx) :
    ∃ pc ∈ ([⟨r1_6, p0⟩] : List (View.Piece (Elt F) S1x1x8x128 .f32)), y ∈ pc.1.set :=
  View.cover_of_tiled [⟨r1_6, p0⟩] S1x1x8x128.size (by rfl) y

/-! ## The body's triple -/

set_option maxHeartbeats 1000000 in
/-- The feature body at grid position i on whole staging buffers, the six inputs' reading x0 … x5 and the output's
    holding anything, runs to the continuation with the inputs' as they were and the output's at
    out1_6 i x0 … x5: it loads the slab of 128 rows at position i and the whole matrix from each of the two feature
    buffers, the two rows and the two column blocks of squared norms whole, loads the output block (a value it does
    not use), and stores the whole output block once. -/
theorem sound_kernel1 (c : Dev nD) (E : Set ℕ) (i : grid1.Coords)
    (arg2 : Memref sig .tc .vmem S1x4096x256 .bf16) (harg2 : arg2.IsWhole) (arg3 : Memref sig .tc .vmem S1x4096x256 .bf16) (harg3 : arg3.IsWhole)
    (arg4 : Memref sig .tc .vmem S1x1x4096 .f32) (harg4 : arg4.IsWhole) (arg5 : Memref sig .tc .vmem S1x1x4096 .f32) (harg5 : arg5.IsWhole)
    (arg6 : Memref sig .tc .vmem S1x128x1 .f32) (harg6 : arg6.IsWhole) (arg7 : Memref sig .tc .vmem S1x128x1 .f32) (harg7 : arg7.IsWhole)
    (arg8 : Memref sig .tc .vmem S1x1x8x128 .f32) (harg8 : arg8.IsWhole)
    (x0 x1 : Vec F S1x4096x256 .bf16) (x2 x3 : Vec F S1x1x4096 .f32) (x4 x5 : Vec F S1x128x1 .f32) (K : PUnit → sProp 𝕄) :
    iprop(owns (c : Thread nD τ) arg2 fullShare x0 ∗ owns (c : Thread nD τ) arg3 fullShare x1 ∗ owns (c : Thread nD τ) arg4 fullShare x2
        ∗ owns (c : Thread nD τ) arg5 fullShare x3 ∗ owns (c : Thread nD τ) arg6 fullShare x4 ∗ owns (c : Thread nD τ) arg7 fullShare x5
        ∗ (∃ d, owns (c : Thread nD τ) arg8 fullShare d)
        ∗ (iprop(owns (c : Thread nD τ) arg2 fullShare x0 ∗ owns (c : Thread nD τ) arg3 fullShare x1 ∗ owns (c : Thread nD τ) arg4 fullShare x2
            ∗ owns (c : Thread nD τ) arg5 fullShare x3 ∗ owns (c : Thread nD τ) arg6 fullShare x4 ∗ owns (c : Thread nD τ) arg7 fullShare x5
            ∗ owns (c : Thread nD τ) arg8 fullShare (out1_6 i x0 x1 x2 x3 x4 x5)) -∗ K ⟨⟩))
      ⊢ wp frame (wpE (defs₀ (F := F)) Variants.none c none) E
          (cc1__feat_kernel i arg2 harg2 arg3 harg3 arg4 harg4 arg5 harg5 arg6 harg6 arg7 harg7 arg8 harg8) K := by
  simp only [cc1__feat_kernel_eq_skeleton]; unfold cc1__feat_kernel_skel
  simp only [k1_part1_eq_skeleton]; unfold k1_part1_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, Hk⟩
  subst hf0 hf1 hf2 hf3 hf4 hf5
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  iexists _; isplitr
  swap; · iexact H6
  ipureintro
  try dsimp only
  exact View.read_writes_eq_canon _ _ _ (cover1_6 _)

/-! ## The body obligation, at a generic point -/

/-- What the body is called with at point t, the windows one by one, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d))
    ∗ (∃ d, owns (c : Thread nD τ) (st1_5 t) fullShare ((dat1 V c).before 5 t d))
    ∗ (∃ d, owns (c : Thread nD τ) (st1_6 t) fullShare ((dat1 V c).before 6 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t)
    ∗ owns (c : Thread nD τ) (st1_4 t) fullShare ((dat1 V c).after 4 t)
    ∗ owns (c : Thread nD τ) (st1_5 t) fullShare ((dat1 V c).after 5 t)
    ∗ owns (c : Thread nD τ) (st1_6 t) fullShare ((dat1 V c).after 6 t))

/-- The body at any point: the input buffers hold their blocks, so the body's triple applies at the point's grid
    position; the invariant and what the core owes pass through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4, before1_5]
  rw [show (dat1 V c).Φ t.succ = (dat1 V c).Φ t.castSucc from rfl,
    show (dat1 V c).owesAt () t.succ = (dat1 V c).owesAt () t.castSucc from rfl,
    after1_0, after1_1, after1_2, after1_3, after1_4, after1_5, after1_6]
  iintro ⟨HΦ, Ho, ⟨%d0, H0⟩, ⟨%d1, H1⟩, ⟨%d2, H2⟩, ⟨%d3, H3⟩, ⟨%d4, H4⟩, ⟨%d5, H5⟩, ⟨%d6, H6⟩⟩
  iapply (sound_kernel1 c Set.univ (grid1.coords t) _ _ _ _ _ _ _ _ _ _ _ _ _ _
    (iblk1 V c 0 t) (iblk1 V c 1 t) (iblk1 V c 2 t) (iblk1 V c 3 t) (iblk1 V c 4 t) (iblk1 V c 5 t) _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  iintro ⟨H0, H1, H2, H3, H4, H5, H6⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexact H6

/-- The pipeline's body obligation, at every point. -/
theorem body_obligation1 (c : Dev nD) : BodyObligation (dat1 (F := F) V c) (defs₀ (F := F)) Variants.none () Set.univ := fun t => by
  rw [bigSep_W1, bigSep_W1]
  exact sound_body1 V c t

end Regions

end Cert.Kernel.HF

end
-- ==== Proof.K.Run.lean ====
/-
  The run of the main function: region 0, a stretch of host operations, region 1, a final stretch of host
  operations, as four segments over the thread state "every unscoped buffer of the core at the boundary's contents,
  the generator register at some state, nothing owed". From any memory with zero counters every weakly fair
  execution terminates, and every unscoped buffer of every core ends at the contents the last boundary names;
  read at the eight argument arrays, which no host operation writes and which the regions read through input windows
  or not at all, this says each argument ends holding what it was launched with.
-/
import proofs.«145363_j34256659153337_2_alg».proof.Proof.K.Region0
import proofs.«145363_j34256659153337_2_alg».proof.Proof.K.Region1
import proofs.«145363_j34256659153337_2_alg».proof.Proof.Gen.Kernel.Regions

set_option maxRecDepth 16384

noncomputable section

namespace Cert.Kernel.HF

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The thread state -/

abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every segment: the core's generator register at some state and what the
    core owes, which is nothing. -/
abbrev R (c : Dev nD) : sProp 𝕄 := iprop((∃ r, prngReg c r) ∗ ∃ W, owes (c : Thread nD τ) (0 : CellTallies nD τ sig Unit) W)
/-- A stretch of host operations as a segment: from the unscoped buffers at the contents W it runs to the same
    buffers at the contents the operations compute from W, the rest of the state riding along. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
/-- An unscoped reference of the core is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without what the core owes: every unscoped buffer at the last boundary's contents, the
    generator register at some state. -/
abbrev Tₙ (c : Dev nD) : sProp 𝕄 := iprop(StableHlo.held (c : Thread nD τ) (Pipeline.ucRefs τ sig) (W4 m ρ c) ∗ ∃ r, prngReg c r)

/-! ## The regions as segments -/

set_option backward.isDefEq.respectTransparency.types false in
/-- Region 0 over the thread state: entered from every unscoped buffer at W0, left at W1 (what the first host stretch is entered from). Its arrays are split out of the unscoped buffers on entry and put back at the exit contents; the generator
    register goes into the invariant and comes out; nothing is owed; the kernel has no semaphore of its own. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V0 m ρ) c).loose
  hwaits := Pipeline.hwaits_of_owed_zero _ _ _ _ L lv 0 fun _ _ => rfl
  pre c := iprop(StableHlo.held (c : Thread nD τ) (Pipeline.ucRefs τ sig) (W0 m ρ c) ∗ R c)
  post c := iprop(StableHlo.held (c : Thread nD τ) (Pipeline.ucRefs τ sig) (W1 m ρ c) ∗ R c)
  X c := iprop(∃ r, prngReg c r)
  Y c := iprop(∃ r, prngReg c r)
  Z c := Pipeline.unscopedRest (Ix := Unit) (Name := ℕ) (U := UR sig nD τ) (Lvl := ℕ) spec0 c (V0 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V0 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V0 m ρ c) (V1 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 1 over the thread state: entered from every unscoped buffer at W2, left at W3 (what the last host stretch is entered from). Its arrays are split out of the unscoped buffers on entry and put back at the exit contents; the generator
    register goes into the invariant and comes out; nothing is owed; the kernel has no semaphore of its own. -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V2 m ρ) c).loose
  hwaits := Pipeline.hwaits_of_owed_zero _ _ _ _ L lv 1 fun _ _ => rfl
  pre c := iprop(StableHlo.held (c : Thread nD τ) (Pipeline.ucRefs τ sig) (W2 m ρ c) ∗ R c)
  post c := iprop(StableHlo.held (c : Thread nD τ) (Pipeline.ucRefs τ sig) (W3 m ρ c) ∗ R c)
  X c := iprop(∃ r, prngReg c r)
  Y c := iprop(∃ r, prngReg c r)
  Z c := Pipeline.unscopedRest (Ix := Unit) (Name := ℕ) (U := UR sig nD τ) (Lvl := ℕ) spec1 c (V2 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V2 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m ρ 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (V2 m ρ c) (V3 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## The main function as segments -/

/-- The main function's four segments in order. -/
abbrev segs : List (Pipeline.Seg (pcfgs (F := F)) adm (pdats m ρ) () defs₀ 𝒱₀ L lv) :=
  [ .region (reg0 m ρ),
    .host (hseg hostOps1 hostOps1_sub hostOps1_fresh (W1 m ρ)),
    .region (reg1 m ρ),
    .host (hseg hostOps2 hostOps2_sub hostOps2_fresh (W3 m ρ)) ]
/-- The main function is the run of the segments: it is the chain of its four items, and the segments' run is that
    chain by definitional unfolding. -/
theorem main_run (c : Dev nD) : main (F := F) c = Pipeline.Seg.run (segs m ρ) := (main_chain c).trans (by chain_rfl)

set_option backward.isDefEq.respectTransparency.types false in
/-- THE RUN: from any memory with zero counters, every weakly fair execution of the main function on the cores
    terminates, nothing faulting, and in every final state every unscoped buffer of every core holds what the last
    boundary's contents name for it. -/
theorem run_main : θ_run defs (onTc (τ := τ) (main (F := F))) ⟨m, fun _ => 0, ρ⟩ (fun r => ∀ c : Dev nD,
      ∀ b ∈ Pipeline.ucRefs τ sig, r.2.mem (((c : Thread nD τ)).1, b) = W4 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun c => show iprop(StableHlo.held (c : Thread nD τ) (Pipeline.ucRefs τ sig) (W4 m ρ c) ∗ R c)
        ⊢ iprop(Tₙ m ρ c ∗ ∃ W, owes (c : Thread nD τ) (0 : CellTallies nD τ sig Unit) W) from by
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun _ h => h)

/-! ## The arguments end as launched

No host operation writes an argument array, region 0 reads the two label matrices through input windows (which the
pipeline leaves as it found them) and stages none of the six feature matrices, region 1 stages no argument: so the
contents the boundaries name for an argument's buffer walk back, boundary by boundary, to the launch memory. -/

theorem W4_main_arg0 (c : Dev nD) : W4 m ρ c (Proc.devRef .tc main_arg0) = m ((c : Thread nD τ).loc main_arg0) :=
  calc W4 m ρ c (Proc.devRef .tc main_arg0)
    _ = W3 m ρ c (Proc.devRef .tc main_arg0) := StableHlo.after_of_writes_sub hostOps2 _ hostOps2_writes (by decide)
    _ = W2 m ρ c (Proc.devRef .tc main_arg0) := W3_of_ne m ρ c main_arg0 (by decide)
    _ = W1 m ρ c (Proc.devRef .tc main_arg0) := StableHlo.after_of_writes_sub hostOps1 _ hostOps1_writes (by decide)
    _ = W0 m ρ c (Proc.devRef .tc main_arg0) := (W1_arr m ρ c 0).trans (((dat0 (V0 m ρ) c).arrAt_in 0 rfl _).trans (A_eq0 (V0 m ρ) c 0))
    _ = m ((c : Thread nD τ).loc main_arg0) := rfl
theorem W4_main_arg1 (c : Dev nD) : W4 m ρ c (Proc.devRef .tc main_arg1) = m ((c : Thread nD τ).loc main_arg1) :=
  calc W4 m ρ c (Proc.devRef .tc main_arg1)
    _ = W3 m ρ c (Proc.devRef .tc main_arg1) := StableHlo.after_of_writes_sub hostOps2 _ hostOps2_writes (by decide)
    _ = W2 m ρ c (Proc.devRef .tc main_arg1) := W3_of_ne m ρ c main_arg1 (by decide)
    _ = W1 m ρ c (Proc.devRef .tc main_arg1) := StableHlo.after_of_writes_sub hostOps1 _ hostOps1_writes (by decide)
    _ = W0 m ρ c (Proc.devRef .tc main_arg1) := (W1_arr m ρ c 1).trans (((dat0 (V0 m ρ) c).arrAt_in 1 rfl _).trans (A_eq0 (V0 m ρ) c 1))
    _ = m ((c : Thread nD τ).loc main_arg1) := rfl
theorem W4_main_arg2 (c : Dev nD) : W4 m ρ c (Proc.devRef .tc main_arg2) = m ((c : Thread nD τ).loc main_arg2) :=
  calc W4 m ρ c (Proc.devRef .tc main_arg2)
    _ = W3 m ρ c (Proc.devRef .tc main_arg2) := StableHlo.after_of_writes_sub hostOps2 _ hostOps2_writes (by decide)
    _ = W2 m ρ c (Proc.devRef .tc main_arg2) := W3_of_ne m ρ c main_arg2 (by decide)
    _ = W1 m ρ c (Proc.devRef .tc main_arg2) := StableHlo.after_of_writes_sub hostOps1 _ hostOps1_writes (by decide)
    _ = W0 m ρ c (Proc.devRef .tc main_arg2) := W1_of_ne m ρ c main_arg2 (by decide)
    _ = m ((c : Thread nD τ).loc main_arg2) := rfl
theorem W4_main_arg3 (c : Dev nD) : W4 m ρ c (Proc.devRef .tc main_arg3) = m ((c : Thread nD τ).loc main_arg3) :=
  calc W4 m ρ c (Proc.devRef .tc main_arg3)
    _ = W3 m ρ c (Proc.devRef .tc main_arg3) := StableHlo.after_of_writes_sub hostOps2 _ hostOps2_writes (by decide)
    _ = W2 m ρ c (Proc.devRef .tc main_arg3) := W3_of_ne m ρ c main_arg3 (by decide)
    _ = W1 m ρ c (Proc.devRef .tc main_arg3) := StableHlo.after_of_writes_sub hostOps1 _ hostOps1_writes (by decide)
    _ = W0 m ρ c (Proc.devRef .tc main_arg3) := W1_of_ne m ρ c main_arg3 (by decide)
    _ = m ((c : Thread nD τ).loc main_arg3) := rfl
theorem W4_main_arg4 (c : Dev nD) : W4 m ρ c (Proc.devRef .tc main_arg4) = m ((c : Thread nD τ).loc main_arg4) :=
  calc W4 m ρ c (Proc.devRef .tc main_arg4)
    _ = W3 m ρ c (Proc.devRef .tc main_arg4) := StableHlo.after_of_writes_sub hostOps2 _ hostOps2_writes (by decide)
    _ = W2 m ρ c (Proc.devRef .tc main_arg4) := W3_of_ne m ρ c main_arg4 (by decide)
    _ = W1 m ρ c (Proc.devRef .tc main_arg4) := StableHlo.after_of_writes_sub hostOps1 _ hostOps1_writes (by decide)
    _ = W0 m ρ c (Proc.devRef .tc main_arg4) := W1_of_ne m ρ c main_arg4 (by decide)
    _ = m ((c : Thread nD τ).loc main_arg4) := rfl
theorem W4_main_arg5 (c : Dev nD) : W4 m ρ c (Proc.devRef .tc main_arg5) = m ((c : Thread nD τ).loc main_arg5) :=
  calc W4 m ρ c (Proc.devRef .tc main_arg5)
    _ = W3 m ρ c (Proc.devRef .tc main_arg5) := StableHlo.after_of_writes_sub hostOps2 _ hostOps2_writes (by decide)
    _ = W2 m ρ c (Proc.devRef .tc main_arg5) := W3_of_ne m ρ c main_arg5 (by decide)
    _ = W1 m ρ c (Proc.devRef .tc main_arg5) := StableHlo.after_of_writes_sub hostOps1 _ hostOps1_writes (by decide)
    _ = W0 m ρ c (Proc.devRef .tc main_arg5) := W1_of_ne m ρ c main_arg5 (by decide)
    _ = m ((c : Thread nD τ).loc main_arg5) := rfl
theorem W4_main_arg6 (c : Dev nD) : W4 m ρ c (Proc.devRef .tc main_arg6) = m ((c : Thread nD τ).loc main_arg6) :=
  calc W4 m ρ c (Proc.devRef .tc main_arg6)
    _ = W3 m ρ c (Proc.devRef .tc main_arg6) := StableHlo.after_of_writes_sub hostOps2 _ hostOps2_writes (by decide)
    _ = W2 m ρ c (Proc.devRef .tc main_arg6) := W3_of_ne m ρ c main_arg6 (by decide)
    _ = W1 m ρ c (Proc.devRef .tc main_arg6) := StableHlo.after_of_writes_sub hostOps1 _ hostOps1_writes (by decide)
    _ = W0 m ρ c (Proc.devRef .tc main_arg6) := W1_of_ne m ρ c main_arg6 (by decide)
    _ = m ((c : Thread nD τ).loc main_arg6) := rfl
theorem W4_main_arg7 (c : Dev nD) : W4 m ρ c (Proc.devRef .tc main_arg7) = m ((c : Thread nD τ).loc main_arg7) :=
  calc W4 m ρ c (Proc.devRef .tc main_arg7)
    _ = W3 m ρ c (Proc.devRef .tc main_arg7) := StableHlo.after_of_writes_sub hostOps2 _ hostOps2_writes (by decide)
    _ = W2 m ρ c (Proc.devRef .tc main_arg7) := W3_of_ne m ρ c main_arg7 (by decide)
    _ = W1 m ρ c (Proc.devRef .tc main_arg7) := StableHlo.after_of_writes_sub hostOps1 _ hostOps1_writes (by decide)
    _ = W0 m ρ c (Proc.devRef .tc main_arg7) := W1_of_ne m ρ c main_arg7 (by decide)
    _ = m ((c : Thread nD τ).loc main_arg7) := rfl

/-- THE FRAME: from any memory with zero counters, every weakly fair execution of the main function terminates and
    every final state has the eight argument arrays as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  (θ_run defs _ _).mono (fun _ h c =>
    ⟨(h c _ (mem_uc main_arg0 (by decide))).trans (W4_main_arg0 m ρ c),
      (h c _ (mem_uc main_arg1 (by decide))).trans (W4_main_arg1 m ρ c),
      (h c _ (mem_uc main_arg2 (by decide))).trans (W4_main_arg2 m ρ c),
      (h c _ (mem_uc main_arg3 (by decide))).trans (W4_main_arg3 m ρ c),
      (h c _ (mem_uc main_arg4 (by decide))).trans (W4_main_arg4 m ρ c),
      (h c _ (mem_uc main_arg5 (by decide))).trans (W4_main_arg5 m ρ c),
      (h c _ (mem_uc main_arg6 (by decide))).trans (W4_main_arg6 m ρ c),
      (h c _ (mem_uc main_arg7 (by decide))).trans (W4_main_arg7 m ρ c)⟩) (run_main m ρ)

end Cert.Kernel.HF

end
-- ==== Proof.KI.Data.lean ====
/-
  The data of the two kernel regions' runs, stated once for every float instance: what each window's block is at a
  grid point, what each body leaves in its output block as a function of the blocks it loads, the per-region proof
  data, and the contents of every buffer at the four boundaries between the items of the main function (region 0,
  a stretch of host operations, region 1, a final stretch of host operations).
-/
import proofs.«145363_j34256659153337_2_alg».proof.Proof.Gen.KernelIdeal.Launch
import proofs.«145363_j34256659153337_2_alg».proof.Proof.Gen.KernelIdeal.Skeleton
import proofs.«145363_j34256659153337_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.HF

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

variable (m : (ℓ : Loc nD τ sig) → Buf (Elt F) ℓ) (ρ : Dev nD → PrngReg)

section Regions
-- the buffer contents a region is entered from: the parameter every region's half is stated at
variable (V : (c : Dev nD) → (b : Ref sig .tc) → Buf (Elt F) ((c : Thread nD τ).loc b))

/-! ## Region 0: the label kernel -/

/-- Window w's block at point t, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The whole block of 512 rows of a label matrix. -/
abbrev r0_0 : Rect S512x1000 := Rect.unit (s := S512x1000) ![0, 0] S512x1000.size inb_S512x1000_S512x1000_0_0
/-- The whole output block. -/
abbrev r0_2 : Rect S1x8x128 := Rect.unit (s := S1x8x128) ![0, 0, 0] S1x8x128.size inb_S1x8x128_S1x8x128_0_0_0

/-- What the label body leaves in its output block, from the two blocks it loads: one store of the whole block. -/
def out0_2 (x0 x1 : Vec F S512x1000 .f32) : Vec F S1x8x128 .f32 :=
  View.canon [⟨r0_2, k0_pay1 (View.ld x0 r0_0) (View.ld x1 r0_0)⟩]

/-- The proof data of region 0 on core c: the arrays as found; after the body at point t each input's buffer at its
    block and the output's at out0_2 of the input blocks. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => out0_2 (iblk0 V c 0 t) (iblk0 V c 1 t)
  Φ _ := Pipeline.ΦA spec0 c
  q _ := fullShare
  owed _ := 0

theorem A_eq0 (c : Dev nD) (w : Fin cfg0.W) : (dat0 V c).A w = V c (Pipeline.arrRef spec0 w) := by
  dsimp only [dat0]
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) :
    (dat0 V c).after 2 t = out0_2 (iblk0 V c 0 t) (iblk0 V c 1 t) := by dsimp only [dat0]

/-! ## Region 1: the feature kernel -/

/-- Window w's block at point t, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The slab of 128 rows the body reads at grid position i out of a resident feature matrix. -/
abbrev rd1 (i : grid1.Coords) : Rect S1x4096x256 := Rect.unit (s := S1x4096x256) (k1_off1 i) S1x128x256.size (k1_off1_inb i)
/-- A whole resident feature matrix. -/
abbrev r1_0 : Rect S1x4096x256 := Rect.unit (s := S1x4096x256) ![0, 0, 0] S1x4096x256.size inb_S1x4096x256_S1x4096x256_0_0_0
/-- The whole row of squared norms. -/
abbrev r1_2 : Rect S1x1x4096 := Rect.unit (s := S1x1x4096) ![0, 0, 0] S1x1x4096.size inb_S1x1x4096_S1x1x4096_0_0_0
/-- The whole column block of squared norms. -/
abbrev r1_4 : Rect S1x128x1 := Rect.unit (s := S1x128x1) ![0, 0, 0] S1x128x1.size inb_S1x128x1_S1x128x1_0_0_0
/-- The whole output block. -/
abbrev r1_6 : Rect S1x1x8x128 := Rect.unit (s := S1x1x8x128) ![0, 0, 0, 0] S1x1x8x128.size inb_S1x1x8x128_S1x1x8x128_0_0_0_0

/-- What the feature body leaves in its output block at grid position i, from the six blocks it loads: one store of
    the whole block. -/
def out1_6 (i : grid1.Coords) (x0 x1 : Vec F S1x4096x256 .bf16) (x2 x3 : Vec F S1x1x4096 .f32)
    (x4 x5 : Vec F S1x128x1 .f32) : Vec F S1x1x8x128 .f32 :=
  View.canon [⟨r1_6, k1_pay1 (k1_pay2 (View.ld x1 (rd1 i)) (View.ld x1 r1_0)) (k1_pay3 (View.ld x3 r1_2))
    (k1_pay4 (View.ld x5 r1_4)) (k1_pay5 (View.ld x0 (rd1 i)) (View.ld x0 r1_0) (View.ld x2 r1_2) (View.ld x4 r1_4))
    (k1_pay6 (F := F))⟩]

/-- The proof data of region 1 on core c. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => iblk1 V c 5 t
    | ⟨6, _⟩ => out1_6 (grid1.coords t) (iblk1 V c 0 t) (iblk1 V c 1 t) (iblk1 V c 2 t) (iblk1 V c 3 t) (iblk1 V c 4 t) (iblk1 V c 5 t)
  Φ _ := Pipeline.ΦA spec1 c
  q _ := fullShare
  owed _ := 0

theorem A_eq1 (c : Dev nD) (w : Fin cfg1.W) : (dat1 V c).A w = V c (Pipeline.arrRef spec1 w) := by
  dsimp only [dat1]
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]
theorem after1_5 (c : Dev nD) (t : Fin cfg1.N) : (dat1 V c).after 5 t = iblk1 V c 5 t := by dsimp only [dat1]
theorem after1_6 (c : Dev nD) (t : Fin cfg1.N) :
    (dat1 V c).after 6 t = out1_6 (grid1.coords t) (iblk1 V c 0 t) (iblk1 V c 1 t) (iblk1 V c 2 t) (iblk1 V c 3 t) (iblk1 V c 4 t) (iblk1 V c 5 t) := by
  dsimp only [dat1]

end Regions

/-! ## The buffer contents at each boundary between the main function's items -/

/-- Core c's buffers at launch: what region 0 is entered from. -/
abbrev W0 : Dev nD → Valuation τ sig (Elt F) := fun c b => (s₀ m ρ).mem ((c : Dev nD), b)
/-- The same read at the core's references. -/
abbrev V0 : (c : Dev nD) → (b : Ref sig .tc) → Buf (Elt F) ((c : Thread nD τ).loc b) := fun c b => W0 m ρ c b
/-- At region 0's exit: its arrays at what the pipeline leaves, every other buffer as entered. -/
def W1 (c : Dev nD) : Valuation τ sig (Elt F) :=
  Pipeline.withArrays spec0 c (W0 m ρ c) fun w => (dat0 (V0 m ρ) c).arrAt w cfg0.N
theorem W1_arr (c : Dev nD) (w : Fin cfg0.W) :
    W1 m ρ c (Proc.devRef .tc (Pipeline.arrRef spec0 w)) = (dat0 (V0 m ρ) c).arrAt w cfg0.N := by
  unfold W1; exact Pipeline.withArrays_arr spec0 launch0.win.arr_inj c _ _ w
theorem W1_of_ne (c : Dev nD) (b : Ref sig .tc) (hb : ∀ w, Pipeline.arrRef spec0 w ≠ b) :
    W1 m ρ c (Proc.devRef .tc b) = W0 m ρ c (Proc.devRef .tc b) := by
  unfold W1; exact Pipeline.withArrays_of_ne spec0 c _ _ b hb
abbrev V1 : (c : Dev nD) → (b : Ref sig .tc) → Buf (Elt F) ((c : Thread nD τ).loc b) := fun c b => W1 m ρ c b
theorem hF0 (c : Dev nD) (w : Fin cfg0.W) : (dat0 (V0 m ρ) c).arrAt w cfg0.N = V1 m ρ c (Pipeline.arrRef spec0 w) :=
  (W1_arr m ρ c w).symm
theorem hrest0 (c : Dev nD) : ∀ b, b ∉ Finset.univ.image (Pipeline.arrRef spec0) → V1 m ρ c b = V0 m ρ c b :=
  fun b hb => W1_of_ne m ρ c b fun w e => hb (Finset.mem_image.mpr ⟨w, Finset.mem_univ _, e⟩)

/-- After the first stretch of host operations: what region 1 is entered from. -/
abbrev W2 : Dev nD → Valuation τ sig (Elt F) := fun c => StableHlo.after hostOps1 (W1 m ρ c)
abbrev V2 : (c : Dev nD) → (b : Ref sig .tc) → Buf (Elt F) ((c : Thread nD τ).loc b) := fun c b => W2 m ρ c b
/-- At region 1's exit. -/
def W3 (c : Dev nD) : Valuation τ sig (Elt F) :=
  Pipeline.withArrays spec1 c (W2 m ρ c) fun w => (dat1 (V2 m ρ) c).arrAt w cfg1.N
theorem W3_arr (c : Dev nD) (w : Fin cfg1.W) :
    W3 m ρ c (Proc.devRef .tc (Pipeline.arrRef spec1 w)) = (dat1 (V2 m ρ) c).arrAt w cfg1.N := by
  unfold W3; exact Pipeline.withArrays_arr spec1 launch1.win.arr_inj c _ _ w
theorem W3_of_ne (c : Dev nD) (b : Ref sig .tc) (hb : ∀ w, Pipeline.arrRef spec1 w ≠ b) :
    W3 m ρ c (Proc.devRef .tc b) = W2 m ρ c (Proc.devRef .tc b) := by
  unfold W3; exact Pipeline.withArrays_of_ne spec1 c _ _ b hb
abbrev V3 : (c : Dev nD) → (b : Ref sig .tc) → Buf (Elt F) ((c : Thread nD τ).loc b) := fun c b => W3 m ρ c b
theorem hF1 (c : Dev nD) (w : Fin cfg1.W) : (dat1 (V2 m ρ) c).arrAt w cfg1.N = V3 m ρ c (Pipeline.arrRef spec1 w) :=
  (W3_arr m ρ c w).symm
theorem hrest1 (c : Dev nD) : ∀ b, b ∉ Finset.univ.image (Pipeline.arrRef spec1) → V3 m ρ c b = V2 m ρ c b :=
  fun b hb => W3_of_ne m ρ c b fun w e => hb (Finset.mem_image.mpr ⟨w, Finset.mem_univ _, e⟩)

/-- After the last stretch of host operations: what the main function returns from. -/
abbrev W4 : Dev nD → Valuation τ sig (Elt F) := fun c => StableHlo.after hostOps2 (W3 m ρ c)

/-! ## The proof data family -/

/-- No pipeline has a prefetched table. -/
abbrev adm : (p : Fin 2) → (pcfgs (F := F) p).Adm := fun p => (cfgs p).toPCfg_adm
/-- Every pipeline's proof data, each at its region's entry contents. -/
def pdats : (p : Fin 2) → (c : Dev nD) → Dat τ (Elt F) Unit ℕ (UR sig nD τ) ℕ (Pipeline.pin (pcfgs (F := F)) adm p) c
  | ⟨0, _⟩ => fun c => dat0 (V0 m ρ) c
  | ⟨1, _⟩ => fun c => dat1 (V2 m ρ) c

end Cert.KernelIdeal.HF

end
-- ==== Proof.KI.Region0.lean ====
/-
  Region 0, the label kernel, at any entry contents: its one store covers the output block; each input block is
  what the body finds in its staging buffer at every grid point; the body, run on whole staging buffers holding the
  two input blocks, leaves them as they were and the output buffer at the block sum of the squared differences
  broadcast over the block; hence the pipeline's obligation for the body at every grid point.
-/
import proofs.«145363_j34256659153337_2_alg».proof.Proof.KI.Data

set_option maxRecDepth 16384

noncomputable section

namespace Cert.KernelIdeal.HF

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Regions
variable (V : (c : Dev nD) → (b : Ref sig .tc) → Buf (Elt F) ((c : Thread nD τ).loc b))

/-! ## What the body finds in the input buffers -/

/-- Input window 0's current staging buffer holds its block at every point, fetched there or not, for any proof data
    whose array is the entry contents and whose body leaves the block in place: where the window is not fetched its
    block index has not moved since the previous point, so the block still held is this point's. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- Input window 1's current staging buffer holds its block at every point, fetched there or not, for any proof data
    whose array is the entry contents and whose body leaves the block in place: where the window is not fetched its
    block index has not moved since the previous point, so the block still held is this point's. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d

/-! ## The body's one store covers the output block -/

theorem cover0_2 (p0 : Vec F S1x8x128 .f32) (y : S1x8x128.Idx) :
    ∃ pc ∈ ([⟨r0_2, p0⟩] : List (View.Piece (Elt F) S1x8x128 .f32)), y ∈ pc.1.set :=
  View.cover_of_tiled [⟨r0_2, p0⟩] S1x8x128.size (by rfl) y

/-! ## The body's triple -/

set_option maxHeartbeats 1000000 in
/-- The label body on whole staging buffers, the two inputs' reading x0 and x1 and the output's holding anything,
    runs to the continuation with the inputs' as they were and the output's at out0_2 x0 x1: it loads both input
    blocks whole, loads the output block (a value it does not use), and stores the whole output block once. -/
theorem sound_kernel0 (c : Dev nD) (E : Set ℕ) (i : grid0.Coords) (arg1 : Memref sig .tc .vmem S512x1000 .f32) (harg1 : arg1.IsWhole)
    (arg2 : Memref sig .tc .vmem S512x1000 .f32) (harg2 : arg2.IsWhole) (arg3 : Memref sig .tc .vmem S1x8x128 .f32) (harg3 : arg3.IsWhole)
    (x0 x1 : Vec F S512x1000 .f32) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1
            ∗ owns (c : Thread nD τ) arg3 fullShare (out0_2 x0 x1)) -∗ K ⟨⟩))
      ⊢ wp frame (wpE (defs₀ (F := F)) Variants.none c none) E (cc0__label_kernel i arg1 harg1 arg2 harg2 arg3 harg3) K := by
  simp only [cc0__label_kernel_eq_skeleton]; unfold cc0__label_kernel_skel
  unfold owns
  iintro ⟨⟨%f0, %hf0, H0⟩, ⟨%f1, %hf1, H1⟩, ⟨%d2, %f2, -, H2⟩, Hk⟩
  subst hf0 hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  try dsimp only
  exact View.read_writes_eq_canon _ _ _ (cover0_2 _)

/-! ## The body obligation, at a generic point -/

/-- What the body is called with at point t, the windows one by one, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t))

/-- The body at any point: the input buffers hold their blocks, so the body's triple applies; the invariant and what
    the core owes pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1]
  rw [show (dat0 V c).Φ t.succ = (dat0 V c).Φ t.castSucc from rfl,
    show (dat0 V c).owesAt () t.succ = (dat0 V c).owesAt () t.castSucc from rfl,
    after0_0, after0_1, after0_2]
  iintro ⟨HΦ, Ho, ⟨%d0, H0⟩, ⟨%d1, H1⟩, ⟨%d2, H2⟩⟩
  iapply (sound_kernel0 c Set.univ (grid0.coords t) _ _ _ _ _ _ (iblk0 V c 0 t) (iblk0 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The pipeline's body obligation, at every point. -/
theorem body_obligation0 (c : Dev nD) : BodyObligation (dat0 (F := F) V c) (defs₀ (F := F)) Variants.none () Set.univ := fun t => by
  rw [bigSep_W0, bigSep_W0]
  exact sound_body0 V c t

end Regions

end Cert.KernelIdeal.HF

end
-- ==== Proof.KI.Region1.lean ====
/-
  Region 1, the feature kernel, at any entry contents: its one store covers the output block; each of the six input
  blocks is what the body finds in its staging buffer at every grid point (the two resident feature matrices and the
  two rows of squared norms are fetched only when the feature index changes, and in between the buffers still hold
  the same blocks); the body at grid position i, run on whole staging buffers holding the six input blocks, leaves
  them as they were and the output buffer at the block sum of the squared differences of the two distance slabs
  broadcast over the block; hence the pipeline's obligation for the body at every grid point.
-/
import proofs.«145363_j34256659153337_2_alg».proof.Proof.KI.Data

set_option maxRecDepth 16384

noncomputable section

namespace Cert.KernelIdeal.HF

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Regions
variable (V : (c : Dev nD) → (b : Ref sig .tc) → Buf (Elt F) ((c : Thread nD τ).loc b))

/-! ## What the body finds in the input buffers -/

/-- Input window 0's current staging buffer holds its block at every point, fetched there or not, for any proof data
    whose array is the entry contents and whose body leaves the block in place: where the window is not fetched its
    block index has not moved since the previous point, so the block still held is this point's. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-- Input window 1's current staging buffer holds its block at every point, fetched there or not, for any proof data
    whose array is the entry contents and whose body leaves the block in place: where the window is not fetched its
    block index has not moved since the previous point, so the block still held is this point's. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-- Input window 2's current staging buffer holds its block at every point, fetched there or not, for any proof data
    whose array is the entry contents and whose body leaves the block in place: where the window is not fetched its
    block index has not moved since the previous point, so the block still held is this point's. -/
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

/-- Input window 3's current staging buffer holds its block at every point, fetched there or not, for any proof data
    whose array is the entry contents and whose body leaves the block in place: where the window is not fetched its
    block index has not moved since the previous point, so the block still held is this point's. -/
theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)

/-- Input window 4's current staging buffer holds its block at every point, fetched there or not, for any proof data
    whose array is the entry contents and whose body leaves the block in place: where the window is not fetched its
    block index has not moved since the previous point, so the block still held is this point's. -/
theorem before1_4_of {c : Dev nD} (dat : Dat τ (Elt F) Unit ℕ (UR sig nD τ) ℕ cfg1 c) (hA : dat.A 4 = V c (Pipeline.arrRef spec1 4))
    (hafter : ∀ t, dat.after 4 t = iblk1 V c 4 t) (t : Fin cfg1.N) (d) : dat.before 4 t d = iblk1 V c 4 t :=
  (dat.before_in_eq_fetched 4 rfl (fun _ => rfl) (fun _ _ _ => rfl) (fun t => by rw [hafter]; unfold Dat.blockOf iblk1; rw [hA]; try rfl) t d).trans
    (by unfold Dat.fetched Dat.blockOf iblk1; rw [hA]; try rfl)

/-- Input window 5's current staging buffer holds its block at every point, fetched there or not, for any proof data
    whose array is the entry contents and whose body leaves the block in place: where the window is not fetched its
    block index has not moved since the previous point, so the block still held is this point's. -/
theorem before1_5_of {c : Dev nD} (dat : Dat τ (Elt F) Unit ℕ (UR sig nD τ) ℕ cfg1 c) (hA : dat.A 5 = V c (Pipeline.arrRef spec1 5))
    (hafter : ∀ t, dat.after 5 t = iblk1 V c 5 t) (t : Fin cfg1.N) (d) : dat.before 5 t d = iblk1 V c 5 t :=
  (dat.before_in_eq_fetched 5 rfl (fun _ => rfl) (fun _ _ _ => rfl) (fun t => by rw [hafter]; unfold Dat.blockOf iblk1; rw [hA]; try rfl) t d).trans
    (by unfold Dat.fetched Dat.blockOf iblk1; rw [hA]; try rfl)

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d
theorem before1_4 (c : Dev nD) (t : Fin cfg1.N) (d) : (dat1 V c).before 4 t d = iblk1 V c 4 t :=
  before1_4_of V (dat1 V c) (A_eq1 V c 4) (after1_4 V c) t d
theorem before1_5 (c : Dev nD) (t : Fin cfg1.N) (d) : (dat1 V c).before 5 t d = iblk1 V c 5 t :=
  before1_5_of V (dat1 V c) (A_eq1 V c 5) (after1_5 V c) t d

/-! ## The body's one store covers the output block -/

theorem cover1_6 (p0 : Vec F S1x1x8x128 .f32) (y : S1x1x8x128.Idx) :
    ∃ pc ∈ ([⟨r1_6, p0⟩] : List (View.Piece (Elt F) S1x1x8x128 .f32)), y ∈ pc.1.set :=
  View.cover_of_tiled [⟨r1_6, p0⟩] S1x1x8x128.size (by rfl) y

/-! ## The body's triple -/

set_option maxHeartbeats 1000000 in
/-- The feature body at grid position i on whole staging buffers, the six inputs' reading x0 … x5 and the output's
    holding anything, runs to the continuation with the inputs' as they were and the output's at
    out1_6 i x0 … x5: it loads the slab of 128 rows at position i and the whole matrix from each of the two feature
    buffers, the two rows and the two column blocks of squared norms whole, loads the output block (a value it does
    not use), and stores the whole output block once. -/
theorem sound_kernel1 (c : Dev nD) (E : Set ℕ) (i : grid1.Coords)
    (arg2 : Memref sig .tc .vmem S1x4096x256 .bf16) (harg2 : arg2.IsWhole) (arg3 : Memref sig .tc .vmem S1x4096x256 .bf16) (harg3 : arg3.IsWhole)
    (arg4 : Memref sig .tc .vmem S1x1x4096 .f32) (harg4 : arg4.IsWhole) (arg5 : Memref sig .tc .vmem S1x1x4096 .f32) (harg5 : arg5.IsWhole)
    (arg6 : Memref sig .tc .vmem S1x128x1 .f32) (harg6 : arg6.IsWhole) (arg7 : Memref sig .tc .vmem S1x128x1 .f32) (harg7 : arg7.IsWhole)
    (arg8 : Memref sig .tc .vmem S1x1x8x128 .f32) (harg8 : arg8.IsWhole)
    (x0 x1 : Vec F S1x4096x256 .bf16) (x2 x3 : Vec F S1x1x4096 .f32) (x4 x5 : Vec F S1x128x1 .f32) (K : PUnit → sProp 𝕄) :
    iprop(owns (c : Thread nD τ) arg2 fullShare x0 ∗ owns (c : Thread nD τ) arg3 fullShare x1 ∗ owns (c : Thread nD τ) arg4 fullShare x2
        ∗ owns (c : Thread nD τ) arg5 fullShare x3 ∗ owns (c : Thread nD τ) arg6 fullShare x4 ∗ owns (c : Thread nD τ) arg7 fullShare x5
        ∗ (∃ d, owns (c : Thread nD τ) arg8 fullShare d)
        ∗ (iprop(owns (c : Thread nD τ) arg2 fullShare x0 ∗ owns (c : Thread nD τ) arg3 fullShare x1 ∗ owns (c : Thread nD τ) arg4 fullShare x2
            ∗ owns (c : Thread nD τ) arg5 fullShare x3 ∗ owns (c : Thread nD τ) arg6 fullShare x4 ∗ owns (c : Thread nD τ) arg7 fullShare x5
            ∗ owns (c : Thread nD τ) arg8 fullShare (out1_6 i x0 x1 x2 x3 x4 x5)) -∗ K ⟨⟩))
      ⊢ wp frame (wpE (defs₀ (F := F)) Variants.none c none) E
          (cc1__feat_kernel i arg2 harg2 arg3 harg3 arg4 harg4 arg5 harg5 arg6 harg6 arg7 harg7 arg8 harg8) K := by
  simp only [cc1__feat_kernel_eq_skeleton]; unfold cc1__feat_kernel_skel
  simp only [k1_part1_eq_skeleton]; unfold k1_part1_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, Hk⟩
  subst hf0 hf1 hf2 hf3 hf4 hf5
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  iexists _; isplitr
  swap; · iexact H6
  ipureintro
  try dsimp only
  exact View.read_writes_eq_canon _ _ _ (cover1_6 _)

/-! ## The body obligation, at a generic point -/

/-- What the body is called with at point t, the windows one by one, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d))
    ∗ (∃ d, owns (c : Thread nD τ) (st1_5 t) fullShare ((dat1 V c).before 5 t d))
    ∗ (∃ d, owns (c : Thread nD τ) (st1_6 t) fullShare ((dat1 V c).before 6 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t)
    ∗ owns (c : Thread nD τ) (st1_4 t) fullShare ((dat1 V c).after 4 t)
    ∗ owns (c : Thread nD τ) (st1_5 t) fullShare ((dat1 V c).after 5 t)
    ∗ owns (c : Thread nD τ) (st1_6 t) fullShare ((dat1 V c).after 6 t))

/-- The body at any point: the input buffers hold their blocks, so the body's triple applies at the point's grid
    position; the invariant and what the core owes pass through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4, before1_5]
  rw [show (dat1 V c).Φ t.succ = (dat1 V c).Φ t.castSucc from rfl,
    show (dat1 V c).owesAt () t.succ = (dat1 V c).owesAt () t.castSucc from rfl,
    after1_0, after1_1, after1_2, after1_3, after1_4, after1_5, after1_6]
  iintro ⟨HΦ, Ho, ⟨%d0, H0⟩, ⟨%d1, H1⟩, ⟨%d2, H2⟩, ⟨%d3, H3⟩, ⟨%d4, H4⟩, ⟨%d5, H5⟩, ⟨%d6, H6⟩⟩
  iapply (sound_kernel1 c Set.univ (grid1.coords t) _ _ _ _ _ _ _ _ _ _ _ _ _ _
    (iblk1 V c 0 t) (iblk1 V c 1 t) (iblk1 V c 2 t) (iblk1 V c 3 t) (iblk1 V c 4 t) (iblk1 V c 5 t) _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  iintro ⟨H0, H1, H2, H3, H4, H5, H6⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexact H6

/-- The pipeline's body obligation, at every point. -/
theorem body_obligation1 (c : Dev nD) : BodyObligation (dat1 (F := F) V c) (defs₀ (F := F)) Variants.none () Set.univ := fun t => by
  rw [bigSep_W1, bigSep_W1]
  exact sound_body1 V c t

end Regions

end Cert.KernelIdeal.HF

end
-- ==== Proof.KI.Run.lean ====
/-
  The run of the main function: region 0, a stretch of host operations, region 1, a final stretch of host
  operations, as four segments over the thread state "every unscoped buffer of the core at the boundary's contents,
  the generator register at some state, nothing owed". From any memory with zero counters every weakly fair
  execution terminates, and every unscoped buffer of every core ends at the contents the last boundary names;
  read at the eight argument arrays, which no host operation writes and which the regions read through input windows
  or not at all, this says each argument ends holding what it was launched with.
-/
import proofs.«145363_j34256659153337_2_alg».proof.Proof.KI.Region0
import proofs.«145363_j34256659153337_2_alg».proof.Proof.KI.Region1
import proofs.«145363_j34256659153337_2_alg».proof.Proof.Gen.KernelIdeal.Regions

set_option maxRecDepth 16384

noncomputable section

namespace Cert.KernelIdeal.HF

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The thread state -/

abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every segment: the core's generator register at some state and what the
    core owes, which is nothing. -/
abbrev R (c : Dev nD) : sProp 𝕄 := iprop((∃ r, prngReg c r) ∗ ∃ W, owes (c : Thread nD τ) (0 : CellTallies nD τ sig Unit) W)
/-- A stretch of host operations as a segment: from the unscoped buffers at the contents W it runs to the same
    buffers at the contents the operations compute from W, the rest of the state riding along. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
/-- An unscoped reference of the core is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without what the core owes: every unscoped buffer at the last boundary's contents, the
    generator register at some state. -/
abbrev Tₙ (c : Dev nD) : sProp 𝕄 := iprop(StableHlo.held (c : Thread nD τ) (Pipeline.ucRefs τ sig) (W4 m ρ c) ∗ ∃ r, prngReg c r)

/-! ## The regions as segments -/

set_option backward.isDefEq.respectTransparency.types false in
/-- Region 0 over the thread state: entered from every unscoped buffer at W0, left at W1 (what the first host stretch is entered from). Its arrays are split out of the unscoped buffers on entry and put back at the exit contents; the generator
    register goes into the invariant and comes out; nothing is owed; the kernel has no semaphore of its own. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V0 m ρ) c).loose
  hwaits := Pipeline.hwaits_of_owed_zero _ _ _ _ L lv 0 fun _ _ => rfl
  pre c := iprop(StableHlo.held (c : Thread nD τ) (Pipeline.ucRefs τ sig) (W0 m ρ c) ∗ R c)
  post c := iprop(StableHlo.held (c : Thread nD τ) (Pipeline.ucRefs τ sig) (W1 m ρ c) ∗ R c)
  X c := iprop(∃ r, prngReg c r)
  Y c := iprop(∃ r, prngReg c r)
  Z c := Pipeline.unscopedRest (Ix := Unit) (Name := ℕ) (U := UR sig nD τ) (Lvl := ℕ) spec0 c (V0 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V0 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V0 m ρ c) (V1 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 1 over the thread state: entered from every unscoped buffer at W2, left at W3 (what the last host stretch is entered from). Its arrays are split out of the unscoped buffers on entry and put back at the exit contents; the generator
    register goes into the invariant and comes out; nothing is owed; the kernel has no semaphore of its own. -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V2 m ρ) c).loose
  hwaits := Pipeline.hwaits_of_owed_zero _ _ _ _ L lv 1 fun _ _ => rfl
  pre c := iprop(StableHlo.held (c : Thread nD τ) (Pipeline.ucRefs τ sig) (W2 m ρ c) ∗ R c)
  post c := iprop(StableHlo.held (c : Thread nD τ) (Pipeline.ucRefs τ sig) (W3 m ρ c) ∗ R c)
  X c := iprop(∃ r, prngReg c r)
  Y c := iprop(∃ r, prngReg c r)
  Z c := Pipeline.unscopedRest (Ix := Unit) (Name := ℕ) (U := UR sig nD τ) (Lvl := ℕ) spec1 c (V2 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V2 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m ρ 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (V2 m ρ c) (V3 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## The main function as segments -/

/-- The main function's four segments in order. -/
abbrev segs : List (Pipeline.Seg (pcfgs (F := F)) adm (pdats m ρ) () defs₀ 𝒱₀ L lv) :=
  [ .region (reg0 m ρ),
    .host (hseg hostOps1 hostOps1_sub hostOps1_fresh (W1 m ρ)),
    .region (reg1 m ρ),
    .host (hseg hostOps2 hostOps2_sub hostOps2_fresh (W3 m ρ)) ]
/-- The main function is the run of the segments: it is the chain of its four items, and the segments' run is that
    chain by definitional unfolding. -/
theorem main_run (c : Dev nD) : main (F := F) c = Pipeline.Seg.run (segs m ρ) := (main_chain c).trans (by chain_rfl)

set_option backward.isDefEq.respectTransparency.types false in
/-- THE RUN: from any memory with zero counters, every weakly fair execution of the main function on the cores
    terminates, nothing faulting, and in every final state every unscoped buffer of every core holds what the last
    boundary's contents name for it. -/
theorem run_main : θ_run defs (onTc (τ := τ) (main (F := F))) ⟨m, fun _ => 0, ρ⟩ (fun r => ∀ c : Dev nD,
      ∀ b ∈ Pipeline.ucRefs τ sig, r.2.mem (((c : Thread nD τ)).1, b) = W4 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun c => show iprop(StableHlo.held (c : Thread nD τ) (Pipeline.ucRefs τ sig) (W4 m ρ c) ∗ R c)
        ⊢ iprop(Tₙ m ρ c ∗ ∃ W, owes (c : Thread nD τ) (0 : CellTallies nD τ sig Unit) W) from by
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun _ h => h)

/-! ## The arguments end as launched

No host operation writes an argument array, region 0 reads the two label matrices through input windows (which the
pipeline leaves as it found them) and stages none of the six feature matrices, region 1 stages no argument: so the
contents the boundaries name for an argument's buffer walk back, boundary by boundary, to the launch memory. -/

theorem W4_main_arg0 (c : Dev nD) : W4 m ρ c (Proc.devRef .tc main_arg0) = m ((c : Thread nD τ).loc main_arg0) :=
  calc W4 m ρ c (Proc.devRef .tc main_arg0)
    _ = W3 m ρ c (Proc.devRef .tc main_arg0) := StableHlo.after_of_writes_sub hostOps2 _ hostOps2_writes (by decide)
    _ = W2 m ρ c (Proc.devRef .tc main_arg0) := W3_of_ne m ρ c main_arg0 (by decide)
    _ = W1 m ρ c (Proc.devRef .tc main_arg0) := StableHlo.after_of_writes_sub hostOps1 _ hostOps1_writes (by decide)
    _ = W0 m ρ c (Proc.devRef .tc main_arg0) := (W1_arr m ρ c 0).trans (((dat0 (V0 m ρ) c).arrAt_in 0 rfl _).trans (A_eq0 (V0 m ρ) c 0))
    _ = m ((c : Thread nD τ).loc main_arg0) := rfl
theorem W4_main_arg1 (c : Dev nD) : W4 m ρ c (Proc.devRef .tc main_arg1) = m ((c : Thread nD τ).loc main_arg1) :=
  calc W4 m ρ c (Proc.devRef .tc main_arg1)
    _ = W3 m ρ c (Proc.devRef .tc main_arg1) := StableHlo.after_of_writes_sub hostOps2 _ hostOps2_writes (by decide)
    _ = W2 m ρ c (Proc.devRef .tc main_arg1) := W3_of_ne m ρ c main_arg1 (by decide)
    _ = W1 m ρ c (Proc.devRef .tc main_arg1) := StableHlo.after_of_writes_sub hostOps1 _ hostOps1_writes (by decide)
    _ = W0 m ρ c (Proc.devRef .tc main_arg1) := (W1_arr m ρ c 1).trans (((dat0 (V0 m ρ) c).arrAt_in 1 rfl _).trans (A_eq0 (V0 m ρ) c 1))
    _ = m ((c : Thread nD τ).loc main_arg1) := rfl
theorem W4_main_arg2 (c : Dev nD) : W4 m ρ c (Proc.devRef .tc main_arg2) = m ((c : Thread nD τ).loc main_arg2) :=
  calc W4 m ρ c (Proc.devRef .tc main_arg2)
    _ = W3 m ρ c (Proc.devRef .tc main_arg2) := StableHlo.after_of_writes_sub hostOps2 _ hostOps2_writes (by decide)
    _ = W2 m ρ c (Proc.devRef .tc main_arg2) := W3_of_ne m ρ c main_arg2 (by decide)
    _ = W1 m ρ c (Proc.devRef .tc main_arg2) := StableHlo.after_of_writes_sub hostOps1 _ hostOps1_writes (by decide)
    _ = W0 m ρ c (Proc.devRef .tc main_arg2) := W1_of_ne m ρ c main_arg2 (by decide)
    _ = m ((c : Thread nD τ).loc main_arg2) := rfl
theorem W4_main_arg3 (c : Dev nD) : W4 m ρ c (Proc.devRef .tc main_arg3) = m ((c : Thread nD τ).loc main_arg3) :=
  calc W4 m ρ c (Proc.devRef .tc main_arg3)
    _ = W3 m ρ c (Proc.devRef .tc main_arg3) := StableHlo.after_of_writes_sub hostOps2 _ hostOps2_writes (by decide)
    _ = W2 m ρ c (Proc.devRef .tc main_arg3) := W3_of_ne m ρ c main_arg3 (by decide)
    _ = W1 m ρ c (Proc.devRef .tc main_arg3) := StableHlo.after_of_writes_sub hostOps1 _ hostOps1_writes (by decide)
    _ = W0 m ρ c (Proc.devRef .tc main_arg3) := W1_of_ne m ρ c main_arg3 (by decide)
    _ = m ((c : Thread nD τ).loc main_arg3) := rfl
theorem W4_main_arg4 (c : Dev nD) : W4 m ρ c (Proc.devRef .tc main_arg4) = m ((c : Thread nD τ).loc main_arg4) :=
  calc W4 m ρ c (Proc.devRef .tc main_arg4)
    _ = W3 m ρ c (Proc.devRef .tc main_arg4) := StableHlo.after_of_writes_sub hostOps2 _ hostOps2_writes (by decide)
    _ = W2 m ρ c (Proc.devRef .tc main_arg4) := W3_of_ne m ρ c main_arg4 (by decide)
    _ = W1 m ρ c (Proc.devRef .tc main_arg4) := StableHlo.after_of_writes_sub hostOps1 _ hostOps1_writes (by decide)
    _ = W0 m ρ c (Proc.devRef .tc main_arg4) := W1_of_ne m ρ c main_arg4 (by decide)
    _ = m ((c : Thread nD τ).loc main_arg4) := rfl
theorem W4_main_arg5 (c : Dev nD) : W4 m ρ c (Proc.devRef .tc main_arg5) = m ((c : Thread nD τ).loc main_arg5) :=
  calc W4 m ρ c (Proc.devRef .tc main_arg5)
    _ = W3 m ρ c (Proc.devRef .tc main_arg5) := StableHlo.after_of_writes_sub hostOps2 _ hostOps2_writes (by decide)
    _ = W2 m ρ c (Proc.devRef .tc main_arg5) := W3_of_ne m ρ c main_arg5 (by decide)
    _ = W1 m ρ c (Proc.devRef .tc main_arg5) := StableHlo.after_of_writes_sub hostOps1 _ hostOps1_writes (by decide)
    _ = W0 m ρ c (Proc.devRef .tc main_arg5) := W1_of_ne m ρ c main_arg5 (by decide)
    _ = m ((c : Thread nD τ).loc main_arg5) := rfl
theorem W4_main_arg6 (c : Dev nD) : W4 m ρ c (Proc.devRef .tc main_arg6) = m ((c : Thread nD τ).loc main_arg6) :=
  calc W4 m ρ c (Proc.devRef .tc main_arg6)
    _ = W3 m ρ c (Proc.devRef .tc main_arg6) := StableHlo.after_of_writes_sub hostOps2 _ hostOps2_writes (by decide)
    _ = W2 m ρ c (Proc.devRef .tc main_arg6) := W3_of_ne m ρ c main_arg6 (by decide)
    _ = W1 m ρ c (Proc.devRef .tc main_arg6) := StableHlo.after_of_writes_sub hostOps1 _ hostOps1_writes (by decide)
    _ = W0 m ρ c (Proc.devRef .tc main_arg6) := W1_of_ne m ρ c main_arg6 (by decide)
    _ = m ((c : Thread nD τ).loc main_arg6) := rfl
theorem W4_main_arg7 (c : Dev nD) : W4 m ρ c (Proc.devRef .tc main_arg7) = m ((c : Thread nD τ).loc main_arg7) :=
  calc W4 m ρ c (Proc.devRef .tc main_arg7)
    _ = W3 m ρ c (Proc.devRef .tc main_arg7) := StableHlo.after_of_writes_sub hostOps2 _ hostOps2_writes (by decide)
    _ = W2 m ρ c (Proc.devRef .tc main_arg7) := W3_of_ne m ρ c main_arg7 (by decide)
    _ = W1 m ρ c (Proc.devRef .tc main_arg7) := StableHlo.after_of_writes_sub hostOps1 _ hostOps1_writes (by decide)
    _ = W0 m ρ c (Proc.devRef .tc main_arg7) := W1_of_ne m ρ c main_arg7 (by decide)
    _ = m ((c : Thread nD τ).loc main_arg7) := rfl

/-- THE FRAME: from any memory with zero counters, every weakly fair execution of the main function terminates and
    every final state has the eight argument arrays as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  (θ_run defs _ _).mono (fun _ h c =>
    ⟨(h c _ (mem_uc main_arg0 (by decide))).trans (W4_main_arg0 m ρ c),
      (h c _ (mem_uc main_arg1 (by decide))).trans (W4_main_arg1 m ρ c),
      (h c _ (mem_uc main_arg2 (by decide))).trans (W4_main_arg2 m ρ c),
      (h c _ (mem_uc main_arg3 (by decide))).trans (W4_main_arg3 m ρ c),
      (h c _ (mem_uc main_arg4 (by decide))).trans (W4_main_arg4 m ρ c),
      (h c _ (mem_uc main_arg5 (by decide))).trans (W4_main_arg5 m ρ c),
      (h c _ (mem_uc main_arg6 (by decide))).trans (W4_main_arg6 m ρ c),
      (h c _ (mem_uc main_arg7 (by decide))).trans (W4_main_arg7 m ρ c)⟩) (run_main m ρ)

end Cert.KernelIdeal.HF

end
-- ==== Proof.Spec.lean ====
/-
  The specification both programs are read against, over the extended reals.

  The loss is  w₁ · MSE(pred, target) + w₂ · (1/3) Σ_f MSE(D(p_f), D(t_f)),  where D(x) is the matrix of
  pairwise Euclidean distances of the rows of x, computed as  √(max(|x_i|² + |x_j|² − 2 x_i·x_j, 0))  with
  the value 0 where that maximum is not positive.  The reference divides each of the three sums of squared
  distance differences by 4096² and the total by 3; the kernel divides the total of its per-block sums — each
  block sum written 8·128 times — by 1024 and then by 3·4096².
-/
import Idealize.ShloMosaic.PureOps.Ideal
import Mathlib.Data.EReal.Operations
import Mathlib.Algebra.BigOperators.Fin

noncomputable section

namespace Cert.Spec

open Idealize.ShloMosaic

/-- A feature matrix: 4096 rows of 256 entries. -/
abbrev Feat := Fin 4096 → Fin 256 → EReal
/-- A label matrix: 4096 rows of 1000 entries. -/
abbrev Lab := Fin 4096 → Fin 1000 → EReal

/-- The factor 2 of the cross term, as the word both programs print. -/
def two : EReal := Ideal.ofBits .f32 0x40000000#32
/-- The squared norm of row i. -/
def sqn (f : Feat) (i : Fin 4096) : EReal := ∑ k : Fin 256, f i k * f i k
/-- The inner product of rows i and j. -/
def cross (f : Feat) (i j : Fin 4096) : EReal := ∑ k : Fin 256, f i k * f j k
/-- The squared distance of rows i and j, clipped below at 0. -/
def sqd (f : Feat) (i j : Fin 4096) : EReal := max ((sqn f i + sqn f j) - two * cross f i j) 0
/-- The distance of rows i and j: the root of the clipped squared distance where that is positive, else 0. -/
def dist (f : Feat) (i j : Fin 4096) : EReal := if 0 < sqd f i j then Ideal.sqrt (sqd f i j) else 0
/-- The squared difference of the two distance matrices at (i, j). -/
def ferr (p t : Feat) (i j : Fin 4096) : EReal := (dist p i j - dist t i j) * (dist p i j - dist t i j)
/-- The sum of the squared distance differences over all pairs of rows. -/
def fsum (p t : Feat) : EReal := ∑ i : Fin 4096, ∑ j : Fin 4096, ferr p t i j
/-- The squared label difference at (i, j). -/
def lerr (p t : Lab) (i : Fin 4096) (j : Fin 1000) : EReal := (p i j - t i j) * (p i j - t i j)
/-- The sum of the squared label differences. -/
def lsum (p t : Lab) : EReal := ∑ i : Fin 4096, ∑ j : Fin 1000, lerr p t i j

/-- 1024 = 8 · 128, the number of copies of a block sum the kernel writes. -/
def c1024 : EReal := Ideal.ofBits .f32 0x44800000#32
/-- 4096 · 1000. -/
def cNC : EReal := Ideal.ofBits .f32 0x4A7A0000#32
/-- 4096². -/
def cNN : EReal := Ideal.ofBits .f32 0x4B800000#32
/-- 3 · 4096². -/
def cNN3 : EReal := Ideal.ofBits .f32 0x4C400000#32
/-- 3. -/
def c3 : EReal := Ideal.ofBits .f32 0x40400000#32
/-- The label weight, as its word. -/
def c02 : EReal := Ideal.ofBits .f32 0x3E4CCCCD#32
/-- The feature weight, as its word. -/
def c08 : EReal := Ideal.ofBits .f32 0x3F4CCCCD#32

/-- What the reference computes. -/
def refResult (pred target : Lab) (p0 p1 p2 t0 t1 t2 : Feat) : EReal :=
  c02 * Ideal.div (lsum pred target) cNC
    + Ideal.div (c08 * ((Ideal.div (fsum p0 t0) cNN + Ideal.div (fsum p1 t1) cNN) + Ideal.div (fsum p2 t2) cNN)) c3

/-- The label kernel's block b: the squared label differences of rows 512·b … 512·b + 511. -/
def lblock (p t : Lab) (b : Fin 8) : EReal :=
  ∑ a : Fin 512, ∑ k : Fin 1000, lerr p t ⟨b.val * 512 + a.val, by omega⟩ k
/-- The feature kernel's block r: the squared distance differences of rows 128·r … 128·r + 127 against all rows. -/
def fblock (p t : Feat) (r : Fin 32) : EReal :=
  ∑ a : Fin 128, ∑ j : Fin 4096, ferr p t ⟨r.val * 128 + a.val, by omega⟩ j

/-- What the kernel computes: each block sum is written to 8 · 128 entries, all entries are added, and the
    totals are divided by 1024 and by the element counts. -/
def kerResult (pred target : Lab) (pf tf : Fin 3 → Feat) : EReal :=
  c02 * Ideal.div (Ideal.div (∑ b : Fin 8, ∑ _i : Fin 8, ∑ _j : Fin 128, lblock pred target b) c1024) cNC
    + c08 * Ideal.div (Ideal.div (∑ f : Fin 3, ∑ r : Fin 32, ∑ _i : Fin 8, ∑ _j : Fin 128, fblock (pf f) (tf f) r) c1024) cNN3

end Cert.Spec

end
-- ==== Proof.Ref.Readers.lean ====
/-
  Readers of the argument arrays by coordinates, and the one scalar fact about the guarded square root.

  A label matrix and a feature matrix are read entry by entry, (i, j) ↦ x[i, j].  The distance is written in
  both programs as  where(s > 0, sqrt(where(s > 0, s, 1)), 0):  the inner selection only keeps the root's
  argument away from 0 and has no effect on the value, which is  √s  where s > 0 and 0 elsewhere.
-/
import proofs.«145363_j34256659153337_2_alg».proof.Proof.Spec
import Idealize.ShloMosaic.Lib.ValueIdx

noncomputable section

namespace Cert.RefSide

open Idealize.ShloMosaic

/-- A 4096 × 1000 array read by coordinates. -/
def lab (x : (⟨2, ![4096, 1000]⟩ : Shape).Idx → EReal) : Cert.Spec.Lab := fun i j => x (ValueIdx.ix2 i j)
/-- A 4096 × 256 array read by coordinates. -/
def feat (x : (⟨2, ![4096, 256]⟩ : Shape).Idx → EReal) : Cert.Spec.Feat := fun i j => x (ValueIdx.ix2 i j)

/-- The guarded root: with the comparison bit  s > 0  selecting first the root's argument (s or the word 1.0)
    and then the result (the root or 0), the value is √s where s is positive and 0 elsewhere. -/
theorem guarded_sqrt (s : EReal) (one : EReal) :
    Scalar.select (Ideal.cmp .ogt s 0) (Ideal.sqrt (Scalar.select (Ideal.cmp .ogt s 0) s one)) 0
      = if 0 < s then Ideal.sqrt s else 0 := by
  by_cases h : 0 < s
  · simp [Scalar.select, Ideal.cmp, h]
  · simp [Scalar.select, Ideal.cmp, h]

end Cert.RefSide

end
-- ==== Proof.Ref.DistA.lean ====
/-
  The distance stage of the first predicted feature matrix, entry by entry.

  Reading the reference's operations at the index (i, j): the two broadcasts of the row sums of squares give
  |x_i|² and |x_j|², the product with the transpose gives x_i·x_j, so the clipped value is
  max(|x_i|² + |x_j|² − 2 x_i·x_j, 0), and the two selections on its positivity give its root where it is
  positive and 0 elsewhere: the specification's distance of rows i and j.
-/
import proofs.«145363_j34256659153337_2_alg».proof.Proof.Ref.Readers
import proofs.«145363_j34256659153337_2_alg».proof.Proof.Gen.ReferenceIdeal.Read

noncomputable section

namespace Cert.RefSide

open Cert.ReferenceIdeal Cert.ReferenceIdeal.Read Idealize.ShloMosaic Idealize.ShloMosaic.ValueIdx

/-- The row sums of squares are the squared norms. -/
theorem sqn_A (x : (⟨S4096x256, .f32⟩ : BufTy).Contents (Elt Ideal)) (r : Fin 4096) :
    val_main_v5 (F := Ideal) x (ix1 r) = Cert.Spec.sqn (feat x) r := by
  rw [val_main_v5_apply, val_main_cst_1_apply, Ideal.ofBits_def, Ideal.ofBits_zero_f32, zero_add]
  unfold Cert.Spec.sqn feat
  refine Finset.sum_congr rfl fun k _ => ?_
  have e : idx_main_v5 (ix1 r) k = ix2 r k :=
    funext fun a => Fin.ext (by match a with | ⟨0, _⟩ => rfl | ⟨1, _⟩ => rfl)
  rw [val_main_v4_apply, e]
  rfl

/-- The product with the transpose is the matrix of inner products of the rows. -/
theorem cross_A (x : (⟨S4096x256, .f32⟩ : BufTy).Contents (Elt Ideal)) (i j : Fin 4096) :
    val_main_v12 (F := Ideal) x (ix2 i j) = Cert.Spec.cross (feat x) i j := by
  rw [val_main_v12_apply]
  unfold Cert.Spec.cross feat
  refine Finset.sum_congr rfl fun k _ => ?_
  have e1 : lidx_main_v12 (ix2 i j) k = ix2 i k :=
    funext fun a => Fin.ext (by match a with | ⟨0, _⟩ => rfl | ⟨1, _⟩ => rfl)
  have e2 : idx_main_v11 (ridx_main_v12 (ix2 i j) k) = ix2 j k :=
    funext fun a => Fin.ext (by match a with | ⟨0, _⟩ => rfl | ⟨1, _⟩ => rfl)
  rw [val_main_v11_apply, e1, e2]

/-- The clipped squared distance. -/
theorem sqd_A (x : (⟨S4096x256, .f32⟩ : BufTy).Contents (Elt Ideal)) (i j : Fin 4096) :
    val_main_v17 (F := Ideal) x (ix2 i j) = Cert.Spec.sqd (feat x) i j := by
  have e8 : idx_main_v6 (idx_main_v8 (ix2 i j)) = ix1 i :=
    funext fun a => Fin.ext (by match a with | ⟨0, _⟩ => rfl)
  have e9 : idx_main_v7 (idx_main_v9 (ix2 i j)) = ix1 j :=
    funext fun a => Fin.ext (by match a with | ⟨0, _⟩ => rfl)
  rw [val_main_v17_apply, val_main_v15_apply, val_main_v10_apply, val_main_v14_apply, val_main_v8_apply, val_main_v6_apply, val_main_v9_apply,
    val_main_v7_apply, val_main_v13_apply, val_main_cst_2_apply, val_main_v16_apply, val_main_cst_3_apply, e8, e9, sqn_A, sqn_A, cross_A]
  simp only [Ideal.maximumf_def, Ideal.subf_def, Ideal.addf_def, Ideal.mulf_def, Ideal.ofBits_def, Ideal.ofBits_zero_f32]
  rfl

/-- The distance stage at (i, j) is the distance of rows i and j. -/
theorem dist_A (x : (⟨S4096x256, .f32⟩ : BufTy).Contents (Elt Ideal)) (i j : Fin 4096) :
    val_main_v22 (F := Ideal) x (ix2 i j) = Cert.Spec.dist (feat x) i j := by
  rw [val_main_v22_apply, val_main_v21_apply, val_main_v20_apply, val_main_v19_apply, sqd_A, val_main_v18_apply, val_main_cst_4_apply,
    val_main_call0_v1_apply, val_main_call0_v0_apply, val_main_cst_5_apply, val_main_call1_v1_apply,
    val_main_call1_v0_apply, val_main_cst_6_apply]
  simp only [Ideal.cmpf_def, Ideal.hostUnary_sqrt_def, Ideal.ofBits_def, Ideal.ofBits_zero_f32]
  exact guarded_sqrt _ _

end Cert.RefSide

end
-- ==== Proof.Ref.DistB.lean ====
/-
  The distance stage of the first target feature matrix, entry by entry.

  Reading the reference's operations at the index (i, j): the two broadcasts of the row sums of squares give
  |x_i|² and |x_j|², the product with the transpose gives x_i·x_j, so the clipped value is
  max(|x_i|² + |x_j|² − 2 x_i·x_j, 0), and the two selections on its positivity give its root where it is
  positive and 0 elsewhere: the specification's distance of rows i and j.
-/
import proofs.«145363_j34256659153337_2_alg».proof.Proof.Ref.Readers
import proofs.«145363_j34256659153337_2_alg».proof.Proof.Gen.ReferenceIdeal.Read

noncomputable section

namespace Cert.RefSide

open Cert.ReferenceIdeal Cert.ReferenceIdeal.Read Idealize.ShloMosaic Idealize.ShloMosaic.ValueIdx

/-- The row sums of squares are the squared norms. -/
theorem sqn_B (x : (⟨S4096x256, .f32⟩ : BufTy).Contents (Elt Ideal)) (r : Fin 4096) :
    val_main_v24 (F := Ideal) x (ix1 r) = Cert.Spec.sqn (feat x) r := by
  rw [val_main_v24_apply, val_main_cst_7_apply, Ideal.ofBits_def, Ideal.ofBits_zero_f32, zero_add]
  unfold Cert.Spec.sqn feat
  refine Finset.sum_congr rfl fun k _ => ?_
  have e : idx_main_v24 (ix1 r) k = ix2 r k :=
    funext fun a => Fin.ext (by match a with | ⟨0, _⟩ => rfl | ⟨1, _⟩ => rfl)
  rw [val_main_v23_apply, e]
  rfl

/-- The product with the transpose is the matrix of inner products of the rows. -/
theorem cross_B (x : (⟨S4096x256, .f32⟩ : BufTy).Contents (Elt Ideal)) (i j : Fin 4096) :
    val_main_v31 (F := Ideal) x (ix2 i j) = Cert.Spec.cross (feat x) i j := by
  rw [val_main_v31_apply]
  unfold Cert.Spec.cross feat
  refine Finset.sum_congr rfl fun k _ => ?_
  have e1 : lidx_main_v31 (ix2 i j) k = ix2 i k :=
    funext fun a => Fin.ext (by match a with | ⟨0, _⟩ => rfl | ⟨1, _⟩ => rfl)
  have e2 : idx_main_v30 (ridx_main_v31 (ix2 i j) k) = ix2 j k :=
    funext fun a => Fin.ext (by match a with | ⟨0, _⟩ => rfl | ⟨1, _⟩ => rfl)
  rw [val_main_v30_apply, e1, e2]

/-- The clipped squared distance. -/
theorem sqd_B (x : (⟨S4096x256, .f32⟩ : BufTy).Contents (Elt Ideal)) (i j : Fin 4096) :
    val_main_v36 (F := Ideal) x (ix2 i j) = Cert.Spec.sqd (feat x) i j := by
  have e8 : idx_main_v25 (idx_main_v27 (ix2 i j)) = ix1 i :=
    funext fun a => Fin.ext (by match a with | ⟨0, _⟩ => rfl)
  have e9 : idx_main_v26 (idx_main_v28 (ix2 i j)) = ix1 j :=
    funext fun a => Fin.ext (by match a with | ⟨0, _⟩ => rfl)
  rw [val_main_v36_apply, val_main_v34_apply, val_main_v29_apply, val_main_v33_apply, val_main_v27_apply, val_main_v25_apply, val_main_v28_apply,
    val_main_v26_apply, val_main_v32_apply, val_main_cst_8_apply, val_main_v35_apply, val_main_cst_9_apply, e8, e9, sqn_B, sqn_B, cross_B]
  simp only [Ideal.maximumf_def, Ideal.subf_def, Ideal.addf_def, Ideal.mulf_def, Ideal.ofBits_def, Ideal.ofBits_zero_f32]
  rfl

/-- The distance stage at (i, j) is the distance of rows i and j. -/
theorem dist_B (x : (⟨S4096x256, .f32⟩ : BufTy).Contents (Elt Ideal)) (i j : Fin 4096) :
    val_main_v41 (F := Ideal) x (ix2 i j) = Cert.Spec.dist (feat x) i j := by
  rw [val_main_v41_apply, val_main_v40_apply, val_main_v39_apply, val_main_v38_apply, sqd_B, val_main_v37_apply, val_main_cst_10_apply,
    val_main_call2_v1_apply, val_main_call2_v0_apply, val_main_cst_11_apply, val_main_call3_v1_apply,
    val_main_call3_v0_apply, val_main_cst_12_apply]
  simp only [Ideal.cmpf_def, Ideal.hostUnary_sqrt_def, Ideal.ofBits_def, Ideal.ofBits_zero_f32]
  exact guarded_sqrt _ _

end Cert.RefSide

end
-- ==== Proof.Ref.DistC.lean ====
/-
  The distance stage of the second predicted feature matrix, entry by entry.

  Reading the reference's operations at the index (i, j): the two broadcasts of the row sums of squares give
  |x_i|² and |x_j|², the product with the transpose gives x_i·x_j, so the clipped value is
  max(|x_i|² + |x_j|² − 2 x_i·x_j, 0), and the two selections on its positivity give its root where it is
  positive and 0 elsewhere: the specification's distance of rows i and j.
-/
import proofs.«145363_j34256659153337_2_alg».proof.Proof.Ref.Readers
import proofs.«145363_j34256659153337_2_alg».proof.Proof.Gen.ReferenceIdeal.Read

noncomputable section

namespace Cert.RefSide

open Cert.ReferenceIdeal Cert.ReferenceIdeal.Read Idealize.ShloMosaic Idealize.ShloMosaic.ValueIdx

/-- The row sums of squares are the squared norms. -/
theorem sqn_C (x : (⟨S4096x256, .f32⟩ : BufTy).Contents (Elt Ideal)) (r : Fin 4096) :
    val_main_v48 (F := Ideal) x (ix1 r) = Cert.Spec.sqn (feat x) r := by
  rw [val_main_v48_apply, val_main_cst_16_apply, Ideal.ofBits_def, Ideal.ofBits_zero_f32, zero_add]
  unfold Cert.Spec.sqn feat
  refine Finset.sum_congr rfl fun k _ => ?_
  have e : idx_main_v48 (ix1 r) k = ix2 r k :=
    funext fun a => Fin.ext (by match a with | ⟨0, _⟩ => rfl | ⟨1, _⟩ => rfl)
  rw [val_main_v47_apply, e]
  rfl

/-- The product with the transpose is the matrix of inner products of the rows. -/
theorem cross_C (x : (⟨S4096x256, .f32⟩ : BufTy).Contents (Elt Ideal)) (i j : Fin 4096) :
    val_main_v55 (F := Ideal) x (ix2 i j) = Cert.Spec.cross (feat x) i j := by
  rw [val_main_v55_apply]
  unfold Cert.Spec.cross feat
  refine Finset.sum_congr rfl fun k _ => ?_
  have e1 : lidx_main_v55 (ix2 i j) k = ix2 i k :=
    funext fun a => Fin.ext (by match a with | ⟨0, _⟩ => rfl | ⟨1, _⟩ => rfl)
  have e2 : idx_main_v54 (ridx_main_v55 (ix2 i j) k) = ix2 j k :=
    funext fun a => Fin.ext (by match a with | ⟨0, _⟩ => rfl | ⟨1, _⟩ => rfl)
  rw [val_main_v54_apply, e1, e2]

/-- The clipped squared distance. -/
theorem sqd_C (x : (⟨S4096x256, .f32⟩ : BufTy).Contents (Elt Ideal)) (i j : Fin 4096) :
    val_main_v60 (F := Ideal) x (ix2 i j) = Cert.Spec.sqd (feat x) i j := by
  have e8 : idx_main_v49 (idx_main_v51 (ix2 i j)) = ix1 i :=
    funext fun a => Fin.ext (by match a with | ⟨0, _⟩ => rfl)
  have e9 : idx_main_v50 (idx_main_v52 (ix2 i j)) = ix1 j :=
    funext fun a => Fin.ext (by match a with | ⟨0, _⟩ => rfl)
  rw [val_main_v60_apply, val_main_v58_apply, val_main_v53_apply, val_main_v57_apply, val_main_v51_apply, val_main_v49_apply, val_main_v52_apply,
    val_main_v50_apply, val_main_v56_apply, val_main_cst_17_apply, val_main_v59_apply, val_main_cst_18_apply, e8, e9, sqn_C, sqn_C, cross_C]
  simp only [Ideal.maximumf_def, Ideal.subf_def, Ideal.addf_def, Ideal.mulf_def, Ideal.ofBits_def, Ideal.ofBits_zero_f32]
  rfl

/-- The distance stage at (i, j) is the distance of rows i and j. -/
theorem dist_C (x : (⟨S4096x256, .f32⟩ : BufTy).Contents (Elt Ideal)) (i j : Fin 4096) :
    val_main_v65 (F := Ideal) x (ix2 i j) = Cert.Spec.dist (feat x) i j := by
  rw [val_main_v65_apply, val_main_v64_apply, val_main_v63_apply, val_main_v62_apply, sqd_C, val_main_v61_apply, val_main_cst_19_apply,
    val_main_call4_v1_apply, val_main_call4_v0_apply, val_main_cst_20_apply, val_main_call5_v1_apply,
    val_main_call5_v0_apply, val_main_cst_21_apply]
  simp only [Ideal.cmpf_def, Ideal.hostUnary_sqrt_def, Ideal.ofBits_def, Ideal.ofBits_zero_f32]
  exact guarded_sqrt _ _

end Cert.RefSide

end
-- ==== Proof.Ref.DistD.lean ====
/-
  The distance stage of the second target feature matrix, entry by entry.

  Reading the reference's operations at the index (i, j): the two broadcasts of the row sums of squares give
  |x_i|² and |x_j|², the product with the transpose gives x_i·x_j, so the clipped value is
  max(|x_i|² + |x_j|² − 2 x_i·x_j, 0), and the two selections on its positivity give its root where it is
  positive and 0 elsewhere: the specification's distance of rows i and j.
-/
import proofs.«145363_j34256659153337_2_alg».proof.Proof.Ref.Readers
import proofs.«145363_j34256659153337_2_alg».proof.Proof.Gen.ReferenceIdeal.Read

noncomputable section

namespace Cert.RefSide

open Cert.ReferenceIdeal Cert.ReferenceIdeal.Read Idealize.ShloMosaic Idealize.ShloMosaic.ValueIdx

/-- The row sums of squares are the squared norms. -/
theorem sqn_D (x : (⟨S4096x256, .f32⟩ : BufTy).Contents (Elt Ideal)) (r : Fin 4096) :
    val_main_v67 (F := Ideal) x (ix1 r) = Cert.Spec.sqn (feat x) r := by
  rw [val_main_v67_apply, val_main_cst_22_apply, Ideal.ofBits_def, Ideal.ofBits_zero_f32, zero_add]
  unfold Cert.Spec.sqn feat
  refine Finset.sum_congr rfl fun k _ => ?_
  have e : idx_main_v67 (ix1 r) k = ix2 r k :=
    funext fun a => Fin.ext (by match a with | ⟨0, _⟩ => rfl | ⟨1, _⟩ => rfl)
  rw [val_main_v66_apply, e]
  rfl

/-- The product with the transpose is the matrix of inner products of the rows. -/
theorem cross_D (x : (⟨S4096x256, .f32⟩ : BufTy).Contents (Elt Ideal)) (i j : Fin 4096) :
    val_main_v74 (F := Ideal) x (ix2 i j) = Cert.Spec.cross (feat x) i j := by
  rw [val_main_v74_apply]
  unfold Cert.Spec.cross feat
  refine Finset.sum_congr rfl fun k _ => ?_
  have e1 : lidx_main_v74 (ix2 i j) k = ix2 i k :=
    funext fun a => Fin.ext (by match a with | ⟨0, _⟩ => rfl | ⟨1, _⟩ => rfl)
  have e2 : idx_main_v73 (ridx_main_v74 (ix2 i j) k) = ix2 j k :=
    funext fun a => Fin.ext (by match a with | ⟨0, _⟩ => rfl | ⟨1, _⟩ => rfl)
  rw [val_main_v73_apply, e1, e2]

/-- The clipped squared distance. -/
theorem sqd_D (x : (⟨S4096x256, .f32⟩ : BufTy).Contents (Elt Ideal)) (i j : Fin 4096) :
    val_main_v79 (F := Ideal) x (ix2 i j) = Cert.Spec.sqd (feat x) i j := by
  have e8 : idx_main_v68 (idx_main_v70 (ix2 i j)) = ix1 i :=
    funext fun a => Fin.ext (by match a with | ⟨0, _⟩ => rfl)
  have e9 : idx_main_v69 (idx_main_v71 (ix2 i j)) = ix1 j :=
    funext fun a => Fin.ext (by match a with | ⟨0, _⟩ => rfl)
  rw [val_main_v79_apply, val_main_v77_apply, val_main_v72_apply, val_main_v76_apply, val_main_v70_apply, val_main_v68_apply, val_main_v71_apply,
    val_main_v69_apply, val_main_v75_apply, val_main_cst_23_apply, val_main_v78_apply, val_main_cst_24_apply, e8, e9, sqn_D, sqn_D, cross_D]
  simp only [Ideal.maximumf_def, Ideal.subf_def, Ideal.addf_def, Ideal.mulf_def, Ideal.ofBits_def, Ideal.ofBits_zero_f32]
  rfl

/-- The distance stage at (i, j) is the distance of rows i and j. -/
theorem dist_D (x : (⟨S4096x256, .f32⟩ : BufTy).Contents (Elt Ideal)) (i j : Fin 4096) :
    val_main_v84 (F := Ideal) x (ix2 i j) = Cert.Spec.dist (feat x) i j := by
  rw [val_main_v84_apply, val_main_v83_apply, val_main_v82_apply, val_main_v81_apply, sqd_D, val_main_v80_apply, val_main_cst_25_apply,
    val_main_call6_v1_apply, val_main_call6_v0_apply, val_main_cst_26_apply, val_main_call7_v1_apply,
    val_main_call7_v0_apply, val_main_cst_27_apply]
  simp only [Ideal.cmpf_def, Ideal.hostUnary_sqrt_def, Ideal.ofBits_def, Ideal.ofBits_zero_f32]
  exact guarded_sqrt _ _

end Cert.RefSide

end
-- ==== Proof.Ref.DistE.lean ====
/-
  The distance stage of the third predicted feature matrix, entry by entry.

  Reading the reference's operations at the index (i, j): the two broadcasts of the row sums of squares give
  |x_i|² and |x_j|², the product with the transpose gives x_i·x_j, so the clipped value is
  max(|x_i|² + |x_j|² − 2 x_i·x_j, 0), and the two selections on its positivity give its root where it is
  positive and 0 elsewhere: the specification's distance of rows i and j.
-/
import proofs.«145363_j34256659153337_2_alg».proof.Proof.Ref.Readers
import proofs.«145363_j34256659153337_2_alg».proof.Proof.Gen.ReferenceIdeal.Read

noncomputable section

namespace Cert.RefSide

open Cert.ReferenceIdeal Cert.ReferenceIdeal.Read Idealize.ShloMosaic Idealize.ShloMosaic.ValueIdx

/-- The row sums of squares are the squared norms. -/
theorem sqn_E (x : (⟨S4096x256, .f32⟩ : BufTy).Contents (Elt Ideal)) (r : Fin 4096) :
    val_main_v91 (F := Ideal) x (ix1 r) = Cert.Spec.sqn (feat x) r := by
  rw [val_main_v91_apply, val_main_cst_30_apply, Ideal.ofBits_def, Ideal.ofBits_zero_f32, zero_add]
  unfold Cert.Spec.sqn feat
  refine Finset.sum_congr rfl fun k _ => ?_
  have e : idx_main_v91 (ix1 r) k = ix2 r k :=
    funext fun a => Fin.ext (by match a with | ⟨0, _⟩ => rfl | ⟨1, _⟩ => rfl)
  rw [val_main_v90_apply, e]
  rfl

/-- The product with the transpose is the matrix of inner products of the rows. -/
theorem cross_E (x : (⟨S4096x256, .f32⟩ : BufTy).Contents (Elt Ideal)) (i j : Fin 4096) :
    val_main_v98 (F := Ideal) x (ix2 i j) = Cert.Spec.cross (feat x) i j := by
  rw [val_main_v98_apply]
  unfold Cert.Spec.cross feat
  refine Finset.sum_congr rfl fun k _ => ?_
  have e1 : lidx_main_v98 (ix2 i j) k = ix2 i k :=
    funext fun a => Fin.ext (by match a with | ⟨0, _⟩ => rfl | ⟨1, _⟩ => rfl)
  have e2 : idx_main_v97 (ridx_main_v98 (ix2 i j) k) = ix2 j k :=
    funext fun a => Fin.ext (by match a with | ⟨0, _⟩ => rfl | ⟨1, _⟩ => rfl)
  rw [val_main_v97_apply, e1, e2]

/-- The clipped squared distance. -/
theorem sqd_E (x : (⟨S4096x256, .f32⟩ : BufTy).Contents (Elt Ideal)) (i j : Fin 4096) :
    val_main_v103 (F := Ideal) x (ix2 i j) = Cert.Spec.sqd (feat x) i j := by
  have e8 : idx_main_v92 (idx_main_v94 (ix2 i j)) = ix1 i :=
    funext fun a => Fin.ext (by match a with | ⟨0, _⟩ => rfl)
  have e9 : idx_main_v93 (idx_main_v95 (ix2 i j)) = ix1 j :=
    funext fun a => Fin.ext (by match a with | ⟨0, _⟩ => rfl)
  rw [val_main_v103_apply, val_main_v101_apply, val_main_v96_apply, val_main_v100_apply, val_main_v94_apply, val_main_v92_apply, val_main_v95_apply,
    val_main_v93_apply, val_main_v99_apply, val_main_cst_31_apply, val_main_v102_apply, val_main_cst_32_apply, e8, e9, sqn_E, sqn_E, cross_E]
  simp only [Ideal.maximumf_def, Ideal.subf_def, Ideal.addf_def, Ideal.mulf_def, Ideal.ofBits_def, Ideal.ofBits_zero_f32]
  rfl

/-- The distance stage at (i, j) is the distance of rows i and j. -/
theorem dist_E (x : (⟨S4096x256, .f32⟩ : BufTy).Contents (Elt Ideal)) (i j : Fin 4096) :
    val_main_v108 (F := Ideal) x (ix2 i j) = Cert.Spec.dist (feat x) i j := by
  rw [val_main_v108_apply, val_main_v107_apply, val_main_v106_apply, val_main_v105_apply, sqd_E, val_main_v104_apply, val_main_cst_33_apply,
    val_main_call8_v1_apply, val_main_call8_v0_apply, val_main_cst_34_apply, val_main_call9_v1_apply,
    val_main_call9_v0_apply, val_main_cst_35_apply]
  simp only [Ideal.cmpf_def, Ideal.hostUnary_sqrt_def, Ideal.ofBits_def, Ideal.ofBits_zero_f32]
  exact guarded_sqrt _ _

end Cert.RefSide

end
-- ==== Proof.Ref.DistF.lean ====
/-
  The distance stage of the third target feature matrix, entry by entry.

  Reading the reference's operations at the index (i, j): the two broadcasts of the row sums of squares give
  |x_i|² and |x_j|², the product with the transpose gives x_i·x_j, so the clipped value is
  max(|x_i|² + |x_j|² − 2 x_i·x_j, 0), and the two selections on its positivity give its root where it is
  positive and 0 elsewhere: the specification's distance of rows i and j.
-/
import proofs.«145363_j34256659153337_2_alg».proof.Proof.Ref.Readers
import proofs.«145363_j34256659153337_2_alg».proof.Proof.Gen.ReferenceIdeal.Read

noncomputable section

namespace Cert.RefSide

open Cert.ReferenceIdeal Cert.ReferenceIdeal.Read Idealize.ShloMosaic Idealize.ShloMosaic.ValueIdx

/-- The row sums of squares are the squared norms. -/
theorem sqn_F (x : (⟨S4096x256, .f32⟩ : BufTy).Contents (Elt Ideal)) (r : Fin 4096) :
    val_main_v110 (F := Ideal) x (ix1 r) = Cert.Spec.sqn (feat x) r := by
  rw [val_main_v110_apply, val_main_cst_36_apply, Ideal.ofBits_def, Ideal.ofBits_zero_f32, zero_add]
  unfold Cert.Spec.sqn feat
  refine Finset.sum_congr rfl fun k _ => ?_
  have e : idx_main_v110 (ix1 r) k = ix2 r k :=
    funext fun a => Fin.ext (by match a with | ⟨0, _⟩ => rfl | ⟨1, _⟩ => rfl)
  rw [val_main_v109_apply, e]
  rfl

/-- The product with the transpose is the matrix of inner products of the rows. -/
theorem cross_F (x : (⟨S4096x256, .f32⟩ : BufTy).Contents (Elt Ideal)) (i j : Fin 4096) :
    val_main_v117 (F := Ideal) x (ix2 i j) = Cert.Spec.cross (feat x) i j := by
  rw [val_main_v117_apply]
  unfold Cert.Spec.cross feat
  refine Finset.sum_congr rfl fun k _ => ?_
  have e1 : lidx_main_v117 (ix2 i j) k = ix2 i k :=
    funext fun a => Fin.ext (by match a with | ⟨0, _⟩ => rfl | ⟨1, _⟩ => rfl)
  have e2 : idx_main_v116 (ridx_main_v117 (ix2 i j) k) = ix2 j k :=
    funext fun a => Fin.ext (by match a with | ⟨0, _⟩ => rfl | ⟨1, _⟩ => rfl)
  rw [val_main_v116_apply, e1, e2]

/-- The clipped squared distance. -/
theorem sqd_F (x : (⟨S4096x256, .f32⟩ : BufTy).Contents (Elt Ideal)) (i j : Fin 4096) :
    val_main_v122 (F := Ideal) x (ix2 i j) = Cert.Spec.sqd (feat x) i j := by
  have e8 : idx_main_v111 (idx_main_v113 (ix2 i j)) = ix1 i :=
    funext fun a => Fin.ext (by match a with | ⟨0, _⟩ => rfl)
  have e9 : idx_main_v112 (idx_main_v114 (ix2 i j)) = ix1 j :=
    funext fun a => Fin.ext (by match a with | ⟨0, _⟩ => rfl)
  rw [val_main_v122_apply, val_main_v120_apply, val_main_v115_apply, val_main_v119_apply, val_main_v113_apply, val_main_v111_apply, val_main_v114_apply,
    val_main_v112_apply, val_main_v118_apply, val_main_cst_37_apply, val_main_v121_apply, val_main_cst_38_apply, e8, e9, sqn_F, sqn_F, cross_F]
  simp only [Ideal.maximumf_def, Ideal.subf_def, Ideal.addf_def, Ideal.mulf_def, Ideal.ofBits_def, Ideal.ofBits_zero_f32]
  rfl

/-- The distance stage at (i, j) is the distance of rows i and j. -/
theorem dist_F (x : (⟨S4096x256, .f32⟩ : BufTy).Contents (Elt Ideal)) (i j : Fin 4096) :
    val_main_v127 (F := Ideal) x (ix2 i j) = Cert.Spec.dist (feat x) i j := by
  rw [val_main_v127_apply, val_main_v126_apply, val_main_v125_apply, val_main_v124_apply, sqd_F, val_main_v123_apply, val_main_cst_39_apply,
    val_main_call10_v1_apply, val_main_call10_v0_apply, val_main_cst_40_apply, val_main_call11_v1_apply,
    val_main_call11_v0_apply, val_main_cst_41_apply]
  simp only [Ideal.cmpf_def, Ideal.hostUnary_sqrt_def, Ideal.ofBits_def, Ideal.ofBits_zero_f32]
  exact guarded_sqrt _ _

end Cert.RefSide

end
-- ==== Proof.Ref.Fsum.lean ====
/-
  The three totals of squared distance differences.

  Each is the sum, over the 4096 × 4096 index set read as a double sum over the coordinates, of the squared
  difference of the two distance matrices; the sum's initial word is 0.
-/
import proofs.«145363_j34256659153337_2_alg».proof.Proof.Ref.DistA
import proofs.«145363_j34256659153337_2_alg».proof.Proof.Ref.DistB
import proofs.«145363_j34256659153337_2_alg».proof.Proof.Ref.DistC
import proofs.«145363_j34256659153337_2_alg».proof.Proof.Ref.DistD
import proofs.«145363_j34256659153337_2_alg».proof.Proof.Ref.DistE
import proofs.«145363_j34256659153337_2_alg».proof.Proof.Ref.DistF

noncomputable section

namespace Cert.RefSide

open Cert.ReferenceIdeal Cert.ReferenceIdeal.Read Idealize.ShloMosaic Idealize.ShloMosaic.ValueIdx

/-- The first pair of feature matrices: the total of the squared distance differences. -/
theorem fsum_1 (x2 x5 : (⟨S4096x256, .f32⟩ : BufTy).Contents (Elt Ideal)) (i : S_.Idx) :
    val_main_v44 (F := Ideal) x2 x5 i = Cert.Spec.fsum (feat x2) (feat x5) := by
  rw [val_main_v44_apply, val_main_cst_13_apply, Ideal.ofBits_def, Ideal.ofBits_zero_f32, zero_add, sum_idx2]
  unfold Cert.Spec.fsum Cert.Spec.ferr
  refine Finset.sum_congr rfl fun r _ => Finset.sum_congr rfl fun s _ => ?_
  rw [val_main_v43_apply, val_main_v42_apply, dist_A, dist_B]
  rfl

/-- The second pair of feature matrices: the total of the squared distance differences. -/
theorem fsum_2 (x3 x6 : (⟨S4096x256, .f32⟩ : BufTy).Contents (Elt Ideal)) (i : S_.Idx) :
    val_main_v87 (F := Ideal) x3 x6 i = Cert.Spec.fsum (feat x3) (feat x6) := by
  rw [val_main_v87_apply, val_main_cst_28_apply, Ideal.ofBits_def, Ideal.ofBits_zero_f32, zero_add, sum_idx2]
  unfold Cert.Spec.fsum Cert.Spec.ferr
  refine Finset.sum_congr rfl fun r _ => Finset.sum_congr rfl fun s _ => ?_
  rw [val_main_v86_apply, val_main_v85_apply, dist_C, dist_D]
  rfl

/-- The third pair of feature matrices: the total of the squared distance differences. -/
theorem fsum_3 (x4 x7 : (⟨S4096x256, .f32⟩ : BufTy).Contents (Elt Ideal)) (i : S_.Idx) :
    val_main_v130 (F := Ideal) x4 x7 i = Cert.Spec.fsum (feat x4) (feat x7) := by
  rw [val_main_v130_apply, val_main_cst_42_apply, Ideal.ofBits_def, Ideal.ofBits_zero_f32, zero_add, sum_idx2]
  unfold Cert.Spec.fsum Cert.Spec.ferr
  refine Finset.sum_congr rfl fun r _ => Finset.sum_congr rfl fun s _ => ?_
  rw [val_main_v129_apply, val_main_v128_apply, dist_E, dist_F]
  rfl

end Cert.RefSide

end
-- ==== Proof.Ref.Label.lean ====
/-
  The label part: the total of the squared label differences, a double sum over the coordinates of the
  4096 × 1000 index set, with initial word 0.
-/
import proofs.«145363_j34256659153337_2_alg».proof.Proof.Ref.Readers
import proofs.«145363_j34256659153337_2_alg».proof.Proof.Gen.ReferenceIdeal.Read

noncomputable section

namespace Cert.RefSide

open Cert.ReferenceIdeal Cert.ReferenceIdeal.Read Idealize.ShloMosaic Idealize.ShloMosaic.ValueIdx

/-- The total of the squared label differences. -/
theorem lsum_ref (x0 x1 : (⟨S4096x1000, .f32⟩ : BufTy).Contents (Elt Ideal)) (i : S_.Idx) :
    val_main_v2 (F := Ideal) x0 x1 i = Cert.Spec.lsum (lab x0) (lab x1) := by
  rw [val_main_v2_apply, val_main_cst_apply, Ideal.ofBits_def, Ideal.ofBits_zero_f32, zero_add, sum_idx2]
  unfold Cert.Spec.lsum Cert.Spec.lerr lab
  refine Finset.sum_congr rfl fun r _ => Finset.sum_congr rfl fun s _ => ?_
  rw [val_main_v1_apply, val_main_v0_apply]
  rfl

end Cert.RefSide

end
-- ==== Proof.Ref.Result.lean ====
/-
  The reference's result is the specification's value of the argument arrays.

  The result is  w₁ · (label total / (4096·1000)) + (w₂ · ((d₀ + d₁) + d₂)) / 3  with  d_f = (feature total f) / 4096²;
  the running total of the three quotients starts from the word 0, which is removed.  The run of the reference
  then ends with its result buffer at that value and its arguments unchanged.
-/
import proofs.«145363_j34256659153337_2_alg».proof.Defs
import proofs.«145363_j34256659153337_2_alg».proof.Proof.Gen.ReferenceIdeal
import proofs.«145363_j34256659153337_2_alg».proof.Proof.Gen.Pre_finite_inputs
import proofs.«145363_j34256659153337_2_alg».proof.Proof.Gen.ReferenceIdeal.Run
import proofs.«145363_j34256659153337_2_alg».proof.Proof.Gen.ReferenceIdeal.Read
import proofs.«145363_j34256659153337_2_alg».proof.Proof.Ref.Fsum
import proofs.«145363_j34256659153337_2_alg».proof.Proof.Ref.Label

noncomputable section

namespace Cert.RefSide

open Cert.ReferenceIdeal Cert.ReferenceIdeal.Read Idealize.ShloMosaic Idealize.ShloMosaic.TcCoe Idealize.SL.Sem Idealize.ShloMosaic.ValueIdx

/-- The last stage of the reference, as a function of the eight argument arrays, is the specification's value. -/
theorem ref_result (x0 x1 : (⟨S4096x1000, .f32⟩ : BufTy).Contents (Elt Ideal))
    (x2 x3 x4 x5 x6 x7 : (⟨S4096x256, .f32⟩ : BufTy).Contents (Elt Ideal)) :
    val_main_v136 (F := Ideal) x0 x1 x2 x3 x4 x5 x6 x7
      = fun _ => Cert.Spec.refResult (lab x0) (lab x1) (feat x2) (feat x3) (feat x4) (feat x5) (feat x6) (feat x7) := by
  funext i
  rw [val_main_v136_apply, val_main_v133_apply, val_main_v135_apply, val_main_v134_apply, val_main_v132_apply,
    val_main_v131_apply, val_main_v89_apply, val_main_v88_apply, val_main_v46_apply, val_main_v45_apply,
    val_main_v3_apply, fsum_1, fsum_2, fsum_3, lsum_ref, val_main_cst_44_apply, val_main_cst_45_apply,
    val_main_cst_46_apply, val_main_cst_43_apply, val_main_cst_29_apply, val_main_cst_14_apply,
    val_main_cst_15_apply, val_main_cst_0_apply]
  simp only [Ideal.addf_def, Ideal.mulf_def, Ideal.hostDivf_def, Ideal.ofBits_def, Ideal.ofBits_zero_f32, zero_add]
  unfold Cert.Spec.refResult Cert.Spec.c02 Cert.Spec.c08 Cert.Spec.c3 Cert.Spec.cNC Cert.Spec.cNN
  rfl

/-- The reference runs and leaves its arguments unchanged. -/
theorem frame_ri : Cert.frame_ReferenceIdeal := fun m ρ _ =>
  (θ_run Cert.ReferenceIdeal.defs _ _).mono (fun _ h c => (h c).2) (Cert.ReferenceIdeal.Value.run (F := Ideal) m ρ)

/-- The reference's run ends with its result at the specification's value of the arguments it started from, and
    the arguments unchanged. -/
theorem ref_run (m : (ℓ : Loc Cert.ReferenceIdeal.nD Cert.ReferenceIdeal.τ Cert.ReferenceIdeal.sig) → Buf (Elt Ideal) ℓ)
    (ρ : Dev Cert.ReferenceIdeal.nD → PrngReg) :
    θ_run (Cert.ReferenceIdeal.defs (F := Ideal)) (onTc (τ := Cert.ReferenceIdeal.τ) (Cert.ReferenceIdeal.main (F := Ideal)))
      ⟨m, fun _ => 0, ρ⟩ (fun r => ∀ c : Dev Cert.ReferenceIdeal.nD,
        r.2.mem ((c.tc : Thread Cert.ReferenceIdeal.nD Cert.ReferenceIdeal.τ).loc Cert.ReferenceIdeal.main_v136)
          = (fun _ => Cert.Spec.refResult (lab (m ((c.tc : Thread Cert.ReferenceIdeal.nD Cert.ReferenceIdeal.τ).loc Cert.ReferenceIdeal.main_arg0))) (lab (m ((c.tc : Thread Cert.ReferenceIdeal.nD Cert.ReferenceIdeal.τ).loc Cert.ReferenceIdeal.main_arg1)))
              (feat (m ((c.tc : Thread Cert.ReferenceIdeal.nD Cert.ReferenceIdeal.τ).loc Cert.ReferenceIdeal.main_arg2))) (feat (m ((c.tc : Thread Cert.ReferenceIdeal.nD Cert.ReferenceIdeal.τ).loc Cert.ReferenceIdeal.main_arg3)))
              (feat (m ((c.tc : Thread Cert.ReferenceIdeal.nD Cert.ReferenceIdeal.τ).loc Cert.ReferenceIdeal.main_arg4))) (feat (m ((c.tc : Thread Cert.ReferenceIdeal.nD Cert.ReferenceIdeal.τ).loc Cert.ReferenceIdeal.main_arg5)))
              (feat (m ((c.tc : Thread Cert.ReferenceIdeal.nD Cert.ReferenceIdeal.τ).loc Cert.ReferenceIdeal.main_arg6))) (feat (m ((c.tc : Thread Cert.ReferenceIdeal.nD Cert.ReferenceIdeal.τ).loc Cert.ReferenceIdeal.main_arg7))))
        ∧ r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
        ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
        ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
        ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
        ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
        ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
        ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
        ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)) :=
  (θ_run Cert.ReferenceIdeal.defs _ _).mono
    (fun _ h c => ⟨(h c).1.trans ((val_main_v136_eq m c).trans (ref_result _ _ _ _ _ _ _ _)), (h c).2⟩)
    (Cert.ReferenceIdeal.Value.run (F := Ideal) m ρ)

end Cert.RefSide

end
-- ==== Proof.KV.Glue0.lean ====
/-
  Region 0's output array after the run: entry (b, u, v) of the [8, 8, 128] array holds the sum of the squared label
  differences over the 512 rows of block b — grid point b loads rows 512·b … 512·b + 511 of both label matrices and
  writes that one sum to the whole of its [1, 8, 128] output block, and the eight blocks tile the array.
-/
import proofs.«145363_j34256659153337_2_alg».proof.Proof.KI.Data
import proofs.«145363_j34256659153337_2_alg».proof.Proof.Spec
import proofs.«145363_j34256659153337_2_alg».proof.Proof.Ref.Readers
import Idealize.ShloMosaic.Lib.Pipeline.Value
import Idealize.ShloMosaic.Lib.ValueIdx

set_option maxRecDepth 16384

noncomputable section

namespace Cert.KernelIdeal.KV

open Cert.KernelIdeal Cert.KernelIdeal.Gen Cert.KernelIdeal.HF
open Idealize.ShloMosaic Idealize.ShloMosaic.TcCoe Idealize.ShloMosaic.ValueIdx
open Idealize.SL Idealize.SL.Sem
open Idealize.ShloMosaic.Pipeline (Dat)
open Cert.RefSide (lab feat)

variable (m : (ℓ : Loc nD τ sig) → Buf (Elt Ideal) ℓ) (ρ : Dev nD → PrngReg)

theorem hz2 : (![0, 0] : Fin 2 → Nat) = fun _ => 0 := funext fun a => by fin_cases a <;> rfl
theorem hz3 : (![0, 0, 0] : Fin 3 → Nat) = fun _ => 0 := funext fun a => by fin_cases a <;> rfl

/-- The label matrices as the run finds them. -/
abbrev predOf (c : Dev nD) : Spec.Lab := lab (m ((c : Thread nD τ).loc main_arg0))
abbrev targetOf (c : Dev nD) : Spec.Lab := lab (m ((c : Thread nD τ).loc main_arg1))

/-- What region 0's output array ends holding: at (b, u, v) the block sum of block b. -/
def G0 (c : Dev nD) : S8x8x128.Idx → EReal := fun i => Spec.lblock (predOf m c) (targetOf m c) (i 0)

/-- The block index maps over the grid: both inputs' row block is the output's leading block, all other block
    indices are 0. -/
theorem idx_facts0 : ∀ t : Fin cfg0.N, win0_0.index t (0 : Fin 2) = win0_2.index t (0 : Fin 3)
    ∧ win0_0.index t (1 : Fin 2) = 0
    ∧ win0_1.index t (0 : Fin 2) = win0_2.index t (0 : Fin 3)
    ∧ win0_1.index t (1 : Fin 2) = 0
    ∧ win0_2.index t (1 : Fin 3) = 0 ∧ win0_2.index t (2 : Fin 3) = 0
    ∧ win0_2.index t (0 : Fin 3) ≤ 7 :=
  (by decide +kernel : ∀ t : Fin grid0.N, _)

/-- Every leading block is some point's. -/
theorem idx_onto0 : ∀ q0 : Fin 8, ∃ t : Fin cfg0.N, win0_2.index t = ![q0.val, 0, 0] :=
  (by decide +kernel : ∀ q0 : Fin 8, ∃ t : Fin grid0.N, win0_2.index t = ![q0.val, 0, 0])

/-- What point t writes back is block t of G0, given the body's arithmetic as a double sum. -/
theorem flushed0_eq
    (hpay : ∀ (v0 v1 : Vec Ideal S512x1000 .f32) (y : S1x8x128.Idx),
      k0_pay1 (F := Ideal) v0 v1 y = ∑ a : Fin 512, ∑ k : Fin 1000, (v0 (ix2 a k) - v1 (ix2 a k)) * (v0 (ix2 a k) - v1 (ix2 a k)))
    (c : Dev nD) (t : Fin cfg0.N) :
    (dat0 (V0 m ρ) c).flushed 2 t = ((cfg0.win 2).blk t).view.read (Elt Ideal) (G0 m c) := by
  show (cfg0.win 2).cut (grid0.coords t) ((dat0 (V0 m ρ) c).after 2 t) = _
  rw [after0_2]
  unfold out0_2
  rw [View.canon_unit_zero hz3]
  simp only [View.ld_unit_zero (S := S512x1000) hz2]
  obtain ⟨e0, e1, e2, e3, e4, e5, e6⟩ := idx_facts0 t
  funext j
  refine (hpay _ _ j).trans ?_
  show _ = Spec.lblock (predOf m c) (targetOf m c) ((((cfg0.win 2).blk t).view.emb j) 0)
  unfold Spec.lblock Spec.lerr
  refine Finset.sum_congr rfl fun a _ => Finset.sum_congr rfl fun k _ => ?_
  have h0 : iblk0 (V0 m ρ) c 0 t (ix2 a k) = predOf m c ⟨((((cfg0.win 2).blk t).view.emb j) 0).val * 512 + a.val, by
      have : ((((cfg0.win 2).blk t).view.emb j) 0).val = win0_2.index t (0 : Fin 3) * 1 + 1 * (j 0).val := rfl
      have hj : (j 0).val < 1 := (j 0).isLt
      omega⟩ k := by
    show m ((c : Thread nD τ).loc main_arg0) (((cfg0.win 0).blk t).view.emb (ix2 a k)) = m ((c : Thread nD τ).loc main_arg0) (ix2 _ k)
    refine congrArg _ ?_
    funext ax; apply Fin.ext
    match ax with
    | ⟨0, _⟩ =>
      show win0_0.index t (0 : Fin 2) * 512 + 1 * a.val = (win0_2.index t (0 : Fin 3) * 1 + 1 * (j 0).val) * 512 + a.val
      have hj : (j 0).val < 1 := (j 0).isLt
      omega
    | ⟨1, _⟩ =>
      show win0_0.index t (1 : Fin 2) * 1000 + 1 * k.val = k.val
      omega
  have h1 : iblk0 (V0 m ρ) c 1 t (ix2 a k) = targetOf m c ⟨((((cfg0.win 2).blk t).view.emb j) 0).val * 512 + a.val, by
      have : ((((cfg0.win 2).blk t).view.emb j) 0).val = win0_2.index t (0 : Fin 3) * 1 + 1 * (j 0).val := rfl
      have hj : (j 0).val < 1 := (j 0).isLt
      omega⟩ k := by
    show m ((c : Thread nD τ).loc main_arg1) (((cfg0.win 1).blk t).view.emb (ix2 a k)) = m ((c : Thread nD τ).loc main_arg1) (ix2 _ k)
    refine congrArg _ ?_
    funext ax; apply Fin.ext
    match ax with
    | ⟨0, _⟩ =>
      show win0_1.index t (0 : Fin 2) * 512 + 1 * a.val = (win0_2.index t (0 : Fin 3) * 1 + 1 * (j 0).val) * 512 + a.val
      have hj : (j 0).val < 1 := (j 0).isLt
      omega
    | ⟨1, _⟩ =>
      show win0_1.index t (1 : Fin 2) * 1000 + 1 * k.val = k.val
      omega
  rw [h0, h1]

/-- An index of the array is in point t's block iff each coordinate is in the block's range on its axis. -/
theorem mem_blk0 (t : Fin cfg0.N) (i : S8x8x128.Idx) :
    i ∈ ((cfg0.win 2).blk t).view.set ↔ ∀ a : Fin 3, win0_2.index t a * S1x8x128.size a ≤ (i a).val ∧ (i a).val < win0_2.index t a * S1x8x128.size a + S1x8x128.size a := by
  show i ∈ ((View.whole main_v0).slice (win0_2.rect t)).set ↔ _
  rw [View.set_slice_whole, Rect.mem_set_unit]
  exact Iff.rfl

/-- The eight blocks cover the array. -/
theorem cover0 (i : S8x8x128.Idx) : ∃ t : Fin cfg0.N, (cfg0.win 2).flush t = true ∧ i ∈ ((cfg0.win 2).blk t).view.set := by
  have hi0 : (i 0).val < 8 := (i 0).isLt
  have hi1 : (i 1).val < 8 := (i 1).isLt
  have hi2 : (i 2).val < 128 := (i 2).isLt
  obtain ⟨t, ht⟩ := idx_onto0 ⟨(i 0).val, hi0⟩
  have q0 : win0_2.index t (0 : Fin 3) = (i 0).val := congrFun ht 0
  have q1 : win0_2.index t (1 : Fin 3) = 0 := congrFun ht 1
  have q2 : win0_2.index t (2 : Fin 3) = 0 := congrFun ht 2
  refine ⟨t, flush0_2 t, ?_⟩
  rw [mem_blk0]
  intro a
  match a with
  | ⟨0, _⟩ => show win0_2.index t (0 : Fin 3) * 1 ≤ (i 0).val ∧ (i 0).val < win0_2.index t (0 : Fin 3) * 1 + 1; omega
  | ⟨1, _⟩ => show win0_2.index t (1 : Fin 3) * 8 ≤ (i 1).val ∧ (i 1).val < win0_2.index t (1 : Fin 3) * 8 + 8; omega
  | ⟨2, _⟩ => show win0_2.index t (2 : Fin 3) * 128 ≤ (i 2).val ∧ (i 2).val < win0_2.index t (2 : Fin 3) * 128 + 128; omega

/-- Region 0's output array after the run. -/
theorem final0
    (hpay : ∀ (v0 v1 : Vec Ideal S512x1000 .f32) (y : S1x8x128.Idx),
      k0_pay1 (F := Ideal) v0 v1 y = ∑ a : Fin 512, ∑ k : Fin 1000, (v0 (ix2 a k) - v1 (ix2 a k)) * (v0 (ix2 a k) - v1 (ix2 a k)))
    (c : Dev nD) : (dat0 (V0 m ρ) c).arrAt 2 cfg0.N = G0 m c :=
  (dat0 (V0 m ρ) c).arrAt_eq_of_cover 2 (G0 m c) (fun t _ => flushed0_eq m ρ hpay c t) cover0

end Cert.KernelIdeal.KV

end
-- ==== Proof.SpecAux.lean ====
/-
  Two pieces of the distance formula named separately, so that a program's value can be matched one entry at a
  time: the clipped squared distance from two squared norms and an inner product, and the guarded root.
-/
import proofs.«145363_j34256659153337_2_alg».proof.Proof.Spec

noncomputable section

namespace Cert.Spec

open Idealize.ShloMosaic

/-- max(rn + cn − 2 · cr, 0): the clipped squared distance from the two squared norms and the inner product. -/
def sqdOf (rn cn cr : EReal) : EReal := max ((rn + cn) - two * cr) 0
/-- The root where the argument is positive, else 0. -/
def distOf (s : EReal) : EReal := if 0 < s then Ideal.sqrt s else 0

theorem sqd_eq (f : Feat) (i j : Fin 4096) : sqd f i j = sqdOf (sqn f i) (sqn f j) (cross f i j) := rfl
theorem dist_eq (f : Feat) (i j : Fin 4096) : dist f i j = distOf (sqdOf (sqn f i) (sqn f j) (cross f i j)) := rfl

end Cert.Spec

end
-- ==== Proof.KV.Feats.lean ====
/-
  The three pairs of feature matrices as the run finds them in the argument buffers.
-/
import proofs.«145363_j34256659153337_2_alg».proof.Proof.KI.Data
import proofs.«145363_j34256659153337_2_alg».proof.Proof.Spec
import proofs.«145363_j34256659153337_2_alg».proof.Proof.Ref.Readers

noncomputable section

namespace Cert.KernelIdeal.KV

open Cert.KernelIdeal Cert.KernelIdeal.Gen
open Idealize.ShloMosaic Idealize.ShloMosaic.TcCoe
open Idealize.SL Idealize.SL.Sem
open Cert.RefSide (lab feat)

variable (m : (ℓ : Loc nD τ sig) → Buf (Elt Ideal) ℓ)

/-- The three predicted feature matrices. -/
def pfOf (c : Dev nD) : Fin 3 → Spec.Feat :=
  ![feat (m ((c : Thread nD τ).loc main_arg2)), feat (m ((c : Thread nD τ).loc main_arg3)), feat (m ((c : Thread nD τ).loc main_arg4))]
/-- The three target feature matrices. -/
def tfOf (c : Dev nD) : Fin 3 → Spec.Feat :=
  ![feat (m ((c : Thread nD τ).loc main_arg5)), feat (m ((c : Thread nD τ).loc main_arg6)), feat (m ((c : Thread nD τ).loc main_arg7))]

end Cert.KernelIdeal.KV

end
-- ==== Proof.KV.Targets.lean ====
/-
  What region 1's output array ends holding: entry (f, r, u, v) of the [3, 32, 8, 128] array is the sum of the squared
  distance differences of feature pair f over the rows 128·r … 128·r + 127 against all rows.
-/
import proofs.«145363_j34256659153337_2_alg».proof.Proof.KV.Feats

noncomputable section

namespace Cert.KernelIdeal.KV

open Cert.KernelIdeal Cert.KernelIdeal.Gen
open Idealize.ShloMosaic Idealize.ShloMosaic.TcCoe
open Idealize.SL Idealize.SL.Sem

variable (m : (ℓ : Loc nD τ sig) → Buf (Elt Ideal) ℓ)

def G1 (c : Dev nD) : S3x32x8x128.Idx → EReal := fun i => Spec.fblock (pfOf m c (i 0)) (tfOf m c (i 0)) (i 1)

end Cert.KernelIdeal.KV

end
-- ==== Proof.KV.Glue1.lean ====
/-
  Region 1's output array after the run: entry (f, r, u, v) of the [3, 32, 8, 128] array holds the sum, over the rows
  128·r … 128·r + 127 of feature pair f against all 4096 rows, of the squared difference of the two distance matrices.
  Grid point (f, r) reads feature pair f whole (both matrices, and the rows of squared norms), the column block r of
  the squared norms, and the 128-row slab at offset 128·r of each matrix, and writes that one sum to the whole of its
  [1, 1, 8, 128] output block; the 96 blocks tile the array.
-/
import proofs.«145363_j34256659153337_2_alg».proof.Proof.KI.Data
import proofs.«145363_j34256659153337_2_alg».proof.Proof.SpecAux
import proofs.«145363_j34256659153337_2_alg».proof.Proof.KV.Targets
import Idealize.ShloMosaic.Lib.Pipeline.Value
import Idealize.ShloMosaic.Lib.ValueIdx

set_option maxRecDepth 16384

noncomputable section

namespace Cert.KernelIdeal.KV

open Cert.KernelIdeal Cert.KernelIdeal.Gen Cert.KernelIdeal.HF
open Idealize.ShloMosaic Idealize.ShloMosaic.TcCoe Idealize.ShloMosaic.ValueIdx
open Idealize.SL Idealize.SL.Sem
open Idealize.ShloMosaic.Pipeline (Dat)

variable (m : (ℓ : Loc nD τ sig) → Buf (Elt Ideal) ℓ) (ρ : Dev nD → PrngReg)

theorem hz3' : (![0, 0, 0] : Fin 3 → Nat) = fun _ => 0 := funext fun a => by fin_cases a <;> rfl
theorem hz4 : (![0, 0, 0, 0] : Fin 4 → Nat) = fun _ => 0 := funext fun a => by fin_cases a <;> rfl

/-- The block index maps over the grid, and the slab's offset: with (f, r) the output's two leading block indices,
    every resident input is block f, the column blocks are block (f, r), the slab starts at row 128·r. -/
theorem idx_facts1 : ∀ t : Fin cfg1.N,
    (win1_0.index t (0 : Fin 3) = win1_6.index t (0 : Fin 4) ∧ win1_0.index t (1 : Fin 3) = 0 ∧ win1_0.index t (2 : Fin 3) = 0)
    ∧ (win1_1.index t (0 : Fin 3) = win1_6.index t (0 : Fin 4) ∧ win1_1.index t (1 : Fin 3) = 0 ∧ win1_1.index t (2 : Fin 3) = 0)
    ∧ (win1_2.index t (0 : Fin 3) = win1_6.index t (0 : Fin 4) ∧ win1_2.index t (1 : Fin 3) = 0 ∧ win1_2.index t (2 : Fin 3) = 0)
    ∧ (win1_3.index t (0 : Fin 3) = win1_6.index t (0 : Fin 4) ∧ win1_3.index t (1 : Fin 3) = 0 ∧ win1_3.index t (2 : Fin 3) = 0)
    ∧ (win1_4.index t (0 : Fin 3) = win1_6.index t (0 : Fin 4) ∧ win1_4.index t (1 : Fin 3) = win1_6.index t (1 : Fin 4) ∧ win1_4.index t (2 : Fin 3) = 0)
    ∧ (win1_5.index t (0 : Fin 3) = win1_6.index t (0 : Fin 4) ∧ win1_5.index t (1 : Fin 3) = win1_6.index t (1 : Fin 4) ∧ win1_5.index t (2 : Fin 3) = 0)
    ∧ (win1_6.index t (2 : Fin 4) = 0 ∧ win1_6.index t (3 : Fin 4) = 0 ∧ win1_6.index t (0 : Fin 4) ≤ 2 ∧ win1_6.index t (1 : Fin 4) ≤ 31)
    ∧ (k1_off1 (grid1.coords t) (0 : Fin 3) = 0 ∧ k1_off1 (grid1.coords t) (1 : Fin 3) = win1_6.index t (1 : Fin 4) * 128 ∧ k1_off1 (grid1.coords t) (2 : Fin 3) = 0) :=
  (by decide +kernel : ∀ t : Fin grid1.N, _)

/-- Every pair of leading blocks is some point's. -/
theorem idx_onto1 : ∀ (q0 : Fin 3) (q1 : Fin 32), ∃ t : Fin cfg1.N, win1_6.index t = ![q0.val, q1.val, 0, 0] :=
  (by decide +kernel : ∀ (q0 : Fin 3) (q1 : Fin 32), ∃ t : Fin grid1.N, win1_6.index t = ![q0.val, q1.val, 0, 0])

/-- The feature pair and the row block of grid point t. -/
theorem f_le (t : Fin cfg1.N) : win1_6.index t (0 : Fin 4) ≤ 2 := by
  obtain ⟨-, -, -, -, -, -, ⟨-, -, h, -⟩, -⟩ := idx_facts1 t; exact h
theorem r_le (t : Fin cfg1.N) : win1_6.index t (1 : Fin 4) ≤ 31 := by
  obtain ⟨-, -, -, -, -, -, ⟨-, -, -, h⟩, -⟩ := idx_facts1 t; exact h
def fOf (t : Fin cfg1.N) : Fin 3 := ⟨win1_6.index t (0 : Fin 4), by have := f_le t; omega⟩
def rOf (t : Fin cfg1.N) : Fin 32 := ⟨win1_6.index t (1 : Fin 4), by have := r_le t; omega⟩
/-- Row a of the slab of grid point t, as a row of the whole matrix. -/
def rowOf (t : Fin cfg1.N) (a : Fin 128) : Fin 4096 := ⟨win1_6.index t (1 : Fin 4) * 128 + a.val, by have := r_le t; omega⟩

/-- An index of point t's output block, as an index of the array. -/
theorem emb6 (t : Fin cfg1.N) (j : S1x1x8x128.Idx) :
    ((cfg1.win 6).blk t).view.emb j = ix4 (fOf t) (rOf t) (⟨(j 2).val, (j 2).isLt⟩ : Fin 8) (⟨(j 3).val, (j 3).isLt⟩ : Fin 128) := by
  obtain ⟨-, -, -, -, -, -, ⟨a62, a63, -, -⟩, -⟩ := idx_facts1 t
  have hj0 : (j 0).val < 1 := (j 0).isLt
  have hj1 : (j 1).val < 1 := (j 1).isLt
  funext ax; apply Fin.ext
  match ax with
  | ⟨0, _⟩ => show win1_6.index t (0 : Fin 4) * 1 + 1 * (j 0).val = win1_6.index t (0 : Fin 4); omega
  | ⟨1, _⟩ => show win1_6.index t (1 : Fin 4) * 1 + 1 * (j 1).val = win1_6.index t (1 : Fin 4); omega
  | ⟨2, _⟩ => show win1_6.index t (2 : Fin 4) * 8 + 1 * (j 2).val = (j 2).val; omega
  | ⟨3, _⟩ => show win1_6.index t (3 : Fin 4) * 128 + 1 * (j 3).val = (j 3).val; omega

/-- An index of the array is in point t's block iff each coordinate is in the block's range on its axis. -/
theorem mem_blk1 (t : Fin cfg1.N) (i : S3x32x8x128.Idx) :
    i ∈ ((cfg1.win 6).blk t).view.set ↔ ∀ a : Fin 4, win1_6.index t a * S1x1x8x128.size a ≤ (i a).val ∧ (i a).val < win1_6.index t a * S1x1x8x128.size a + S1x1x8x128.size a := by
  show i ∈ ((View.whole main_v22).slice (win1_6.rect t)).set ↔ _
  rw [View.set_slice_whole, Rect.mem_set_unit]
  exact Iff.rfl

/-- The 96 blocks cover the array. -/
theorem cover1 (i : S3x32x8x128.Idx) : ∃ t : Fin cfg1.N, (cfg1.win 6).flush t = true ∧ i ∈ ((cfg1.win 6).blk t).view.set := by
  have hi0 : (i 0).val < 3 := (i 0).isLt
  have hi1 : (i 1).val < 32 := (i 1).isLt
  have hi2 : (i 2).val < 8 := (i 2).isLt
  have hi3 : (i 3).val < 128 := (i 3).isLt
  obtain ⟨t, ht⟩ := idx_onto1 ⟨(i 0).val, hi0⟩ ⟨(i 1).val, hi1⟩
  have q0 : win1_6.index t (0 : Fin 4) = (i 0).val := congrFun ht 0
  have q1 : win1_6.index t (1 : Fin 4) = (i 1).val := congrFun ht 1
  have q2 : win1_6.index t (2 : Fin 4) = 0 := congrFun ht 2
  have q3 : win1_6.index t (3 : Fin 4) = 0 := congrFun ht 3
  refine ⟨t, flush1_6 t, ?_⟩
  rw [mem_blk1]
  intro a
  match a with
  | ⟨0, _⟩ => show win1_6.index t (0 : Fin 4) * 1 ≤ (i 0).val ∧ (i 0).val < win1_6.index t (0 : Fin 4) * 1 + 1; omega
  | ⟨1, _⟩ => show win1_6.index t (1 : Fin 4) * 1 ≤ (i 1).val ∧ (i 1).val < win1_6.index t (1 : Fin 4) * 1 + 1; omega
  | ⟨2, _⟩ => show win1_6.index t (2 : Fin 4) * 8 ≤ (i 2).val ∧ (i 2).val < win1_6.index t (2 : Fin 4) * 8 + 8; omega
  | ⟨3, _⟩ => show win1_6.index t (3 : Fin 4) * 128 ≤ (i 3).val ∧ (i 3).val < win1_6.index t (3 : Fin 4) * 128 + 128; omega

/-! ## The blocks region 1 reads, entry by entry, from what the host stretch before it left -/

section Reads

variable (c : Dev nD) (t : Fin cfg1.N)

/-- A resident predicted-feature matrix at (row, k). -/
theorem read0 (hv12 : ∀ (c : Dev nD) (f : Fin 3) (i : Fin 4096) (k : Fin 256), W2 (F := Ideal) m ρ c (Proc.devRef .tc main_v12) (ix3 f i k) = pfOf m c f i k)
    (i' : Fin 4096) (k : Fin 256) : iblk1 (V2 m ρ) c 0 t (ix3 0 i' k) = pfOf m c (fOf t) i' k := by
  obtain ⟨⟨a00, a01, a02⟩, -⟩ := idx_facts1 t
  rw [← hv12 c]
  show W2 m ρ c (Proc.devRef .tc main_v12) (((cfg1.win 0).blk t).view.emb (ix3 0 i' k)) = _
  refine congrArg _ ?_
  funext ax; apply Fin.ext
  match ax with
  | ⟨0, _⟩ => show win1_0.index t (0 : Fin 3) * 1 + 1 * 0 = win1_6.index t (0 : Fin 4); omega
  | ⟨1, _⟩ => show win1_0.index t (1 : Fin 3) * 4096 + 1 * i'.val = i'.val; omega
  | ⟨2, _⟩ => show win1_0.index t (2 : Fin 3) * 256 + 1 * k.val = k.val; omega

/-- A resident target-feature matrix at (row, k). -/
theorem read1 (hv13 : ∀ (c : Dev nD) (f : Fin 3) (i : Fin 4096) (k : Fin 256), W2 (F := Ideal) m ρ c (Proc.devRef .tc main_v13) (ix3 f i k) = tfOf m c f i k)
    (i' : Fin 4096) (k : Fin 256) : iblk1 (V2 m ρ) c 1 t (ix3 0 i' k) = tfOf m c (fOf t) i' k := by
  obtain ⟨-, ⟨a10, a11, a12⟩, -⟩ := idx_facts1 t
  rw [← hv13 c]
  show W2 m ρ c (Proc.devRef .tc main_v13) (((cfg1.win 1).blk t).view.emb (ix3 0 i' k)) = _
  refine congrArg _ ?_
  funext ax; apply Fin.ext
  match ax with
  | ⟨0, _⟩ => show win1_1.index t (0 : Fin 3) * 1 + 1 * 0 = win1_6.index t (0 : Fin 4); omega
  | ⟨1, _⟩ => show win1_1.index t (1 : Fin 3) * 4096 + 1 * i'.val = i'.val; omega
  | ⟨2, _⟩ => show win1_1.index t (2 : Fin 3) * 256 + 1 * k.val = k.val; omega

/-- The row of squared norms of the predicted features at column j. -/
theorem read2 (hv18 : ∀ (c : Dev nD) (f : Fin 3) (j : Fin 4096), W2 (F := Ideal) m ρ c (Proc.devRef .tc main_v18) (ix3 f (0 : Fin 1) j) = Spec.sqn (pfOf m c f) j)
    (j' : Fin 4096) : iblk1 (V2 m ρ) c 2 t (ix3 0 0 j') = Spec.sqn (pfOf m c (fOf t)) j' := by
  obtain ⟨-, -, ⟨a20, a21, a22⟩, -⟩ := idx_facts1 t
  rw [← hv18 c]
  show W2 m ρ c (Proc.devRef .tc main_v18) (((cfg1.win 2).blk t).view.emb (ix3 0 0 j')) = _
  refine congrArg _ ?_
  funext ax; apply Fin.ext
  match ax with
  | ⟨0, _⟩ => show win1_2.index t (0 : Fin 3) * 1 + 1 * 0 = win1_6.index t (0 : Fin 4); omega
  | ⟨1, _⟩ => show win1_2.index t (1 : Fin 3) * 1 + 1 * 0 = 0; omega
  | ⟨2, _⟩ => show win1_2.index t (2 : Fin 3) * 4096 + 1 * j'.val = j'.val; omega

/-- The row of squared norms of the target features at column j. -/
theorem read3 (hv19 : ∀ (c : Dev nD) (f : Fin 3) (j : Fin 4096), W2 (F := Ideal) m ρ c (Proc.devRef .tc main_v19) (ix3 f (0 : Fin 1) j) = Spec.sqn (tfOf m c f) j)
    (j' : Fin 4096) : iblk1 (V2 m ρ) c 3 t (ix3 0 0 j') = Spec.sqn (tfOf m c (fOf t)) j' := by
  obtain ⟨-, -, -, ⟨a30, a31, a32⟩, -⟩ := idx_facts1 t
  rw [← hv19 c]
  show W2 m ρ c (Proc.devRef .tc main_v19) (((cfg1.win 3).blk t).view.emb (ix3 0 0 j')) = _
  refine congrArg _ ?_
  funext ax; apply Fin.ext
  match ax with
  | ⟨0, _⟩ => show win1_3.index t (0 : Fin 3) * 1 + 1 * 0 = win1_6.index t (0 : Fin 4); omega
  | ⟨1, _⟩ => show win1_3.index t (1 : Fin 3) * 1 + 1 * 0 = 0; omega
  | ⟨2, _⟩ => show win1_3.index t (2 : Fin 3) * 4096 + 1 * j'.val = j'.val; omega

/-- The column block of squared norms of the predicted features at row a of the slab. -/
theorem read4 (hv20 : ∀ (c : Dev nD) (f : Fin 3) (i : Fin 4096), W2 (F := Ideal) m ρ c (Proc.devRef .tc main_v20) (ix3 f i (0 : Fin 1)) = Spec.sqn (pfOf m c f) i)
    (a : Fin 128) : iblk1 (V2 m ρ) c 4 t (ix3 0 a 0) = Spec.sqn (pfOf m c (fOf t)) (rowOf t a) := by
  obtain ⟨-, -, -, -, ⟨a40, a41, a42⟩, -⟩ := idx_facts1 t
  rw [← hv20 c]
  show W2 m ρ c (Proc.devRef .tc main_v20) (((cfg1.win 4).blk t).view.emb (ix3 0 a 0)) = _
  refine congrArg _ ?_
  funext ax; apply Fin.ext
  match ax with
  | ⟨0, _⟩ => show win1_4.index t (0 : Fin 3) * 1 + 1 * 0 = win1_6.index t (0 : Fin 4); omega
  | ⟨1, _⟩ => show win1_4.index t (1 : Fin 3) * 128 + 1 * a.val = win1_6.index t (1 : Fin 4) * 128 + a.val; omega
  | ⟨2, _⟩ => show win1_4.index t (2 : Fin 3) * 1 + 1 * 0 = 0; omega

/-- The column block of squared norms of the target features at row a of the slab. -/
theorem read5 (hv21 : ∀ (c : Dev nD) (f : Fin 3) (i : Fin 4096), W2 (F := Ideal) m ρ c (Proc.devRef .tc main_v21) (ix3 f i (0 : Fin 1)) = Spec.sqn (tfOf m c f) i)
    (a : Fin 128) : iblk1 (V2 m ρ) c 5 t (ix3 0 a 0) = Spec.sqn (tfOf m c (fOf t)) (rowOf t a) := by
  obtain ⟨-, -, -, -, -, ⟨a50, a51, a52⟩, -⟩ := idx_facts1 t
  rw [← hv21 c]
  show W2 m ρ c (Proc.devRef .tc main_v21) (((cfg1.win 5).blk t).view.emb (ix3 0 a 0)) = _
  refine congrArg _ ?_
  funext ax; apply Fin.ext
  match ax with
  | ⟨0, _⟩ => show win1_5.index t (0 : Fin 3) * 1 + 1 * 0 = win1_6.index t (0 : Fin 4); omega
  | ⟨1, _⟩ => show win1_5.index t (1 : Fin 3) * 128 + 1 * a.val = win1_6.index t (1 : Fin 4) * 128 + a.val; omega
  | ⟨2, _⟩ => show win1_5.index t (2 : Fin 3) * 1 + 1 * 0 = 0; omega

/-- Row a of the slab the body loads at grid point t is row 128·r + a of the resident matrix it is cut from. -/
theorem slab_row (x : Vec Ideal S1x4096x256 .bf16) (a : Fin 128) (k : Fin 256) :
    View.ld x (rd1 (grid1.coords t)) (ix3 0 a k) = x (ix3 0 (rowOf t a) k) := by
  obtain ⟨-, -, -, -, -, -, -, ⟨o0, o1, o2⟩⟩ := idx_facts1 t
  show x ((rd1 (grid1.coords t)).emb (ix3 0 a k)) = _
  refine congrArg _ ?_
  funext ax; apply Fin.ext
  match ax with
  | ⟨0, _⟩ => show k1_off1 (grid1.coords t) (0 : Fin 3) + 1 * 0 = 0; omega
  | ⟨1, _⟩ => show k1_off1 (grid1.coords t) (1 : Fin 3) + 1 * a.val = win1_6.index t (1 : Fin 4) * 128 + a.val; omega
  | ⟨2, _⟩ => show k1_off1 (grid1.coords t) (2 : Fin 3) + 1 * k.val = k.val; omega

/-- The inner product the body forms between row a of the slab and row j' of the resident matrix, once the resident
    matrix is known entry by entry. -/
theorem cross_read (x : Vec Ideal S1x4096x256 .bf16) (P : Spec.Feat) (a : Fin 128) (j' : Fin 4096)
    (hx : ∀ (i' : Fin 4096) (k : Fin 256), x (ix3 0 i' k) = P i' k) :
    (∑ k : Fin 256, View.ld x (rd1 (grid1.coords t)) (ix3 0 a k) * x (ix3 0 j' k)) = ∑ k : Fin 256, P (rowOf t a) k * P j' k :=
  Finset.sum_congr rfl fun k _ => by rw [slab_row t, hx, hx]

end Reads

section Flushed

variable
    (hpay : ∀ (ap at_ : Vec Ideal S1x128x256 .bf16) (bp bt : Vec Ideal S1x4096x256 .bf16) (np nt : Vec Ideal S1x1x4096 .f32)
        (rp rt : Vec Ideal S1x128x1 .f32) (y : S1x1x8x128.Idx),
      k1_pay1 (F := Ideal) (k1_pay2 at_ bt) (k1_pay3 nt) (k1_pay4 rt) (k1_pay5 ap bp np rp) (k1_pay6 (F := Ideal)) y
        = ∑ a : Fin 128, ∑ j : Fin 4096,
            (Spec.distOf (Spec.sqdOf (rp (ix3 0 a 0)) (np (ix3 0 0 j)) (∑ k : Fin 256, ap (ix3 0 a k) * bp (ix3 0 j k)))
              - Spec.distOf (Spec.sqdOf (rt (ix3 0 a 0)) (nt (ix3 0 0 j)) (∑ k : Fin 256, at_ (ix3 0 a k) * bt (ix3 0 j k))))
            * (Spec.distOf (Spec.sqdOf (rp (ix3 0 a 0)) (np (ix3 0 0 j)) (∑ k : Fin 256, ap (ix3 0 a k) * bp (ix3 0 j k)))
              - Spec.distOf (Spec.sqdOf (rt (ix3 0 a 0)) (nt (ix3 0 0 j)) (∑ k : Fin 256, at_ (ix3 0 a k) * bt (ix3 0 j k)))))
    (hv12 : ∀ (c : Dev nD) (f : Fin 3) (i : Fin 4096) (k : Fin 256), W2 (F := Ideal) m ρ c (Proc.devRef .tc main_v12) (ix3 f i k) = pfOf m c f i k)
    (hv13 : ∀ (c : Dev nD) (f : Fin 3) (i : Fin 4096) (k : Fin 256), W2 (F := Ideal) m ρ c (Proc.devRef .tc main_v13) (ix3 f i k) = tfOf m c f i k)
    (hv18 : ∀ (c : Dev nD) (f : Fin 3) (j : Fin 4096), W2 (F := Ideal) m ρ c (Proc.devRef .tc main_v18) (ix3 f (0 : Fin 1) j) = Spec.sqn (pfOf m c f) j)
    (hv19 : ∀ (c : Dev nD) (f : Fin 3) (j : Fin 4096), W2 (F := Ideal) m ρ c (Proc.devRef .tc main_v19) (ix3 f (0 : Fin 1) j) = Spec.sqn (tfOf m c f) j)
    (hv20 : ∀ (c : Dev nD) (f : Fin 3) (i : Fin 4096), W2 (F := Ideal) m ρ c (Proc.devRef .tc main_v20) (ix3 f i (0 : Fin 1)) = Spec.sqn (pfOf m c f) i)
    (hv21 : ∀ (c : Dev nD) (f : Fin 3) (i : Fin 4096), W2 (F := Ideal) m ρ c (Proc.devRef .tc main_v21) (ix3 f i (0 : Fin 1)) = Spec.sqn (tfOf m c f) i)

include hpay hv12 hv13 hv18 hv19 hv20 hv21

/-- What point t writes back is block t of G1. -/
theorem flushed1_eq (c : Dev nD) (t : Fin cfg1.N) :
    (dat1 (V2 m ρ) c).flushed 6 t = ((cfg1.win 6).blk t).view.read (Elt Ideal) (G1 m c) := by
  show (cfg1.win 6).cut (grid1.coords t) ((dat1 (V2 m ρ) c).after 6 t) = _
  rw [after1_6]
  unfold out1_6
  rw [View.canon_unit_zero hz4]
  simp only [View.ld_unit_zero (S := S1x4096x256) hz3', View.ld_unit_zero (S := S1x1x4096) hz3', View.ld_unit_zero (S := S1x128x1) hz3']
  funext j
  refine (hpay _ _ _ _ _ _ _ _ j).trans ?_
  show _ = G1 m c (((cfg1.win 6).blk t).view.emb j)
  rw [emb6 t j]
  show _ = Spec.fblock (pfOf m c (fOf t)) (tfOf m c (fOf t)) (rOf t)
  unfold Spec.fblock Spec.ferr
  refine Finset.sum_congr rfl fun a _ => Finset.sum_congr rfl fun j' _ => ?_
  rw [Spec.dist_eq, Spec.dist_eq]
  unfold Spec.cross
  rw [read4 m ρ c t hv20 a, read5 m ρ c t hv21 a, read2 m ρ c t hv18 j', read3 m ρ c t hv19 j']
  rw [cross_read t (iblk1 (V2 m ρ) c 0 t) (pfOf m c (fOf t)) a j' (read0 m ρ c t hv12),
    cross_read t (iblk1 (V2 m ρ) c 1 t) (tfOf m c (fOf t)) a j' (read1 m ρ c t hv13)]
  rfl

/-- Region 1's output array after the run. -/
theorem final1 (c : Dev nD) : (dat1 (V2 m ρ) c).arrAt 6 cfg1.N = G1 m c :=
  (dat1 (V2 m ρ) c).arrAt_eq_of_cover 6 (G1 m c) (fun t _ => flushed1_eq m ρ hpay hv12 hv13 hv18 hv19 hv20 hv21 c t) cover1

end Flushed

end Cert.KernelIdeal.KV

end
-- ==== Proof.KV.HostLayout.lean ====
/-
  Layout operations of the first host stretch, read at an entry.

  Three [1, 4096, 256] matrices stacked along the leading axis: entry (f, i, k) of the stack is entry (0, i, k) of
  matrix f.  A matrix given a leading unit axis: entry (0, i, k) is entry (i, k).  A [3, 4096] array given a
  middle or a trailing unit axis: entries (f, 0, j) and (f, i, 0) are entries (f, j) and (f, i).  The sum of a
  [3, 4096, 256] array over its last axis, at (f, i): the initial value plus the sum over k of entry (f, i, k).
-/
import proofs.«145363_j34256659153337_2_alg».proof.Proof.Gen.KernelIdeal.Launch
import Idealize.ShloMosaic.PureOps.Ideal
import Idealize.ShloMosaic.PureOps.Ideal.Laws
import Idealize.ShloMosaic.Lib.Pipeline.Value
import Idealize.ShloMosaic.Lib.ValueIdx

noncomputable section

namespace Cert.KernelIdeal.KV

open Cert.KernelIdeal Cert.KernelIdeal.Gen
open Idealize.ShloMosaic Idealize.ShloMosaic.ValueIdx

/-- Entry (f, i, k) of a stack of three matrices is entry (0, i, k) of matrix f. -/
theorem stack3_apply {α : Type} (u0 u1 u2 : S1x4096x256.Idx → α)
    (h : Shape.Concatenates [S1x4096x256, S1x4096x256, S1x4096x256] S3x4096x256 0)
    (f : Fin 3) (i : Fin 4096) (k : Fin 256) :
    concatenate S3x4096x256 0 [⟨S1x4096x256, u0⟩, ⟨S1x4096x256, u1⟩, ⟨S1x4096x256, u2⟩] h (ix3 f i k)
      = (![u0, u1, u2] : Fin 3 → S1x4096x256.Idx → α) f (ix3 (0 : Fin 1) i k) := by
  have off : ∀ b : Fin S1x4096x256.rank, ∀ g : Fin 3, b.cast (rfl : S1x4096x256.rank = S3x4096x256.rank) ≠ (0 : Fin S3x4096x256.rank) →
      ((ix3 (0 : Fin 1) i k : S1x4096x256.Idx) b).val = ((ix3 g i k : S3x4096x256.Idx) (b.cast rfl)).val := by
    intro b g hb
    match b with
    | ⟨0, _⟩ => exact absurd rfl hb
    | ⟨1, _⟩ => rfl
    | ⟨2, _⟩ => rfl
  match f with
  | ⟨0, _⟩ =>
    exact concatenate_apply_piece (0 : Fin S3x4096x256.rank) [⟨S1x4096x256, u0⟩, ⟨S1x4096x256, u1⟩, ⟨S1x4096x256, u2⟩] h _ 0 (by show 0 < 3; omega) S1x4096x256 u0 rfl rfl 0 rfl
      (ix3 (0 : Fin 1) i k) (fun b hb => off b _ hb) rfl
  | ⟨1, _⟩ =>
    exact concatenate_apply_piece (0 : Fin S3x4096x256.rank) [⟨S1x4096x256, u0⟩, ⟨S1x4096x256, u1⟩, ⟨S1x4096x256, u2⟩] h _ 1 (by show 1 < 3; omega) S1x4096x256 u1 rfl rfl 1 rfl
      (ix3 (0 : Fin 1) i k) (fun b hb => off b _ hb) rfl
  | ⟨2, _⟩ =>
    exact concatenate_apply_piece (0 : Fin S3x4096x256.rank) [⟨S1x4096x256, u0⟩, ⟨S1x4096x256, u1⟩, ⟨S1x4096x256, u2⟩] h _ 2 (by show 2 < 3; omega) S1x4096x256 u2 rfl rfl 2 rfl
      (ix3 (0 : Fin 1) i k) (fun b hb => off b _ hb) rfl

/-- A matrix given a leading unit axis, read at (u, i, k): the matrix at (i, k). -/
theorem lead_apply {α : Type} (x : S4096x256.Idx → α)
    (h : S4096x256.BroadcastsInDim S1x4096x256 (![1, 2] : Fin 2 → Fin S1x4096x256.rank))
    (u : Fin 1) (i : Fin 4096) (k : Fin 256) :
    broadcastInDim S1x4096x256 ![1, 2] h x (ix3 u i k) = x (ix2 i k) :=
  broadcastInDim_apply _ h x _ (ix2 i k) (fun a => match a with
    | ⟨0, _⟩ => by show i.val = if (4096 : Nat) = 1 then 0 else i.val; rw [if_neg (by decide)]
    | ⟨1, _⟩ => by show k.val = if (256 : Nat) = 1 then 0 else k.val; rw [if_neg (by decide)])

/-- A [3, 4096] array given a middle unit axis, read at (f, u, j): the array at (f, j). -/
theorem mid_apply {α : Type} (x : S3x4096.Idx → α)
    (h : S3x4096.BroadcastsInDim S3x1x4096 (![0, 2] : Fin 2 → Fin S3x1x4096.rank))
    (f : Fin 3) (u : Fin 1) (j : Fin 4096) :
    broadcastInDim S3x1x4096 ![0, 2] h x (ix3 f u j) = x (ix2 f j) :=
  broadcastInDim_apply _ h x _ (ix2 f j) (fun a => match a with
    | ⟨0, _⟩ => by show f.val = if (3 : Nat) = 1 then 0 else f.val; rw [if_neg (by decide)]
    | ⟨1, _⟩ => by show j.val = if (4096 : Nat) = 1 then 0 else j.val; rw [if_neg (by decide)])

/-- A [3, 4096] array given a trailing unit axis, read at (f, i, u): the array at (f, i). -/
theorem trail_apply {α : Type} (x : S3x4096.Idx → α)
    (h : S3x4096.BroadcastsInDim S3x4096x1 (![0, 1] : Fin 2 → Fin S3x4096x1.rank))
    (f : Fin 3) (i : Fin 4096) (u : Fin 1) :
    broadcastInDim S3x4096x1 ![0, 1] h x (ix3 f i u) = x (ix2 f i) :=
  broadcastInDim_apply _ h x _ (ix2 f i) (fun a => match a with
    | ⟨0, _⟩ => by show f.val = if (3 : Nat) = 1 then 0 else f.val; rw [if_neg (by decide)]
    | ⟨1, _⟩ => by show i.val = if (4096 : Nat) = 1 then 0 else i.val; rw [if_neg (by decide)])

/-- The sum over the last axis, at (f, i): the initial value plus the sum over k of the entries (f, i, k). -/
theorem rowsum_apply (x : FVec Ideal S3x4096x256 .f32) (z : FVec Ideal S_ .f32)
    (h' : S3x4096x256.ReducesTo [2] S3x4096) (hS : 0 < S_.numel) (f : Fin 3) (i : Fin 4096) :
    Host.reduceAdd (F := Ideal) x z h' hS (ix2 f i) = z (Shape.Idx.first hS) + ∑ k : Fin 256, x (ix3 f i k) := by
  simp only [Host.reduceAdd, Ideal.hostReduceAdd_def]
  rw [Ideal.hostReduceAdd_single h' (by decide)]
  refine congrArg (_ + ·) (Finset.sum_congr rfl fun k _ => ?_)
  exact congrArg x (funext fun a => Fin.ext (by match a with | ⟨0, _⟩ => rfl | ⟨1, _⟩ => rfl | ⟨2, _⟩ => rfl))

end Cert.KernelIdeal.KV

end
-- ==== Proof.LibNaryThree.lean ====
/-
  A host line with three operands (a concatenation of three arrays), read after it has run.

  The line's result buffer holds the line's function of the three operands' contents, each read at its own buffer:
  the family of operands indexed by 0, 1, 2 is spelt out as three literal buffers, so that what each of them holds
  after the lines before can go on being rewritten, one buffer at a time.
-/
import Idealize.ShloMosaic.Lib.StableHlo.Run

namespace Idealize.ShloMosaic.StableHlo

variable {τ : Topo} {sig : RefSig} {Val : EltTy → Type} {x a b y : Ref sig .tc}

/-- `nary ![x, a, b] y f` leaves `y` at `f` of the contents of `x`, `a`, `b`, in that order. -/
theorem nary3_result
    (f : ((k : Fin 3) → ((![x, a, b] : Fin 3 → Ref sig .tc) k).ty.Contents Val) → y.ty.Contents Val) (hxs hy)
    (F : Valuation τ sig Val) :
    (nary (τ := τ) ![x, a, b] y f hxs hy).result F (Proc.devRef .tc y)
      = f (Fin.cons (F (Proc.devRef .tc x)) (Fin.cons (F (Proc.devRef .tc a)) (Fin.cons (F (Proc.devRef .tc b)) (fun i => i.elim0)))) := by
  rw [nary_result]; congr 1; funext k; fin_cases k <;> rfl

end Idealize.ShloMosaic.StableHlo
-- ==== Proof.LibNaryThreeSimp.lean ====
/-
  A host line with three operands, read after it has run, in the form a simplifier pass can use.

  The companion statement of `nary3_result`: the same equation with the result buffer's reference kept out of the
  simplifier's index, so that one pass over a long list of host lines rewrites a three-operand line (a concatenation
  of three arrays) like the one- and two-operand lines, and goes on into the three operands.
-/
import Idealize.ShloMosaic.Lib.StableHlo.Run
import proofs.«145363_j34256659153337_2_alg».proof.Proof.LibNaryThree

namespace Idealize.ShloMosaic.StableHlo

variable {τ : Topo} {sig : RefSig} {Val : EltTy → Type} {x a b y : Ref sig .tc}

/-- `nary ![x, a, b] y f` leaves `y` at `f` of the contents of `x`, `a`, `b`, in that order. -/
theorem nary3_result'
    (f : ((k : Fin 3) → ((![x, a, b] : Fin 3 → Ref sig .tc) k).ty.Contents Val) → y.ty.Contents Val) (hxs hy)
    (F : Valuation τ sig Val) :
    (nary (τ := τ) ![x, a, b] y f hxs hy).result F (no_index (Proc.devRef .tc y))
      = f (Fin.cons (F (Proc.devRef .tc x)) (Fin.cons (F (Proc.devRef .tc a)) (Fin.cons (F (Proc.devRef .tc b)) (fun i => i.elim0)))) :=
  nary3_result f hxs hy F

/-- One simplifier pass over a list of host lines that may hold three-operand lines. -/
macro "after_results_simp3" : tactic =>
  `(tactic| (simp (disch := decide) only [after_cons, after_nil,
      nullary_result', unary_result', binary_result', ternary_result', quaternary_result', reshape_result', nary3_result',
      nullary_result_ne', unary_result_ne', binary_result_ne', ternary_result_ne', quaternary_result_ne', reshape_result_ne',
      nary_result_ne']))

end Idealize.ShloMosaic.StableHlo
-- ==== Proof.KV.HostRead.lean ====
/-
  What the first stretch of host operations leaves, read at an entry.

  The three predicted (and the three target) feature matrices are stacked into one [3, 4096, 256] array; its
  change of format is the identity on extended reals, so entry (f, i, k) of the stack handed to the feature kernel
  is entry (i, k) of matrix f.  The row sums of the squares of the stack, started from the word 0, are the squared
  norms of the rows, and they are handed on twice, as a row [3, 1, 4096] and as a column [3, 4096, 1].  The label
  part is the total of the label kernel's output array, divided by 1024 and by the number of label entries.
-/
import proofs.«145363_j34256659153337_2_alg».proof.Proof.KI.Data
import proofs.«145363_j34256659153337_2_alg».proof.Proof.Spec
import proofs.«145363_j34256659153337_2_alg».proof.Proof.Ref.Readers
import proofs.«145363_j34256659153337_2_alg».proof.Proof.KV.Feats
import proofs.«145363_j34256659153337_2_alg».proof.Proof.KV.HostLayout
import proofs.«145363_j34256659153337_2_alg».proof.Proof.LibNaryThreeSimp
import Idealize.ShloMosaic.PureOps.Ideal
import Idealize.ShloMosaic.PureOps.Ideal.Laws
import Idealize.ShloMosaic.Lib.Pipeline.Value
import Idealize.ShloMosaic.Lib.ValueIdx

set_option maxRecDepth 16384

noncomputable section

namespace Cert.KernelIdeal.KV

open Cert.KernelIdeal Cert.KernelIdeal.Gen Cert.KernelIdeal.HF
open Idealize.ShloMosaic Idealize.ShloMosaic.TcCoe Idealize.ShloMosaic.ValueIdx Idealize.ShloMosaic.StableHlo
open Idealize.SL Idealize.SL.Sem
open Cert.RefSide (lab feat)

variable (m : (ℓ : Loc nD τ sig) → Buf (Elt Ideal) ℓ) (ρ : Dev nD → PrngReg)

theorem pfOf_zero (c : Dev nD) : pfOf m c 0 = feat (m ((c : Thread nD τ).loc main_arg2)) := rfl
theorem pfOf_one (c : Dev nD) : pfOf m c 1 = feat (m ((c : Thread nD τ).loc main_arg3)) := rfl
theorem pfOf_two (c : Dev nD) : pfOf m c 2 = feat (m ((c : Thread nD τ).loc main_arg4)) := rfl
theorem tfOf_zero (c : Dev nD) : tfOf m c 0 = feat (m ((c : Thread nD τ).loc main_arg5)) := rfl
theorem tfOf_one (c : Dev nD) : tfOf m c 1 = feat (m ((c : Thread nD τ).loc main_arg6)) := rfl
theorem tfOf_two (c : Dev nD) : tfOf m c 2 = feat (m ((c : Thread nD τ).loc main_arg7)) := rfl

/-! ## The argument arrays are as at launch when the host stretch starts -/

theorem W1_arg2 (c : Dev nD) : W1 (F := Ideal) m ρ c (Proc.devRef .tc main_arg2) = m ((c : Thread nD τ).loc main_arg2) :=
  W1_of_ne m ρ c main_arg2 (by decide)
theorem W1_arg3 (c : Dev nD) : W1 (F := Ideal) m ρ c (Proc.devRef .tc main_arg3) = m ((c : Thread nD τ).loc main_arg3) :=
  W1_of_ne m ρ c main_arg3 (by decide)
theorem W1_arg4 (c : Dev nD) : W1 (F := Ideal) m ρ c (Proc.devRef .tc main_arg4) = m ((c : Thread nD τ).loc main_arg4) :=
  W1_of_ne m ρ c main_arg4 (by decide)
theorem W1_arg5 (c : Dev nD) : W1 (F := Ideal) m ρ c (Proc.devRef .tc main_arg5) = m ((c : Thread nD τ).loc main_arg5) :=
  W1_of_ne m ρ c main_arg5 (by decide)
theorem W1_arg6 (c : Dev nD) : W1 (F := Ideal) m ρ c (Proc.devRef .tc main_arg6) = m ((c : Thread nD τ).loc main_arg6) :=
  W1_of_ne m ρ c main_arg6 (by decide)
theorem W1_arg7 (c : Dev nD) : W1 (F := Ideal) m ρ c (Proc.devRef .tc main_arg7) = m ((c : Thread nD τ).loc main_arg7) :=
  W1_of_ne m ρ c main_arg7 (by decide)

/-! ## The predicted feature matrices -/

/-- The stack of the predicted feature matrices, as a term of the argument arrays. -/
theorem v7_term (c : Dev nD) :
    W2 (F := Ideal) m ρ c (Proc.devRef .tc main_v7)
      = concatenate S3x4096x256 0
        [⟨S1x4096x256, broadcastInDim S1x4096x256 ![1, 2] bcast_S4096x256_S1x4096x256_1_2 (W1 m ρ c (Proc.devRef .tc main_arg2))⟩,
         ⟨S1x4096x256, broadcastInDim S1x4096x256 ![1, 2] bcast_S4096x256_S1x4096x256_1_2 (W1 m ρ c (Proc.devRef .tc main_arg3))⟩,
         ⟨S1x4096x256, broadcastInDim S1x4096x256 ![1, 2] bcast_S4096x256_S1x4096x256_1_2 (W1 m ρ c (Proc.devRef .tc main_arg4))⟩]
        concatenates_S1x4096x256_S1x4096x256_S1x4096x256_S3x4096x256_d0 := by
  show StableHlo.after hostOps1 (W1 (F := Ideal) m ρ c) (Proc.devRef .tc main_v7) = _
  after_results_simp3 <;> rfl

/-- Entry (f, i, k) of the stack is entry (i, k) of predicted matrix f. -/
theorem v7_apply (c : Dev nD) (f : Fin 3) (i : Fin 4096) (k : Fin 256) :
    W2 (F := Ideal) m ρ c (Proc.devRef .tc main_v7) (ix3 f i k) = pfOf m c f i k := by
  rw [v7_term, stack3_apply]
  match f with
  | ⟨0, _⟩ =>
    show broadcastInDim S1x4096x256 ![1, 2] bcast_S4096x256_S1x4096x256_1_2 (W1 m ρ c (Proc.devRef .tc main_arg2)) (ix3 (0 : Fin 1) i k)
      = feat (m ((c : Thread nD τ).loc main_arg2)) i k
    rw [lead_apply, W1_arg2]
    rfl
  | ⟨1, _⟩ =>
    show broadcastInDim S1x4096x256 ![1, 2] bcast_S4096x256_S1x4096x256_1_2 (W1 m ρ c (Proc.devRef .tc main_arg3)) (ix3 (0 : Fin 1) i k)
      = feat (m ((c : Thread nD τ).loc main_arg3)) i k
    rw [lead_apply, W1_arg3]
    rfl
  | ⟨2, _⟩ =>
    show broadcastInDim S1x4096x256 ![1, 2] bcast_S4096x256_S1x4096x256_1_2 (W1 m ρ c (Proc.devRef .tc main_arg4)) (ix3 (0 : Fin 1) i k)
      = feat (m ((c : Thread nD τ).loc main_arg4)) i k
    rw [lead_apply, W1_arg4]
    rfl

/-- The stack handed to the feature kernel: the change of format is the identity on extended reals. -/
theorem v12_apply (c : Dev nD) (f : Fin 3) (i : Fin 4096) (k : Fin 256) :
    W2 (F := Ideal) m ρ c (Proc.devRef .tc main_v12) (ix3 f i k) = pfOf m c f i k := by
  have e : @Eq (FVec Ideal S3x4096x256 .bf16) (W2 (F := Ideal) m ρ c (Proc.devRef .tc main_v12)) (truncf .bf16 ((W2 (F := Ideal) m ρ c (Proc.devRef .tc main_v7)) : FVec Ideal S3x4096x256 .f32) bitsLt_bf16_f32) := by
    show @Eq (FVec Ideal S3x4096x256 .bf16) (StableHlo.after hostOps1 (W1 (F := Ideal) m ρ c) (Proc.devRef .tc main_v12)) (truncf .bf16 ((StableHlo.after hostOps1 (W1 (F := Ideal) m ρ c) (Proc.devRef .tc main_v7)) : FVec Ideal S3x4096x256 .f32) bitsLt_bf16_f32)
    after_results_simp3 <;> rfl
  show @Eq EReal ((W2 (F := Ideal) m ρ c (Proc.devRef .tc main_v12)) (ix3 f i k)) _
  rw [e, truncf_apply]
  exact v7_apply m ρ c f i k

/-- The row sums of the squares of the stack are the squared norms of the rows. -/
theorem v15_apply (c : Dev nD) (f : Fin 3) (i : Fin 4096) :
    W2 (F := Ideal) m ρ c (Proc.devRef .tc main_v15) (ix2 f i) = Cert.Spec.sqn (pfOf m c f) i := by
  have e : @Eq (FVec Ideal S3x4096 .f32) (W2 (F := Ideal) m ρ c (Proc.devRef .tc main_v15)) (Host.reduceAdd (F := Ideal) (mulf ((W2 (F := Ideal) m ρ c (Proc.devRef .tc main_v7)) : FVec Ideal S3x4096x256 .f32) (W2 (F := Ideal) m ρ c (Proc.devRef .tc main_v7)))
          (constant (F := Ideal) S_ .f32 0x00000000#32) reducesTo_S3x4096x256_S3x4096_d2 h_S_) := by
    show @Eq (FVec Ideal S3x4096 .f32) (StableHlo.after hostOps1 (W1 (F := Ideal) m ρ c) (Proc.devRef .tc main_v15)) (Host.reduceAdd (F := Ideal) (mulf ((StableHlo.after hostOps1 (W1 (F := Ideal) m ρ c) (Proc.devRef .tc main_v7)) : FVec Ideal S3x4096x256 .f32) (StableHlo.after hostOps1 (W1 (F := Ideal) m ρ c) (Proc.devRef .tc main_v7)))
          (constant (F := Ideal) S_ .f32 0x00000000#32) reducesTo_S3x4096x256_S3x4096_d2 h_S_)
    after_results_simp3 <;> rfl
  show @Eq EReal ((W2 (F := Ideal) m ρ c (Proc.devRef .tc main_v15)) (ix2 f i)) _
  rw [e, rowsum_apply, constant_apply, Ideal.ofBits_zero_f32, zero_add]
  unfold Cert.Spec.sqn
  refine Finset.sum_congr rfl fun k _ => ?_
  rw [mulf_apply]
  exact congrArg₂ (· * ·) (v7_apply m ρ c f i k) (v7_apply m ρ c f i k)

/-- The squared norms as a row. -/
theorem v18_apply (c : Dev nD) (f : Fin 3) (j : Fin 4096) :
    W2 (F := Ideal) m ρ c (Proc.devRef .tc main_v18) (ix3 f (0 : Fin 1) j) = Cert.Spec.sqn (pfOf m c f) j := by
  have e : @Eq (FVec Ideal S3x1x4096 .f32) (W2 (F := Ideal) m ρ c (Proc.devRef .tc main_v18)) (broadcastInDim S3x1x4096 ![0, 2] bcast_S3x4096_S3x1x4096_0_2 ((W2 (F := Ideal) m ρ c (Proc.devRef .tc main_v15)) : FVec Ideal S3x4096 .f32)) := by
    show @Eq (FVec Ideal S3x1x4096 .f32) (StableHlo.after hostOps1 (W1 (F := Ideal) m ρ c) (Proc.devRef .tc main_v18)) (broadcastInDim S3x1x4096 ![0, 2] bcast_S3x4096_S3x1x4096_0_2 ((StableHlo.after hostOps1 (W1 (F := Ideal) m ρ c) (Proc.devRef .tc main_v15)) : FVec Ideal S3x4096 .f32))
    after_results_simp3 <;> rfl
  show @Eq EReal ((W2 (F := Ideal) m ρ c (Proc.devRef .tc main_v18)) (ix3 f (0 : Fin 1) j)) _
  rw [e, mid_apply]
  exact v15_apply m ρ c f j

/-- The squared norms as a column. -/
theorem v20_apply (c : Dev nD) (f : Fin 3) (i : Fin 4096) :
    W2 (F := Ideal) m ρ c (Proc.devRef .tc main_v20) (ix3 f i (0 : Fin 1)) = Cert.Spec.sqn (pfOf m c f) i := by
  have e : @Eq (FVec Ideal S3x4096x1 .f32) (W2 (F := Ideal) m ρ c (Proc.devRef .tc main_v20)) (broadcastInDim S3x4096x1 ![0, 1] bcast_S3x4096_S3x4096x1_0_1 ((W2 (F := Ideal) m ρ c (Proc.devRef .tc main_v15)) : FVec Ideal S3x4096 .f32)) := by
    show @Eq (FVec Ideal S3x4096x1 .f32) (StableHlo.after hostOps1 (W1 (F := Ideal) m ρ c) (Proc.devRef .tc main_v20)) (broadcastInDim S3x4096x1 ![0, 1] bcast_S3x4096_S3x4096x1_0_1 ((StableHlo.after hostOps1 (W1 (F := Ideal) m ρ c) (Proc.devRef .tc main_v15)) : FVec Ideal S3x4096 .f32))
    after_results_simp3 <;> rfl
  show @Eq EReal ((W2 (F := Ideal) m ρ c (Proc.devRef .tc main_v20)) (ix3 f i (0 : Fin 1))) _
  rw [e, trail_apply]
  exact v15_apply m ρ c f i

/-! ## The target feature matrices -/

/-- The stack of the target feature matrices, as a term of the argument arrays. -/
theorem v11_term (c : Dev nD) :
    W2 (F := Ideal) m ρ c (Proc.devRef .tc main_v11)
      = concatenate S3x4096x256 0
        [⟨S1x4096x256, broadcastInDim S1x4096x256 ![1, 2] bcast_S4096x256_S1x4096x256_1_2 (W1 m ρ c (Proc.devRef .tc main_arg5))⟩,
         ⟨S1x4096x256, broadcastInDim S1x4096x256 ![1, 2] bcast_S4096x256_S1x4096x256_1_2 (W1 m ρ c (Proc.devRef .tc main_arg6))⟩,
         ⟨S1x4096x256, broadcastInDim S1x4096x256 ![1, 2] bcast_S4096x256_S1x4096x256_1_2 (W1 m ρ c (Proc.devRef .tc main_arg7))⟩]
        concatenates_S1x4096x256_S1x4096x256_S1x4096x256_S3x4096x256_d0 := by
  show StableHlo.after hostOps1 (W1 (F := Ideal) m ρ c) (Proc.devRef .tc main_v11) = _
  after_results_simp3 <;> rfl

/-- Entry (f, i, k) of the stack is entry (i, k) of target matrix f. -/
theorem v11_apply (c : Dev nD) (f : Fin 3) (i : Fin 4096) (k : Fin 256) :
    W2 (F := Ideal) m ρ c (Proc.devRef .tc main_v11) (ix3 f i k) = tfOf m c f i k := by
  rw [v11_term, stack3_apply]
  match f with
  | ⟨0, _⟩ =>
    show broadcastInDim S1x4096x256 ![1, 2] bcast_S4096x256_S1x4096x256_1_2 (W1 m ρ c (Proc.devRef .tc main_arg5)) (ix3 (0 : Fin 1) i k)
      = feat (m ((c : Thread nD τ).loc main_arg5)) i k
    rw [lead_apply, W1_arg5]
    rfl
  | ⟨1, _⟩ =>
    show broadcastInDim S1x4096x256 ![1, 2] bcast_S4096x256_S1x4096x256_1_2 (W1 m ρ c (Proc.devRef .tc main_arg6)) (ix3 (0 : Fin 1) i k)
      = feat (m ((c : Thread nD τ).loc main_arg6)) i k
    rw [lead_apply, W1_arg6]
    rfl
  | ⟨2, _⟩ =>
    show broadcastInDim S1x4096x256 ![1, 2] bcast_S4096x256_S1x4096x256_1_2 (W1 m ρ c (Proc.devRef .tc main_arg7)) (ix3 (0 : Fin 1) i k)
      = feat (m ((c : Thread nD τ).loc main_arg7)) i k
    rw [lead_apply, W1_arg7]
    rfl

/-- The stack handed to the feature kernel: the change of format is the identity on extended reals. -/
theorem v13_apply (c : Dev nD) (f : Fin 3) (i : Fin 4096) (k : Fin 256) :
    W2 (F := Ideal) m ρ c (Proc.devRef .tc main_v13) (ix3 f i k) = tfOf m c f i k := by
  have e : @Eq (FVec Ideal S3x4096x256 .bf16) (W2 (F := Ideal) m ρ c (Proc.devRef .tc main_v13)) (truncf .bf16 ((W2 (F := Ideal) m ρ c (Proc.devRef .tc main_v11)) : FVec Ideal S3x4096x256 .f32) bitsLt_bf16_f32) := by
    show @Eq (FVec Ideal S3x4096x256 .bf16) (StableHlo.after hostOps1 (W1 (F := Ideal) m ρ c) (Proc.devRef .tc main_v13)) (truncf .bf16 ((StableHlo.after hostOps1 (W1 (F := Ideal) m ρ c) (Proc.devRef .tc main_v11)) : FVec Ideal S3x4096x256 .f32) bitsLt_bf16_f32)
    after_results_simp3 <;> rfl
  show @Eq EReal ((W2 (F := Ideal) m ρ c (Proc.devRef .tc main_v13)) (ix3 f i k)) _
  rw [e, truncf_apply]
  exact v11_apply m ρ c f i k

/-- The row sums of the squares of the stack are the squared norms of the rows. -/
theorem v17_apply (c : Dev nD) (f : Fin 3) (i : Fin 4096) :
    W2 (F := Ideal) m ρ c (Proc.devRef .tc main_v17) (ix2 f i) = Cert.Spec.sqn (tfOf m c f) i := by
  have e : @Eq (FVec Ideal S3x4096 .f32) (W2 (F := Ideal) m ρ c (Proc.devRef .tc main_v17)) (Host.reduceAdd (F := Ideal) (mulf ((W2 (F := Ideal) m ρ c (Proc.devRef .tc main_v11)) : FVec Ideal S3x4096x256 .f32) (W2 (F := Ideal) m ρ c (Proc.devRef .tc main_v11)))
          (constant (F := Ideal) S_ .f32 0x00000000#32) reducesTo_S3x4096x256_S3x4096_d2 h_S_) := by
    show @Eq (FVec Ideal S3x4096 .f32) (StableHlo.after hostOps1 (W1 (F := Ideal) m ρ c) (Proc.devRef .tc main_v17)) (Host.reduceAdd (F := Ideal) (mulf ((StableHlo.after hostOps1 (W1 (F := Ideal) m ρ c) (Proc.devRef .tc main_v11)) : FVec Ideal S3x4096x256 .f32) (StableHlo.after hostOps1 (W1 (F := Ideal) m ρ c) (Proc.devRef .tc main_v11)))
          (constant (F := Ideal) S_ .f32 0x00000000#32) reducesTo_S3x4096x256_S3x4096_d2 h_S_)
    after_results_simp3 <;> rfl
  show @Eq EReal ((W2 (F := Ideal) m ρ c (Proc.devRef .tc main_v17)) (ix2 f i)) _
  rw [e, rowsum_apply, constant_apply, Ideal.ofBits_zero_f32, zero_add]
  unfold Cert.Spec.sqn
  refine Finset.sum_congr rfl fun k _ => ?_
  rw [mulf_apply]
  exact congrArg₂ (· * ·) (v11_apply m ρ c f i k) (v11_apply m ρ c f i k)

/-- The squared norms as a row. -/
theorem v19_apply (c : Dev nD) (f : Fin 3) (j : Fin 4096) :
    W2 (F := Ideal) m ρ c (Proc.devRef .tc main_v19) (ix3 f (0 : Fin 1) j) = Cert.Spec.sqn (tfOf m c f) j := by
  have e : @Eq (FVec Ideal S3x1x4096 .f32) (W2 (F := Ideal) m ρ c (Proc.devRef .tc main_v19)) (broadcastInDim S3x1x4096 ![0, 2] bcast_S3x4096_S3x1x4096_0_2 ((W2 (F := Ideal) m ρ c (Proc.devRef .tc main_v17)) : FVec Ideal S3x4096 .f32)) := by
    show @Eq (FVec Ideal S3x1x4096 .f32) (StableHlo.after hostOps1 (W1 (F := Ideal) m ρ c) (Proc.devRef .tc main_v19)) (broadcastInDim S3x1x4096 ![0, 2] bcast_S3x4096_S3x1x4096_0_2 ((StableHlo.after hostOps1 (W1 (F := Ideal) m ρ c) (Proc.devRef .tc main_v17)) : FVec Ideal S3x4096 .f32))
    after_results_simp3 <;> rfl
  show @Eq EReal ((W2 (F := Ideal) m ρ c (Proc.devRef .tc main_v19)) (ix3 f (0 : Fin 1) j)) _
  rw [e, mid_apply]
  exact v17_apply m ρ c f j

/-- The squared norms as a column. -/
theorem v21_apply (c : Dev nD) (f : Fin 3) (i : Fin 4096) :
    W2 (F := Ideal) m ρ c (Proc.devRef .tc main_v21) (ix3 f i (0 : Fin 1)) = Cert.Spec.sqn (tfOf m c f) i := by
  have e : @Eq (FVec Ideal S3x4096x1 .f32) (W2 (F := Ideal) m ρ c (Proc.devRef .tc main_v21)) (broadcastInDim S3x4096x1 ![0, 1] bcast_S3x4096_S3x4096x1_0_1 ((W2 (F := Ideal) m ρ c (Proc.devRef .tc main_v17)) : FVec Ideal S3x4096 .f32)) := by
    show @Eq (FVec Ideal S3x4096x1 .f32) (StableHlo.after hostOps1 (W1 (F := Ideal) m ρ c) (Proc.devRef .tc main_v21)) (broadcastInDim S3x4096x1 ![0, 1] bcast_S3x4096_S3x4096x1_0_1 ((StableHlo.after hostOps1 (W1 (F := Ideal) m ρ c) (Proc.devRef .tc main_v17)) : FVec Ideal S3x4096 .f32))
    after_results_simp3 <;> rfl
  show @Eq EReal ((W2 (F := Ideal) m ρ c (Proc.devRef .tc main_v21)) (ix3 f i (0 : Fin 1))) _
  rw [e, trail_apply]
  exact v17_apply m ρ c f i

/-! ## The label part -/

/-- The label part: the total of the label kernel's output array, divided by 1024 and by the number of label
    entries; the total's initial word is 0. -/
theorem v3_eq (c : Dev nD) :
    W2 (F := Ideal) m ρ c (Proc.devRef .tc main_v3)
      = fun _ => Ideal.div (Ideal.div (∑ idx : S8x8x128.Idx, W1 m ρ c (Proc.devRef .tc main_v0) idx) Cert.Spec.c1024) Cert.Spec.cNC := by
  have e : W2 (F := Ideal) m ρ c (Proc.devRef .tc main_v3)
      = Host.divf (Host.divf (Host.reduceAdd (F := Ideal) (W1 (F := Ideal) m ρ c (Proc.devRef .tc main_v0))
            (constant (F := Ideal) S_ .f32 0x00000000#32) reducesTo_S8x8x128_S_d0_1_2 h_S_)
          (constant (F := Ideal) S_ .f32 0x44800000#32)) (constant (F := Ideal) S_ .f32 0x4A7A0000#32) := by
    show StableHlo.after hostOps1 (W1 (F := Ideal) m ρ c) (Proc.devRef .tc main_v3) = _
    after_results_simp3 <;> rfl
  have hsum : ∀ (y : FVec Ideal S8x8x128 .f32) (j : S_.Idx),
      Host.reduceAdd (F := Ideal) y (constant (F := Ideal) S_ .f32 0x00000000#32) reducesTo_S8x8x128_S_d0_1_2 h_S_ j
        = ∑ idx : S8x8x128.Idx, y idx := by
    intro y j
    simp only [Host.reduceAdd, Ideal.hostReduceAdd_def]
    rw [Ideal.hostReduceAdd_total reducesTo_S8x8x128_S_d0_1_2 (fun b => b.elim0) y _ j, constant_apply,
      Ideal.ofBits_zero_f32, zero_add]
  rw [e]
  funext j
  show Ideal.div (Ideal.div (Host.reduceAdd (F := Ideal) (W1 (F := Ideal) m ρ c (Proc.devRef .tc main_v0))
      (constant (F := Ideal) S_ .f32 0x00000000#32) reducesTo_S8x8x128_S_d0_1_2 h_S_ j) _) _ = _
  rw [hsum]
  rfl

end Cert.KernelIdeal.KV

end
-- ==== Proof.LibRank3Sums.lean ====
/-
  Two general facts about rank-3 arrays at the exact extended reals.

  * An add-reduction over the LAST axis of an [a, b, c] array, from the zero word, read at (n, l), is the plain sum
    over d of the array at (n, l, d).
  * A sum over the index set of an [n0, n1, n2] array is the triple sum over its three coordinates.
-/
import Idealize.ShloMosaic.Lib.ValueIdx
import Idealize.ShloMosaic.PureOps.Ideal.Laws

noncomputable section

namespace Cert.LibRank3Sums

open Idealize.ShloMosaic Idealize.ShloMosaic.ValueIdx

/-- At the exact extended reals an add-reduction over the last axis of a rank-3 array, from the zero word, is the plain
    sum over that axis: at (n, l) it is the sum over d of the array at (n, l, d). -/
theorem lane3 {a b c : Nat} (v : FVec Ideal ⟨3, ![a, b, c]⟩ .f32) (h : (⟨3, ![a, b, c]⟩ : Shape).Reduces [2] ⟨2, ![a, b]⟩)
    (hφ : FKind.Formats .f32) (hacc : (0x00000000#32 : BitVec 32) = 0x00000000#32) (n : Fin a) (l : Fin b) :
    multiReduction .add [2] ⟨2, ![a, b]⟩ v 0x00000000#32 h hφ hacc (ix2 n l) = ∑ d : Fin c, v (ix3 n l d) :=
  (Ideal.multiReduction_add_single v 0x00000000#32 h hφ hacc (ix2 n l)).trans
    (Finset.sum_congr rfl fun d _ => congrArg v (funext fun ax => Fin.ext (by
      match ax with
      | ⟨0, _⟩ => rfl
      | ⟨1, _⟩ => rfl
      | ⟨2, _⟩ => rfl)))

/-- A rank-3 index set is the product of its three coordinate ranges … -/
def idxEquiv3 {n0 n1 n2 : Nat} : (⟨3, ![n0, n1, n2]⟩ : Shape).Idx ≃ Fin n0 × Fin n1 × Fin n2 where
  toFun i := (i 0, i 1, i 2)
  invFun p := ix3 p.1 p.2.1 p.2.2
  left_inv i := (eq_ix3 i).symm
  right_inv _ := rfl

/-- … so a sum over it is the triple sum over the coordinates. -/
theorem sum_idx3 {M : Type*} [AddCommMonoid M] {n0 n1 n2 : Nat} (f : (⟨3, ![n0, n1, n2]⟩ : Shape).Idx → M) :
    ∑ i, f i = ∑ a : Fin n0, ∑ b : Fin n1, ∑ c : Fin n2, f (ix3 a b c) := by
  rw [← Equiv.sum_comp (idxEquiv3 (n0 := n0) (n1 := n1) (n2 := n2)).symm f, Fintype.sum_prod_type]
  refine Finset.sum_congr rfl fun a _ => ?_
  rw [Fintype.sum_prod_type]
  rfl

end Cert.LibRank3Sums

end
-- ==== Proof.KV.Tail.lean ====
/-
  The last stretch of host operations of the kernel program, at the exact extended reals.

  The eleven operations add up all entries of region 1's [3, 32, 8, 128] output array from a zero word, divide the
  total by 1024 and then by 3 · 4096², multiply it by the feature weight, multiply the label part (computed by the
  first stretch: the total of region 0's [8, 8, 128] array divided by 1024 and by the element count) by the label
  weight, and add the two.  With entry (b, u, v) of region 0's array the label block sum of block b and entry
  (f, r, u, v) of region 1's array the block sum of feature pair f at block r, the sums over the two index sets are
  the iterated sums over the coordinates, and the result is the specification's kernel-side value as written.
-/
import proofs.«145363_j34256659153337_2_alg».proof.Proof.KV.Glue0
import proofs.«145363_j34256659153337_2_alg».proof.Proof.KV.Targets
import proofs.«145363_j34256659153337_2_alg».proof.Proof.LibRank3Sums
import Idealize.ShloMosaic.Lib.StableHlo.Run
import Idealize.ShloMosaic.Lib.ValueIdx
import Idealize.ShloMosaic.PureOps.Ideal.Laws

set_option maxRecDepth 16384

noncomputable section

namespace Cert.KernelIdeal.KV

open Cert.KernelIdeal Cert.KernelIdeal.Gen Cert.KernelIdeal.HF
open Idealize.ShloMosaic Idealize.ShloMosaic.TcCoe Idealize.ShloMosaic.ValueIdx
open Idealize.SL Idealize.SL.Sem

variable (m : (ℓ : Loc nD τ sig) → Buf (Elt Ideal) ℓ) (ρ : Dev nD → PrngReg) (c : Dev nD)

/-- A rank-4 index set is the product of its four coordinate ranges … -/
def tailIdxEquiv4 {n0 n1 n2 n3 : Nat} : (⟨4, ![n0, n1, n2, n3]⟩ : Shape).Idx ≃ Fin n0 × Fin n1 × Fin n2 × Fin n3 where
  toFun i := (i 0, i 1, i 2, i 3)
  invFun p := ix4 p.1 p.2.1 p.2.2.1 p.2.2.2
  left_inv i := (eq_ix4 i).symm
  right_inv _ := rfl

/-- … so a sum over it is the four-fold sum over the coordinates. -/
theorem tail_sum_idx4 {M : Type*} [AddCommMonoid M] {n0 n1 n2 n3 : Nat} (f : (⟨4, ![n0, n1, n2, n3]⟩ : Shape).Idx → M) :
    ∑ i, f i = ∑ a : Fin n0, ∑ b : Fin n1, ∑ c : Fin n2, ∑ d : Fin n3, f (ix4 a b c d) := by
  rw [← Equiv.sum_comp (tailIdxEquiv4 (n0 := n0) (n1 := n1) (n2 := n2) (n3 := n3)).symm f, Fintype.sum_prod_type]
  refine Finset.sum_congr rfl fun a _ => ?_
  rw [Fintype.sum_prod_type]
  refine Finset.sum_congr rfl fun b _ => ?_
  rw [Fintype.sum_prod_type]
  rfl

/-- The host's quotient of two arrays at an index is the quotient of the entries. -/
theorem tail_hostDivf_apply {s : Shape} {φ : FTy} (a b : FVec Ideal s φ) (i : s.Idx) :
    Host.divf a b i = Ideal.div (a i) (b i) := rfl

/-- The host's sum of the whole [3, 32, 8, 128] array: the initial value plus the sum of all entries. -/
theorem tail_hostSum4_apply (x : FVec Ideal S3x32x8x128 .f32) (init : FVec Ideal S_ .f32) (i : S_.Idx) :
    Host.reduceAdd x init reducesTo_S3x32x8x128_S_d0_1_2_3 h_S_ i = init (Shape.Idx.first h_S_) + ∑ j : S3x32x8x128.Idx, x j := by
  simp only [Host.reduceAdd, Ideal.hostReduceAdd_def]
  exact Ideal.hostReduceAdd_total reducesTo_S3x32x8x128_S_d0_1_2_3 (fun b => b.elim0) x _ i

/-- Entry (b, u, v) of region 0's output array is block b's sum. -/
theorem G0_ix3 (b : Fin 8) (u : Fin 8) (v : Fin 128) :
    G0 m c (ix3 b u v) = Spec.lblock (predOf m c) (targetOf m c) b := rfl

/-- Entry (f, r, u, v) of region 1's output array is block r's sum of feature pair f. -/
theorem G1_ix4 (f : Fin 3) (r : Fin 32) (u : Fin 8) (v : Fin 128) :
    G1 m c (ix4 f r u v) = Spec.fblock (pfOf m c f) (tfOf m c f) r := rfl

/-- The last stretch of host operations: the result buffer ends holding the specification's kernel-side value. -/
theorem tail_eq
    (h0 : W1 (F := Ideal) m ρ c (Proc.devRef .tc main_v0) = G0 m c)
    (h3 : W2 (F := Ideal) m ρ c (Proc.devRef .tc main_v3) = fun _ => Ideal.div (Ideal.div (∑ idx : S8x8x128.Idx, W1 m ρ c (Proc.devRef .tc main_v0) idx) Cert.Spec.c1024) Cert.Spec.cNC)
    (h22 : (dat1 (V2 m ρ) c).arrAt 6 cfg1.N = G1 m c) :
    W4 (F := Ideal) m ρ c (Proc.devRef .tc main_v28) = fun _ => Cert.Spec.kerResult (predOf m c) (targetOf m c) (pfOf m c) (tfOf m c) := by
  have e22 : W3 (F := Ideal) m ρ c (Proc.devRef .tc main_v22) = G1 m c := (W3_arr m ρ c 6).trans h22
  have e3 : W3 (F := Ideal) m ρ c (Proc.devRef .tc main_v3) = fun _ => Ideal.div (Ideal.div (∑ idx : S8x8x128.Idx, G0 m c idx) Cert.Spec.c1024) Cert.Spec.cNC := by
    rw [W3_of_ne m ρ c main_v3 (by decide), h3, h0]
  show StableHlo.after hostOps2 (W3 m ρ c) (Proc.devRef .tc main_v28) = _
  generalize W3 (F := Ideal) m ρ c = V at e22 e3 ⊢
  after_results
  rw [e22, e3]
  funext i
  rw [addf_apply, mulf_apply, mulf_apply, tail_hostDivf_apply, tail_hostDivf_apply, tail_hostSum4_apply, constant_apply, constant_apply,
    constant_apply, constant_apply, constant_apply, Ideal.ofBits_zero_f32, zero_add, Cert.LibRank3Sums.sum_idx3, tail_sum_idx4]
  simp only [G0_ix3, G1_ix4]
  unfold Cert.Spec.kerResult Cert.Spec.c02 Cert.Spec.c08 Cert.Spec.c1024 Cert.Spec.cNN3
  rfl

end Cert.KernelIdeal.KV

end
-- ==== Proof.LibLaneSum.lean ====
/-
  The sum along the rows of a matrix, read at a row.

  Summing an [a, b] matrix over its second axis leaves a vector of length a whose entry i is the sum of the b entries
  of row i. The general statement names the summed entries through the index "entry i with coordinate k inserted on the
  summed axis"; for a matrix that index is simply (i, k).
-/
import Idealize.ShloMosaic.PureOps.Ideal.Laws
import Idealize.ShloMosaic.Lib.ValueIdx

open scoped BigOperators

namespace Idealize.ShloMosaic.ValueIdx

open Idealize.ShloMosaic

/-- Inserting coordinate `k` on axis 1 over the row index `i` gives the matrix index `(i, k)`. -/
theorem reduces_rows_lift {a b : ℕ} (h : (⟨2, ![a, b]⟩ : Shape).Reduces [1] ⟨1, ![a]⟩) (i : Fin a) (k : Fin b) :
    h.lift (ix1 i) k = ix2 i k := by
  funext ax; apply Fin.ext
  show h.liftVal (ix1 i) k.val ax = (ix2 i k ax).val
  unfold Shape.Reduces.liftVal
  match ax with
  | ⟨0, _⟩ => rfl
  | ⟨1, _⟩ => rfl

/-- The sum of an `[a, b]` matrix over axis 1, at the exact extended reals, read at row `i`: the sum of that row. -/
theorem multiReduction_add_rows_apply {a b : ℕ} {φ : FTy} (src : FVec Ideal ⟨2, ![a, b]⟩ φ) (acc : BitVec φ.bits)
    (h : (⟨2, ![a, b]⟩ : Shape).Reduces [1] ⟨1, ![a]⟩) (hφ : FKind.Formats φ) (hacc : acc = FKind.add.neutral φ hφ) (i : Fin a) :
    multiReduction .add [1] ⟨1, ![a]⟩ src acc h hφ hacc (ix1 i) = ∑ c : Fin b, src (ix2 i c) := by
  refine (Ideal.multiReduction_add_single src acc h hφ hacc (ix1 i)).trans ?_
  exact Finset.sum_congr rfl fun c _ => congrArg src (reduces_rows_lift h i c)

end Idealize.ShloMosaic.ValueIdx
-- ==== Proof.LibColumnSum.lean ====
/-
  The sum down the columns of a matrix, read at a column.

  Summing an [a, b] matrix over its FIRST axis leaves a vector of length b whose entry j is the sum of the a entries of
  column j. The general statement names the summed entries through the index "entry j with coordinate k inserted on the
  summed axis"; for a matrix and axis 0 that index is (k, j). (The companion for the second axis is the row sum.)
-/
import Idealize.ShloMosaic.PureOps.Ideal.Laws
import Idealize.ShloMosaic.Lib.ValueIdx

open scoped BigOperators

namespace Idealize.ShloMosaic.ValueIdx

open Idealize.ShloMosaic

/-- Inserting coordinate `k` on axis 0 over the column index `j` gives the matrix index `(k, j)`. -/
theorem reduces_cols_lift {a b : ℕ} (h : (⟨2, ![a, b]⟩ : Shape).Reduces [0] ⟨1, ![b]⟩) (j : Fin b) (k : Fin a) :
    h.lift (ix1 j) k = ix2 k j := by
  funext ax; apply Fin.ext
  show h.liftVal (ix1 j) k.val ax = (ix2 k j ax).val
  unfold Shape.Reduces.liftVal
  match ax with
  | ⟨0, _⟩ => rfl
  | ⟨1, _⟩ => rfl

/-- The sum of an `[a, b]` matrix over axis 0, at the exact extended reals, read at column `j`: the sum of that column. -/
theorem multiReduction_add_cols_apply {a b : ℕ} {φ : FTy} (src : FVec Ideal ⟨2, ![a, b]⟩ φ) (acc : BitVec φ.bits)
    (h : (⟨2, ![a, b]⟩ : Shape).Reduces [0] ⟨1, ![b]⟩) (hφ : FKind.Formats φ) (hacc : acc = FKind.add.neutral φ hφ) (j : Fin b) :
    multiReduction .add [0] ⟨1, ![b]⟩ src acc h hφ hacc (ix1 j) = ∑ k : Fin a, src (ix2 k j) := by
  refine (Ideal.multiReduction_add_single src acc h hφ hacc (ix1 j)).trans ?_
  exact Finset.sum_congr rfl fun k _ => congrArg src (reduces_cols_lift h j k)

end Idealize.ShloMosaic.ValueIdx
-- ==== Proof.LibColumnCast.lean ====
/-
  A vector cast to a one-column matrix, read at an entry.

  The row-major position of entry (i, 0) of an [a, 1] matrix is i · 1 + 0 = i, the position of entry i of the
  [a] vector it was cast from; so the cast reads the vector's entry i there. (The companion forms for a leading
  unit axis, [a] → [1, a] and back, are the library's `shapeCast_a_1a_apply` and `shapeCast_1a_a_apply`.)
-/
import Idealize.ShloMosaic.Lib.ValueLayout

namespace Idealize.ShloMosaic.ValueIdx

open Idealize.ShloMosaic

variable {α : Type}

/-- An `[a]` array cast to `[a, 1]` reads, at `(i, u)`, the operand at `i`, whatever the unit coordinate `u`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A `[a, 1]` array cast to `[a]` reads, at `i`, the operand at `(i, 0)`. -/
theorem shapeCast_a1_a_apply {a : ℕ} (x : (⟨2, ![a, 1]⟩ : Shape).Idx → α) (h : (⟨2, ![a, 1]⟩ : Shape).ShapeCasts ⟨1, ![a]⟩)
    (i : Fin a) : shapeCast ⟨1, ![a]⟩ x h (ix1 i) = x (ix2 i (0 : Fin 1)) :=
  shapeCast_apply x h _ _ (by
    rw [Shape.rowMajor_val_two, Shape.rowMajor_val_one]
    show i.val * 1 + 0 = i.val
    rw [Nat.mul_one, Nat.add_zero])

end Idealize.ShloMosaic.ValueIdx
-- ==== Proof.KV.BlockTotal.lean ====
/-
  The total of a matrix, spread over a tile.

  A kernel body that wants the sum of all entries of an [a, b] matrix in every entry of an [8, 128] tile does it in
  six steps: sum each row (a vector of a row sums), view that vector as a column [a, 1], sum the column (one number,
  as a vector of length 1), view it as a [1, 1] matrix (twice), and repeat that single entry over the tile. Read at any
  entry (i, j) of the tile, the result is the double sum of the matrix over its rows and columns.
-/
import Idealize.ShloMosaic.Lib.ValueIdx
import Idealize.ShloMosaic.Lib.ValueLayout
import Idealize.ShloMosaic.Lib.Pipeline.Value
import Idealize.ShloMosaic.PureOps.Ideal.Laws
import proofs.«145363_j34256659153337_2_alg».proof.Proof.LibLaneSum
import proofs.«145363_j34256659153337_2_alg».proof.Proof.LibColumnSum
import proofs.«145363_j34256659153337_2_alg».proof.Proof.LibColumnCast

open scoped BigOperators

namespace Cert.KernelIdeal.KV

open Idealize.ShloMosaic Idealize.ShloMosaic.ValueIdx

/-- A [1, 1] matrix repeated over an [m, n] tile reads its single entry everywhere. -/
theorem broadcastTo_11_ab_apply {α : Type} {m n : ℕ} (v : (⟨2, ![1, 1]⟩ : Shape).Idx → α)
    (h : (⟨2, ![1, 1]⟩ : Shape).Broadcasts ⟨2, ![m, n]⟩) (i : Fin m) (j : Fin n) :
    broadcastTo ⟨2, ![m, n]⟩ v h (ix2 i j) = v (ix2 (0 : Fin 1) (0 : Fin 1)) := by
  refine broadcastTo_apply v h (ix2 i j) (ix2 (0 : Fin 1) (0 : Fin 1)) fun ax => ?_
  match ax with
  | ⟨0, _⟩ => rfl
  | ⟨1, _⟩ => rfl

/-- Row sums, then the sum of the column of row sums, repeated over a tile: every entry is the matrix's total. -/
theorem tile_total_apply {a b m n : ℕ} (src : FVec Ideal ⟨2, ![a, b]⟩ .f32)
    (hr : (⟨2, ![a, b]⟩ : Shape).Reduces [1] ⟨1, ![a]⟩)
    (hc : (⟨1, ![a]⟩ : Shape).ShapeCasts ⟨2, ![a, 1]⟩)
    (hr' : (⟨2, ![a, 1]⟩ : Shape).Reduces [0] ⟨1, ![1]⟩)
    (hc1 : (⟨1, ![1]⟩ : Shape).ShapeCasts ⟨2, ![1, 1]⟩)
    (hc2 : (⟨2, ![1, 1]⟩ : Shape).ShapeCasts ⟨2, ![1, 1]⟩)
    (hb : (⟨2, ![1, 1]⟩ : Shape).Broadcasts ⟨2, ![m, n]⟩)
    (hφ hφ' : FKind.Formats .f32)
    (hacc : (0x00000000#32 : BitVec FTy.f32.bits) = FKind.add.neutral .f32 hφ)
    (hacc' : (0x00000000#32 : BitVec FTy.f32.bits) = FKind.add.neutral .f32 hφ')
    (i : Fin m) (j : Fin n) :
    broadcastTo ⟨2, ![m, n]⟩
        (shapeCast ⟨2, ![1, 1]⟩
          (shapeCast ⟨2, ![1, 1]⟩
            (multiReduction .add [0] ⟨1, ![1]⟩
              (shapeCast ⟨2, ![a, 1]⟩ (multiReduction .add [1] ⟨1, ![a]⟩ src 0x00000000#32 hr hφ hacc) hc)
              0x00000000#32 hr' hφ' hacc') hc1) hc2) hb (ix2 i j)
      = ∑ p : Fin a, ∑ c : Fin b, src (ix2 p c) := by
  refine (broadcastTo_11_ab_apply _ hb i j).trans ?_
  rw [shapeCast_self]
  refine (shapeCast_a_1a_apply _ hc1 (0 : Fin 1) (0 : Fin 1)).trans ?_
  refine (multiReduction_add_cols_apply _ _ hr' hφ' hacc' (0 : Fin 1)).trans ?_
  refine Finset.sum_congr rfl fun p _ => ?_
  refine (shapeCast_a_a1_apply _ hc p (0 : Fin 1)).trans ?_
  exact multiReduction_add_rows_apply src _ hr hφ hacc p

end Cert.KernelIdeal.KV
-- ==== Proof.KV.LabelPay.lean ====
/-
  The label body's payload read at an entry.

  The body subtracts the target block from the prediction block, squares the difference entry by entry, and spreads the
  total of the [512, 1000] block of squares over a [1, 8, 128] tile. Every entry of the tile is therefore the double
  sum, over the 512 rows and the 1000 columns of the block, of the squared difference.
-/
import proofs.«145363_j34256659153337_2_alg».proof.Proof.Gen.KernelIdeal.Skeleton
import proofs.«145363_j34256659153337_2_alg».proof.Proof.KV.BlockTotal

open scoped BigOperators

namespace Cert.KernelIdeal.KV

open Cert.KernelIdeal Cert.KernelIdeal.Gen Idealize.ShloMosaic Idealize.ShloMosaic.ValueIdx

/-- Every entry of the tile the label body stores is the block's sum of squared differences. -/
theorem label_pay_apply (v0 v1 : Vec Ideal S512x1000 .f32) (y : S1x8x128.Idx) :
    k0_pay1 (F := Ideal) v0 v1 y
      = ∑ a : Fin 512, ∑ k : Fin 1000, (v0 (ix2 a k) - v1 (ix2 a k)) * (v0 (ix2 a k) - v1 (ix2 a k)) := by
  obtain ⟨u, i, j, rfl⟩ : ∃ (u : Fin 1) (i : Fin 8) (j : Fin 128), y = ix3 u i j := ⟨y 0, y 1, y 2, eq_ix3 y⟩
  unfold k0_pay1
  refine (shapeCast_ab_1ab_apply _ _ u i j).trans ?_
  refine (tile_total_apply _ _ _ _ _ _ _ _ _ _ _ i j).trans ?_
  rfl

end Cert.KernelIdeal.KV
-- ==== Proof.LibPlainMatmul.lean ====
/-
  The product of an m × k matrix by a k × n matrix, accumulated into zero, read at an entry.

  The matrix unit's product with the left operand contracted on its second axis and the right on its first, started
  from an accumulator of zeros, has at entry (a, b) the sum over the k contracted coordinates c of A(a, c) · B(c, b).
  The general statement sums over the indices of a one-axis "contraction shape"; that index set is carried onto the
  k coordinates, and the two operand indices it names are (a, c) and (c, b).
-/
import Idealize.ShloMosaic.PureOps.Ideal.Laws
import Idealize.ShloMosaic.Lib.ValueIdx

open scoped BigOperators

namespace Idealize.ShloMosaic.ValueIdx

open Idealize.ShloMosaic

/-- `A · B` into a zero accumulator, at the exact extended reals, read at `(a, b)`: `∑ c, A (a, c) * B (c, b)`. -/
theorem matmul_plain_zero_apply {m k n : ℕ} {φ₁ φ₂ : FTy}
    (w : DotDims.WF ⟨2, ![m, k]⟩ ⟨2, ![k, n]⟩ ⟨2, ![m, n]⟩ [1] [0] [0] [1] [] [])
    (prec : Option ContractPrecision) (A : FVec Ideal ⟨2, ![m, k]⟩ φ₁) (B : FVec Ideal ⟨2, ![k, n]⟩ φ₂) (a : Fin m) (b : Fin n) :
    matmul (⟨[1], [0], [0], [1], [], [], w⟩ : DotDims ⟨2, ![m, k]⟩ ⟨2, ![k, n]⟩ ⟨2, ![m, n]⟩) prec A B
        (constant (F := Ideal) ⟨2, ![m, n]⟩ .f32 0x00000000#32) (ix2 a b)
      = ∑ c : Fin k, A (ix2 a c) * B (ix2 c b) := by
  show FloatOps.matmul _ prec A B _ (ix2 a b) = _
  rw [Ideal.matmul_constant_zero_apply,
    ← Equiv.sum_comp (contrEquiv1 (⟨[1], [0], [0], [1], [], [], w⟩ : DotDims ⟨2, ![m, k]⟩ ⟨2, ![k, n]⟩ ⟨2, ![m, n]⟩) k rfl rfl).symm]
  refine Finset.sum_congr rfl fun c _ => ?_
  have c2 := contrEquiv1_symm_val (⟨[1], [0], [0], [1], [], [], w⟩ : DotDims ⟨2, ![m, k]⟩ ⟨2, ![k, n]⟩ ⟨2, ![m, n]⟩) k rfl rfl c
  have l2 : (⟨[1], [0], [0], [1], [], [], w⟩ : DotDims ⟨2, ![m, k]⟩ ⟨2, ![k, n]⟩ ⟨2, ![m, n]⟩).lhsIdx (ix2 a b)
      ((contrEquiv1 _ k rfl rfl).symm c) = ix2 a c := by
    funext ax; apply Fin.ext
    match ax with
    | ⟨0, _⟩ => simp [DotDims.lhsIdx]; rfl
    | ⟨1, _⟩ => simp [DotDims.lhsIdx]; exact c2
  have r2 : (⟨[1], [0], [0], [1], [], [], w⟩ : DotDims ⟨2, ![m, k]⟩ ⟨2, ![k, n]⟩ ⟨2, ![m, n]⟩).rhsIdx (ix2 a b)
      ((contrEquiv1 _ k rfl rfl).symm c) = ix2 c b := by
    funext ax; apply Fin.ext
    match ax with
    | ⟨0, _⟩ => simp [DotDims.rhsIdx]; exact c2
    | ⟨1, _⟩ => simp [DotDims.rhsIdx]; rfl
  rw [l2, r2]

end Idealize.ShloMosaic.ValueIdx
-- ==== Proof.LibColumnBroadcast.lean ====
/-
  One column broadcast over many.

  An [a, 1] matrix broadcast to [a, b] repeats its one column: entry (p, c) of the result is entry (p, 0) of the
  operand, whatever the column c. (The companion form for one ROW, [1, b] → [a, b], is the library's
  `broadcastTo_1b_ab_apply`.)
-/
import Idealize.ShloMosaic.Lib.ValueLayout

namespace Idealize.ShloMosaic.ValueIdx

open Idealize.ShloMosaic

variable {α : Type}

/-- An `[a, 1]` array broadcast to `[a, b]` reads, at `(p, c)`, the operand's one column at row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Idealize.ShloMosaic.ValueIdx
-- ==== Proof.KV.FeatEntries.lean ====
/-
  The feature body's intermediate arrays read at an entry.

  With A a [1, 128, 256] slab of feature rows and B the [1, 4096, 256] matrix of all feature rows, the body forms the
  [128, 4096] matrix of inner products A Bᵀ (drop the unit axis of both, transpose B, multiply into a zero
  accumulator): its entry (p, c) is the sum over the 256 features k of A(p, k) · B(c, k). The squared norms arrive as a
  [1, 128, 1] column (the slab's rows) and a [1, 1, 4096] row (all rows); dropping their leading unit axis and
  repeating the column along the rows and the row down the columns gives, at (p, c), the norm of row p plus the norm
  of row c. The squared distance before clipping is that sum minus twice the inner product.
-/
import proofs.«145363_j34256659153337_2_alg».proof.Proof.Gen.KernelIdeal.Skeleton
import proofs.«145363_j34256659153337_2_alg».proof.Proof.SpecAux
import proofs.«145363_j34256659153337_2_alg».proof.Proof.LibPlainMatmul
import proofs.«145363_j34256659153337_2_alg».proof.Proof.LibColumnBroadcast
import Idealize.ShloMosaic.Lib.ValueIdx
import Idealize.ShloMosaic.Lib.ValueLayout

open scoped BigOperators

namespace Cert.KernelIdeal.KV

open Cert.KernelIdeal Cert.KernelIdeal.Gen Idealize.ShloMosaic Idealize.ShloMosaic.ValueIdx

/-- The inner products of a slab's rows with all rows: entry (p, c) of A Bᵀ. -/
theorem gram_apply (A : FVec Ideal S1x128x256 .bf16) (B : FVec Ideal S1x4096x256 .bf16)
    (hA : S1x128x256.ShapeCasts S128x256) (hB : S1x4096x256.ShapeCasts S4096x256)
    (hT : S4096x256.Transposes [1, 0] S256x4096)
    (w : DotDims.WF S128x256 S256x4096 S128x4096 [1] [0] [0] [1] [] [])
    (p : Fin 128) (c : Fin 4096) :
    matmul (⟨[1], [0], [0], [1], [], [], w⟩ : DotDims S128x256 S256x4096 S128x4096) none
        (shapeCast S128x256 A hA) (transpose S256x4096 [1, 0] (shapeCast S4096x256 B hB) hT)
        (constant (F := Ideal) S128x4096 .f32 0x00000000#32) (ix2 p c)
      = ∑ k : Fin 256, A (ix3 (0 : Fin 1) p k) * B (ix3 (0 : Fin 1) c k) := by
  refine (matmul_plain_zero_apply w none _ _ p c).trans ?_
  refine Finset.sum_congr rfl fun k _ => ?_
  rw [shapeCast_1ab_ab_apply A hA p k, transpose_ix2_apply _ hT k c, shapeCast_1ab_ab_apply B hB c k]

/-- The target side's inner products. -/
theorem k1_pay2_apply (at_ : Vec Ideal S1x128x256 .bf16) (bt : Vec Ideal S1x4096x256 .bf16) (p : Fin 128) (c : Fin 4096) :
    k1_pay2 (F := Ideal) at_ bt (ix2 p c) = ∑ k : Fin 256, at_ (ix3 (0 : Fin 1) p k) * bt (ix3 (0 : Fin 1) c k) := by
  unfold k1_pay2
  exact gram_apply at_ bt _ _ _ _ p c

/-- The target side's row of squared norms of all rows. -/
theorem k1_pay3_apply (nt : Vec Ideal S1x1x4096 .f32) (u : Fin 1) (c : Fin 4096) :
    k1_pay3 (F := Ideal) nt (ix2 u c) = nt (ix3 (0 : Fin 1) (0 : Fin 1) c) := by
  unfold k1_pay3
  have hu : u = (0 : Fin 1) := Fin.ext (by omega)
  subst hu
  exact shapeCast_1ab_ab_apply nt _ (0 : Fin 1) c

/-- The target side's column of squared norms of the slab's rows. -/
theorem k1_pay4_apply (rt : Vec Ideal S1x128x1 .f32) (p : Fin 128) (u : Fin 1) :
    k1_pay4 (F := Ideal) rt (ix2 p u) = rt (ix3 (0 : Fin 1) p (0 : Fin 1)) := by
  unfold k1_pay4
  have hu : u = (0 : Fin 1) := Fin.ext (by omega)
  subst hu
  exact shapeCast_1ab_ab_apply rt _ p (0 : Fin 1)

/-- The prediction side's squared distance before clipping: norm of row p plus norm of row c minus twice their inner
    product. -/
theorem k1_pay5_apply (ap : Vec Ideal S1x128x256 .bf16) (bp : Vec Ideal S1x4096x256 .bf16)
    (np : Vec Ideal S1x1x4096 .f32) (rp : Vec Ideal S1x128x1 .f32) (p : Fin 128) (c : Fin 4096) :
    k1_pay5 (F := Ideal) ap bp np rp (ix2 p c)
      = (rp (ix3 (0 : Fin 1) p (0 : Fin 1)) + np (ix3 (0 : Fin 1) (0 : Fin 1) c))
          - Cert.Spec.two * ∑ k : Fin 256, ap (ix3 (0 : Fin 1) p k) * bp (ix3 (0 : Fin 1) c k) := by
  unfold k1_pay5
  show (broadcastTo S128x4096 (shapeCast S128x1 rp _) _ (ix2 p c) + broadcastTo S128x4096 (shapeCast S1x4096 np _) _ (ix2 p c))
      - Cert.Spec.two * matmul (F := Ideal) _ none _ _ _ (ix2 p c) = _
  rw [broadcastTo_a1_ab_apply _ _ p c, broadcastTo_1b_ab_apply _ _ p c,
    shapeCast_1ab_ab_apply rp _ p (0 : Fin 1), shapeCast_1ab_ab_apply np _ (0 : Fin 1) c]
  exact congrArg (fun t => (rp (ix3 (0 : Fin 1) p (0 : Fin 1)) + np (ix3 (0 : Fin 1) (0 : Fin 1) c)) - Cert.Spec.two * t)
    (gram_apply ap bp _ _ _ _ p c)

/-- The array of zeros the prediction side is clipped against. -/
theorem k1_pay6_apply (i : S128x4096.Idx) : k1_pay6 (F := Ideal) i = 0 :=
  Ideal.ofBits_zero_f32

end Cert.KernelIdeal.KV
-- ==== Proof.KV.Dist.lean ====
/-
  The guarded square root.

  A body that wants "the root of s where s is positive, else 0" without ever taking the root of a non-positive number
  computes it with one comparison and two selections on the same bit: where 0 < s it takes the root of s, elsewhere it
  takes the root of the harmless constant 1 and then discards it for 0. On the extended reals this is exactly the
  function "if 0 < s then √s else 0".
-/
import Idealize.ShloMosaic.Lib.ValueIdx
import Idealize.ShloMosaic.PureOps.Ideal.Laws
import proofs.«145363_j34256659153337_2_alg».proof.Proof.SpecAux

namespace Cert.KernelIdeal.KV

open Idealize.ShloMosaic Idealize.ShloMosaic.ValueIdx

/-- On one number: select(0 < s, √(select(0 < s, s, 1)), 0) is the guarded root of s. -/
theorem guarded_root_eq (s : EReal) :
    Scalar.select (Ideal.cmp .ogt s (Ideal.ofBits .f32 0x00000000#32))
        (Ideal.sqrt (Scalar.select (Ideal.cmp .ogt s (Ideal.ofBits .f32 0x00000000#32)) s (Ideal.ofBits .f32 0x3F800000#32)))
        (Ideal.ofBits .f32 0x00000000#32)
      = Cert.Spec.distOf s := by
  rw [Ideal.ofBits_zero_f32]
  unfold Cert.Spec.distOf
  by_cases h : 0 < s
  · have hb : Ideal.cmp .ogt s 0 = 1#1 := by simp [Ideal.cmp, h]
    rw [hb, select_one, select_one, if_pos h]
  · have hb : Ideal.cmp .ogt s 0 = 0#1 := by simp [Ideal.cmp, h]
    rw [hb, select_zero, if_neg h]

/-- The same entry by entry on an array: the two selections and the root, read at an index. -/
theorem guarded_root_apply {s : Shape} (x : FVec Ideal s .f32) (i : s.Idx) :
    select (cmpf .ogt x (broadcast s (Scalar.ofBits (F := Ideal) .f32 0x00000000#32)))
        (sqrt (select (cmpf .ogt x (broadcast s (Scalar.ofBits (F := Ideal) .f32 0x00000000#32))) x
          (broadcast s (Scalar.ofBits (F := Ideal) .f32 0x3F800000#32))))
        (broadcast s (Scalar.ofBits (F := Ideal) .f32 0x00000000#32)) i
      = Cert.Spec.distOf (x i) :=
  guarded_root_eq (x i)

end Cert.KernelIdeal.KV
-- ==== Proof.KV.FeatBody.lean ====
/-
  The feature body's stored tile read at an entry, over the arrays it is handed.

  The body receives the target side's inner products G (a [128, 4096] matrix), the target side's squared norms as a
  row [1, 4096] and a column [128, 1], the prediction side's squared distances before clipping P, and an array Z to clip
  them against. At each entry (p, c) it clips both squared distances (the target side's is column(p) + row(c) − 2 G(p, c)
  clipped at 0; the prediction side's is max(P, Z)), takes the guarded root of each, and squares the difference of the
  two roots. It then spreads the total of the [128, 4096] matrix of squares over a [1, 1, 8, 128] tile, so every entry
  of the tile is the double sum of those squares.
-/
import proofs.«145363_j34256659153337_2_alg».proof.Proof.Gen.KernelIdeal.Skeleton
import proofs.«145363_j34256659153337_2_alg».proof.Proof.SpecAux
import proofs.«145363_j34256659153337_2_alg».proof.Proof.LibColumnBroadcast
import proofs.«145363_j34256659153337_2_alg».proof.Proof.KV.BlockTotal
import proofs.«145363_j34256659153337_2_alg».proof.Proof.KV.Dist

open scoped BigOperators

namespace Cert.KernelIdeal.KV

open Cert.KernelIdeal Cert.KernelIdeal.Gen Idealize.ShloMosaic Idealize.ShloMosaic.ValueIdx

/-- An [a, b] array cast to [1, 1, a, b] reads, at (u, w, i, j), the operand at (i, j). -/
theorem shapeCast_ab_11ab_apply {α : Type} {a b : ℕ} (x : (⟨2, ![a, b]⟩ : Shape).Idx → α)
    (h : (⟨2, ![a, b]⟩ : Shape).ShapeCasts ⟨4, ![1, 1, a, b]⟩) (u w : Fin 1) (i : Fin a) (j : Fin b) :
    shapeCast ⟨4, ![1, 1, a, b]⟩ x h (ix4 u w i j) = x (ix2 i j) :=
  shapeCast_apply x h _ _ (by
    have hu : u.val = 0 := by omega
    have hw : w.val = 0 := by omega
    rw [Shape.rowMajor_val_four, Shape.rowMajor_val_two]
    show i.val * b + j.val = ((u.val * 1 + w.val) * a + i.val) * b + j.val
    rw [hu, hw]
    simp only [Nat.zero_mul, Nat.zero_add, Nat.mul_one, Nat.add_zero])

/-- Every entry of the tile the feature body stores is the double sum of the squared differences of guarded roots. -/
theorem k1_pay1_apply (v15 : FVec Ideal S128x4096 .f32) (v19 : FVec Ideal S1x4096 .f32) (v23 : FVec Ideal S128x1 .f32)
    (v29 v30 : FVec Ideal S128x4096 .f32) (y : S1x1x8x128.Idx) :
    k1_pay1 (F := Ideal) v15 v19 v23 v29 v30 y
      = ∑ p : Fin 128, ∑ c : Fin 4096,
          (Cert.Spec.distOf (max (v29 (ix2 p c)) (v30 (ix2 p c)))
            - Cert.Spec.distOf
                (max ((v23 (ix2 p (0 : Fin 1)) + v19 (ix2 (0 : Fin 1) c)) - Cert.Spec.two * v15 (ix2 p c)) 0))
          * (Cert.Spec.distOf (max (v29 (ix2 p c)) (v30 (ix2 p c)))
            - Cert.Spec.distOf
                (max ((v23 (ix2 p (0 : Fin 1)) + v19 (ix2 (0 : Fin 1) c)) - Cert.Spec.two * v15 (ix2 p c)) 0)) := by
  obtain ⟨u, w, i, j, rfl⟩ : ∃ (u w : Fin 1) (i : Fin 8) (j : Fin 128), y = ix4 u w i j :=
    ⟨y 0, y 1, y 2, y 3, eq_ix4 y⟩
  unfold k1_pay1
  refine (shapeCast_ab_11ab_apply _ _ u w i j).trans ?_
  refine (tile_total_apply _ _ _ _ _ _ _ _ _ _ _ i j).trans ?_
  refine Finset.sum_congr rfl fun p _ => Finset.sum_congr rfl fun c _ => ?_
  rw [mulf_apply, subf_apply, guarded_root_apply, guarded_root_apply, maximumf_apply, maximumf_apply, subf_apply,
    addf_apply, mulf_apply, broadcast_apply, broadcast_apply, broadcastTo_a1_ab_apply _ _ p c,
    broadcastTo_1b_ab_apply _ _ p c]
  show (Cert.Spec.distOf (max _ _) - Cert.Spec.distOf (max (_ - Cert.Spec.two * _) (Ideal.ofBits .f32 0x00000000#32)))
      * (Cert.Spec.distOf (max _ _) - Cert.Spec.distOf (max (_ - Cert.Spec.two * _) (Ideal.ofBits .f32 0x00000000#32))) = _
  rw [Ideal.ofBits_zero_f32]

end Cert.KernelIdeal.KV
-- ==== Proof.KV.FeatPay.lean ====
/-
  The feature body's payload read at an entry, over the blocks it loads.

  The body loads a [1, 128, 256] slab of feature rows and the [1, 4096, 256] matrix of all feature rows on each side
  (prediction and target), with the squared norms of the slab's rows (a column) and of all rows (a row). For row p of
  the slab and row j of the matrix, each side's distance is the guarded root of the clipped squared distance
  norm(p) + norm(j) − 2 ⟨row p, row j⟩. Every entry of the tile the body stores is the sum, over the 128 rows of the
  slab and all 4096 rows, of the squared difference between the prediction side's and the target side's distance.
-/
import proofs.«145363_j34256659153337_2_alg».proof.Proof.Gen.KernelIdeal.Skeleton
import proofs.«145363_j34256659153337_2_alg».proof.Proof.SpecAux
import proofs.«145363_j34256659153337_2_alg».proof.Proof.KV.FeatEntries
import proofs.«145363_j34256659153337_2_alg».proof.Proof.KV.FeatBody

open scoped BigOperators

namespace Cert.KernelIdeal.KV

open Cert.KernelIdeal Cert.KernelIdeal.Gen Idealize.ShloMosaic Idealize.ShloMosaic.ValueIdx

/-- Every entry of the tile the feature body stores, in terms of the loaded blocks. -/
theorem feat_pay_apply (ap at_ : Vec Ideal S1x128x256 .bf16) (bp bt : Vec Ideal S1x4096x256 .bf16)
    (np nt : Vec Ideal S1x1x4096 .f32) (rp rt : Vec Ideal S1x128x1 .f32) (y : S1x1x8x128.Idx) :
    k1_pay1 (F := Ideal) (k1_pay2 at_ bt) (k1_pay3 nt) (k1_pay4 rt) (k1_pay5 ap bp np rp) (k1_pay6 (F := Ideal)) y
      = ∑ a : Fin 128, ∑ j : Fin 4096,
          (Cert.Spec.distOf (Cert.Spec.sqdOf (rp (ix3 (0 : Fin 1) a (0 : Fin 1))) (np (ix3 (0 : Fin 1) (0 : Fin 1) j))
              (∑ k : Fin 256, ap (ix3 (0 : Fin 1) a k) * bp (ix3 (0 : Fin 1) j k)))
            - Cert.Spec.distOf (Cert.Spec.sqdOf (rt (ix3 (0 : Fin 1) a (0 : Fin 1))) (nt (ix3 (0 : Fin 1) (0 : Fin 1) j))
              (∑ k : Fin 256, at_ (ix3 (0 : Fin 1) a k) * bt (ix3 (0 : Fin 1) j k))))
          * (Cert.Spec.distOf (Cert.Spec.sqdOf (rp (ix3 (0 : Fin 1) a (0 : Fin 1))) (np (ix3 (0 : Fin 1) (0 : Fin 1) j))
              (∑ k : Fin 256, ap (ix3 (0 : Fin 1) a k) * bp (ix3 (0 : Fin 1) j k)))
            - Cert.Spec.distOf (Cert.Spec.sqdOf (rt (ix3 (0 : Fin 1) a (0 : Fin 1))) (nt (ix3 (0 : Fin 1) (0 : Fin 1) j))
              (∑ k : Fin 256, at_ (ix3 (0 : Fin 1) a k) * bt (ix3 (0 : Fin 1) j k)))) := by
  refine (k1_pay1_apply _ _ _ _ _ y).trans ?_
  refine Finset.sum_congr rfl fun a _ => Finset.sum_congr rfl fun j _ => ?_
  rw [k1_pay5_apply ap bp np rp a j, k1_pay6_apply, k1_pay4_apply rt a (0 : Fin 1), k1_pay3_apply nt (0 : Fin 1) j,
    k1_pay2_apply at_ bt a j]
  rfl

end Cert.KernelIdeal.KV
-- ==== Proof.KV.KerRun.lean ====
/-
  The run of the main function read at its result: if the contents the last boundary names for the result buffer are
  the constant kerResult of the label matrices and the feature matrices as launched, then from any memory with zero
  counters every weakly fair execution terminates, the result buffer of every core ends at that constant, and the
  eight argument arrays end as launched.
-/
import proofs.«145363_j34256659153337_2_alg».proof.Proof.KI.Run
import proofs.«145363_j34256659153337_2_alg».proof.Proof.KV.Glue0
import proofs.«145363_j34256659153337_2_alg».proof.Proof.KV.Feats
import proofs.«145363_j34256659153337_2_alg».proof.Proof.Spec

noncomputable section

namespace Cert.KernelIdeal.KV

open Cert.KernelIdeal Cert.KernelIdeal.Gen Cert.KernelIdeal.HF
open Idealize.ShloMosaic Idealize.ShloMosaic.TcCoe
open Idealize.SL Idealize.SL.Sem

/-- Every unscoped buffer of every core ends at the last boundary's contents; read at the result buffer, which by
    hypothesis holds the constant kerResult there, and at the eight arguments, whose contents walk back to the launch
    memory. -/
theorem ker_run (m : (ℓ : Loc nD τ sig) → Buf (Elt Ideal) ℓ) (ρ : Dev nD → PrngReg)
    (hW4 : ∀ c : Dev nD, W4 (F := Ideal) m ρ c (Proc.devRef .tc main_v28)
      = fun _ => Cert.Spec.kerResult (predOf m c) (targetOf m c) (pfOf m c) (tfOf m c)) :
    θ_run (defs (F := Ideal)) (onTc (τ := τ) (main (F := Ideal))) ⟨m, fun _ => 0, ρ⟩ (fun r => ∀ c : Dev nD,
      r.2.mem ((c.tc : Thread nD τ).loc main_v28) = (fun _ => Cert.Spec.kerResult (predOf m c) (targetOf m c) (pfOf m c) (tfOf m c))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  (θ_run defs _ _).mono (fun _ h c =>
    ⟨(h c _ (mem_uc main_v28 (by decide))).trans (hW4 c),
      (h c _ (mem_uc main_arg0 (by decide))).trans (W4_main_arg0 m ρ c),
      (h c _ (mem_uc main_arg1 (by decide))).trans (W4_main_arg1 m ρ c),
      (h c _ (mem_uc main_arg2 (by decide))).trans (W4_main_arg2 m ρ c),
      (h c _ (mem_uc main_arg3 (by decide))).trans (W4_main_arg3 m ρ c),
      (h c _ (mem_uc main_arg4 (by decide))).trans (W4_main_arg4 m ρ c),
      (h c _ (mem_uc main_arg5 (by decide))).trans (W4_main_arg5 m ρ c),
      (h c _ (mem_uc main_arg6 (by decide))).trans (W4_main_arg6 m ρ c),
      (h c _ (mem_uc main_arg7 (by decide))).trans (W4_main_arg7 m ρ c)⟩) (run_main m ρ)

end Cert.KernelIdeal.KV

end
-- ==== Proof.KV.Result.lean ====
/-
  The kernel program's result: after the last host operation the result buffer holds the specification's
  kernel-side value — region 0's array of block sums, the label quotient the first host stretch computes from it,
  region 1's array of block sums, and the last host stretch over both.
-/
import proofs.«145363_j34256659153337_2_alg».proof.Proof.KV.Glue0
import proofs.«145363_j34256659153337_2_alg».proof.Proof.KV.Glue1
import proofs.«145363_j34256659153337_2_alg».proof.Proof.KV.HostRead
import proofs.«145363_j34256659153337_2_alg».proof.Proof.KV.Tail
import proofs.«145363_j34256659153337_2_alg».proof.Proof.KV.LabelPay
import proofs.«145363_j34256659153337_2_alg».proof.Proof.KV.FeatPay
import proofs.«145363_j34256659153337_2_alg».proof.Proof.KV.KerRun

noncomputable section

namespace Cert.KernelIdeal.KV

open Cert.KernelIdeal Cert.KernelIdeal.Gen Cert.KernelIdeal.HF
open Idealize.ShloMosaic Idealize.ShloMosaic.TcCoe
open Idealize.SL Idealize.SL.Sem

variable (m : (ℓ : Loc nD τ sig) → Buf (Elt Ideal) ℓ) (ρ : Dev nD → PrngReg)

/-- Region 0's output array, as the first host stretch finds it. -/
theorem w1_v0 (c : Dev nD) : W1 (F := Ideal) m ρ c (Proc.devRef .tc main_v0) = G0 m c :=
  (W1_arr m ρ c 2).trans (final0 m ρ label_pay_apply c)

/-- The result buffer after the last host operation. -/
theorem w4_result (c : Dev nD) :
    W4 (F := Ideal) m ρ c (Proc.devRef .tc main_v28)
      = fun _ => Cert.Spec.kerResult (predOf m c) (targetOf m c) (pfOf m c) (tfOf m c) :=
  tail_eq m ρ c (w1_v0 m ρ c) (v3_eq m ρ c)
    (final1 m ρ feat_pay_apply (v12_apply m ρ) (v13_apply m ρ) (v18_apply m ρ) (v19_apply m ρ) (v20_apply m ρ) (v21_apply m ρ) c)

end Cert.KernelIdeal.KV

end
-- ==== Proof.Algebra.Consts.lean ====
/-
  The four divisors of the two programs that the algebra evaluates, as the real numbers their words denote:
  1024, 4096², 3 · 4096² and 3.  The weights and the label count stay words: they occur alike on both sides.
-/
import proofs.«145363_j34256659153337_2_alg».proof.Proof.Spec

noncomputable section

namespace Cert.Algebra

open Idealize.ShloMosaic

/-- The word 0x44800000 denotes 1024. -/
theorem c1024_eq : Cert.Spec.c1024 = ((1024 : ℝ) : EReal) := by
  unfold Cert.Spec.c1024
  simp [Ideal.ofBits, Ideal.ieee, -EReal.coe_mul]; norm_num

/-- The word 0x4B800000 denotes 4096² = 16777216. -/
theorem cNN_eq : Cert.Spec.cNN = ((16777216 : ℝ) : EReal) := by
  unfold Cert.Spec.cNN
  simp [Ideal.ofBits, Ideal.ieee, -EReal.coe_mul]; norm_num

/-- The word 0x4C400000 denotes 3 · 4096² = 50331648. -/
theorem cNN3_eq : Cert.Spec.cNN3 = ((50331648 : ℝ) : EReal) := by
  unfold Cert.Spec.cNN3
  simp [Ideal.ofBits, Ideal.ieee, -EReal.coe_mul]; norm_num

/-- The word 0x40400000 denotes 3. -/
theorem c3_eq : Cert.Spec.c3 = ((3 : ℝ) : EReal) := by
  unfold Cert.Spec.c3
  simp [Ideal.ofBits, Ideal.ieee, -EReal.coe_mul]; norm_num

end Cert.Algebra

end
-- ==== Proof.Algebra.Sums.lean ====
/-
  Finite sums over the extended reals: a square is never negative; the 4096 rows split into 8 blocks of 512
  and into 32 blocks of 128; a value written 8 · 128 times and added up is 1024 times the value, and dividing
  that by 1024 gives the value back — for every extended real, the infinities included.
-/
import proofs.«145363_j34256659153337_2_alg».proof.Proof.Algebra.Consts

noncomputable section

namespace Cert.Algebra

open Idealize.ShloMosaic

/-- x · x ≥ 0 for every extended real: ⊥ · ⊥ = ⊤ · ⊤ = ⊤, and a real square is not negative. -/
theorem ereal_mul_self_nonneg (x : EReal) : 0 ≤ x * x := by
  induction x using EReal.rec with
  | bot => simp
  | coe r =>
    rw [← EReal.coe_mul]
    exact_mod_cast _root_.mul_self_nonneg r
  | top => simp

/-- (block, offset) ↦ row 512 · block + offset, a bijection of 8 × 512 onto the 4096 rows. -/
def rows8 : Fin 8 × Fin 512 ≃ Fin 4096 where
  toFun p := ⟨p.1.val * 512 + p.2.val, by omega⟩
  invFun i := (⟨i.val / 512, by omega⟩, ⟨i.val % 512, by omega⟩)
  left_inv p := by
    obtain ⟨⟨b, hb⟩, ⟨a, ha⟩⟩ := p
    refine Prod.ext (Fin.ext ?_) (Fin.ext ?_)
    · show (b * 512 + a) / 512 = b
      omega
    · show (b * 512 + a) % 512 = a
      omega
  right_inv i := by
    refine Fin.ext ?_
    show i.val / 512 * 512 + i.val % 512 = i.val
    omega

/-- (block, offset) ↦ row 128 · block + offset, a bijection of 32 × 128 onto the 4096 rows. -/
def rows32 : Fin 32 × Fin 128 ≃ Fin 4096 where
  toFun p := ⟨p.1.val * 128 + p.2.val, by omega⟩
  invFun i := (⟨i.val / 128, by omega⟩, ⟨i.val % 128, by omega⟩)
  left_inv p := by
    obtain ⟨⟨b, hb⟩, ⟨a, ha⟩⟩ := p
    refine Prod.ext (Fin.ext ?_) (Fin.ext ?_)
    · show (b * 128 + a) / 128 = b
      omega
    · show (b * 128 + a) % 128 = a
      omega
  right_inv i := by
    refine Fin.ext ?_
    show i.val / 128 * 128 + i.val % 128 = i.val
    omega

/-- Adding block by block, 8 blocks of 512 rows, is adding over all rows. -/
theorem split8 (g : Fin 4096 → EReal) :
    ∑ b : Fin 8, ∑ a : Fin 512, g ⟨b.val * 512 + a.val, by omega⟩ = ∑ i : Fin 4096, g i :=
  calc ∑ b : Fin 8, ∑ a : Fin 512, g ⟨b.val * 512 + a.val, by omega⟩
      = ∑ p : Fin 8 × Fin 512, g (rows8 p) := (Fintype.sum_prod_type (fun p => g (rows8 p))).symm
    _ = ∑ i : Fin 4096, g i := Equiv.sum_comp rows8 g

/-- Adding block by block, 32 blocks of 128 rows, is adding over all rows. -/
theorem split32 (g : Fin 4096 → EReal) :
    ∑ r : Fin 32, ∑ a : Fin 128, g ⟨r.val * 128 + a.val, by omega⟩ = ∑ i : Fin 4096, g i :=
  calc ∑ r : Fin 32, ∑ a : Fin 128, g ⟨r.val * 128 + a.val, by omega⟩
      = ∑ p : Fin 32 × Fin 128, g (rows32 p) := (Fintype.sum_prod_type (fun p => g (rows32 p))).symm
    _ = ∑ i : Fin 4096, g i := Equiv.sum_comp rows32 g

/-- One value added over an 8 × 128 tile is 1024 times the value. -/
theorem copies (X : EReal) : ∑ _i : Fin 8, ∑ _j : Fin 128, X = (1024 : ℕ) • X := by
  simp only [Finset.sum_const, Finset.card_univ, Fintype.card_fin, smul_smul]
  rfl

/-- The tiles of a family of values, all added up, are 1024 times the sum of the values. -/
theorem sum_copies {ι : Type} [Fintype ι] (X : ι → EReal) :
    ∑ b : ι, ∑ _i : Fin 8, ∑ _j : Fin 128, X b = (1024 : ℕ) • ∑ b : ι, X b := by
  rw [← Finset.sum_nsmul]
  exact Finset.sum_congr rfl (fun b _ => copies (X b))

/-- 1024 · (1/1024) = 1 in the extended reals. -/
theorem c1024_cancel : ((1024 : ℕ) : EReal) * (((1 / 1024 : ℝ) : ℝ) : EReal) = 1 := by
  have h : ((1024 : ℕ) : EReal) = ((1024 : ℝ) : EReal) := by norm_cast
  rw [h, ← EReal.coe_mul]
  norm_num

/-- (1024 · Y) / 1024 = Y for every extended real Y. -/
theorem div_copies (Y : EReal) : Ideal.div ((1024 : ℕ) • Y) Cert.Spec.c1024 = Y := by
  rw [c1024_eq, Ideal.div_coe (by norm_num), EReal.nsmul_eq_mul, mul_comm ((1024 : ℕ) : EReal) Y, mul_assoc,
    c1024_cancel, mul_one]

end Cert.Algebra

end
-- ==== Proof.Algebra.Blocks.lean ====
/-
  The kernel's block sums add up to the reference's full sums, and those sums are not negative.
-/
import proofs.«145363_j34256659153337_2_alg».proof.Proof.Algebra.Sums

noncomputable section

namespace Cert.Algebra

open Idealize.ShloMosaic Cert.Spec

/-- The 8 label blocks together are the full sum of squared label differences. -/
theorem sum_lblock (p t : Lab) : ∑ b : Fin 8, lblock p t b = lsum p t := by
  unfold lblock lsum
  exact split8 (fun i => ∑ k : Fin 1000, lerr p t i k)

/-- The 32 feature blocks together are the full sum of squared distance differences. -/
theorem sum_fblock (p t : Feat) : ∑ r : Fin 32, fblock p t r = fsum p t := by
  unfold fblock fsum
  exact split32 (fun i => ∑ j : Fin 4096, ferr p t i j)

/-- A squared distance difference is not negative. -/
theorem ferr_nonneg (p t : Feat) (i j : Fin 4096) : 0 ≤ ferr p t i j := by
  unfold ferr
  exact ereal_mul_self_nonneg _

/-- The sum of the squared distance differences is not negative. -/
theorem fsum_nonneg (p t : Feat) : 0 ≤ fsum p t := by
  unfold fsum
  exact Finset.sum_nonneg (fun i _ => Finset.sum_nonneg (fun j _ => ferr_nonneg p t i j))

end Cert.Algebra

end
-- ==== Proof.Algebra.Join.lean ====
/-
  The kernel's result is the reference's, for all extended-real inputs.

  Label part: the kernel adds 1024 copies of each of its 8 block sums and divides by 1024, which gives the full
  sum back; both sides then divide by the same count and multiply by the same weight.
  Feature part: the kernel's total is S₀ + S₁ + S₂ (S_f the full sum of matrix f, never negative), divided by
  3 · 4096²; the reference divides each S_f by 4096², adds, multiplies by the weight and divides by 3.  For
  summands that are not negative the division distributes over the sum, and (1/4096²) · (1/3) = 1/(3 · 4096²).
-/
import proofs.«145363_j34256659153337_2_alg».proof.Proof.Algebra.Blocks

noncomputable section

namespace Cert.Algebra

open Idealize.ShloMosaic Cert.Spec

/-- The label total of the kernel, divided by 1024, is the reference's sum. -/
theorem label_total (p t : Lab) :
    Ideal.div (∑ b : Fin 8, ∑ _i : Fin 8, ∑ _j : Fin 128, lblock p t b) c1024 = lsum p t := by
  rw [sum_copies (fun b => lblock p t b), div_copies, sum_lblock]

/-- The feature total of the kernel, divided by 1024, is the sum of the three full sums. -/
theorem feature_total (pf tf : Fin 3 → Feat) :
    Ideal.div (∑ f : Fin 3, ∑ r : Fin 32, ∑ _i : Fin 8, ∑ _j : Fin 128, fblock (pf f) (tf f) r) c1024
      = (fsum (pf 0) (tf 0) + fsum (pf 1) (tf 1)) + fsum (pf 2) (tf 2) := by
  have h : ∀ f : Fin 3, ∑ r : Fin 32, ∑ _i : Fin 8, ∑ _j : Fin 128, fblock (pf f) (tf f) r
      = (1024 : ℕ) • fsum (pf f) (tf f) := fun f => by
    rw [sum_copies (fun r => fblock (pf f) (tf f) r), sum_fblock]
  rw [Finset.sum_congr rfl (fun f _ => h f), Finset.sum_nsmul, div_copies, Fin.sum_univ_three]

/-- (1/4096²) · (1/3) = 1/(3 · 4096²). -/
theorem scale_mul : (((1 / 16777216 : ℝ) : ℝ) : EReal) * (((1 / 3 : ℝ) : ℝ) : EReal) = (((1 / 50331648 : ℝ) : ℝ) : EReal) := by
  rw [← EReal.coe_mul]
  norm_num

/-- Dividing a sum of three values that are not negative by 3 · 4096², under a weight, is dividing each by
    4096², adding, weighting, and dividing by 3. -/
theorem feature_scale (w S0 S1 S2 : EReal) (h0 : 0 ≤ S0) (h1 : 0 ≤ S1) (h2 : 0 ≤ S2) :
    w * Ideal.div ((S0 + S1) + S2) cNN3
      = Ideal.div (w * ((Ideal.div S0 cNN + Ideal.div S1 cNN) + Ideal.div S2 cNN)) c3 := by
  rw [cNN3_eq, cNN_eq, c3_eq, Ideal.div_coe (by norm_num), Ideal.div_coe (by norm_num), Ideal.div_coe (by norm_num),
    Ideal.div_coe (by norm_num), Ideal.div_coe (by norm_num)]
  rw [← EReal.right_distrib_of_nonneg h0 h1, ← EReal.right_distrib_of_nonneg (add_nonneg h0 h1) h2]
  rw [mul_assoc w, mul_assoc ((S0 + S1) + S2), scale_mul]

/-- The kernel's result is the reference's. -/
theorem ker_eq_ref (pred target : Cert.Spec.Lab) (pf tf : Fin 3 → Cert.Spec.Feat) :
    Cert.Spec.kerResult pred target pf tf
      = Cert.Spec.refResult pred target (pf 0) (pf 1) (pf 2) (tf 0) (tf 1) (tf 2) := by
  unfold kerResult refResult
  rw [label_total, feature_total,
    feature_scale c08 _ _ _ (fsum_nonneg _ _) (fsum_nonneg _ _) (fsum_nonneg _ _)]

end Cert.Algebra

end
-- ==== Proof.lean ====
/-
  The certificate's five claims.

  The kernel computes  w₁ · MSE(pred, target) + w₂ · Σ_f Σ_{i,j} (D(p_f)_{ij} − D(t_f)_{ij})² / (3 · 4096²)  in two
  tiled passes whose per-block sums a final stretch of host operations adds up; the reference computes
  w₁ · MSE(pred, target) + (w₂ · Σ_f MSE(D(p_f), D(t_f))) / 3  with whole-matrix operations.  At the exact extended
  reals the distance matrices D are the same functions of the inputs on both sides (a matrix product is a plain sum
  of products, a change of float format the identity), every summand is a square and hence nonnegative, so the sums
  may be regrouped and the constant divisors moved across them: the two results are equal for all inputs.
  The three frames: each program runs to the end without a fault and leaves its arguments as they were — for the
  kernel program through the two regions' bodies and the pipeline's staging of their blocks, read once for every
  float instance; for the reference from the run of its host operations.  The idealization rewrote nothing.
-/
import proofs.«145363_j34256659153337_2_alg».proof.Defs
import proofs.«145363_j34256659153337_2_alg».proof.Proof.Gen.Kernel
import proofs.«145363_j34256659153337_2_alg».proof.Proof.Gen.KernelIdeal
import proofs.«145363_j34256659153337_2_alg».proof.Proof.Gen.ReferenceIdeal
import proofs.«145363_j34256659153337_2_alg».proof.Proof.Gen.Pre_finite_inputs
import proofs.«145363_j34256659153337_2_alg».proof.Proof.K.Run
import proofs.«145363_j34256659153337_2_alg».proof.Proof.KI.Run
import proofs.«145363_j34256659153337_2_alg».proof.Proof.Ref.Result
import proofs.«145363_j34256659153337_2_alg».proof.Proof.KV.Result
import proofs.«145363_j34256659153337_2_alg».proof.Proof.Algebra.Join
import Idealize.ShloMosaic.Adequacy
import Idealize.ShloMosaic.Init

noncomputable section

namespace Cert.Proof

open Idealize.ShloMosaic Idealize.ShloMosaic.TcCoe Idealize.SL.Sem
open Cert.RefSide (lab feat)
open Cert.KernelIdeal.KV (predOf targetOf pfOf tfOf)

/-- The two programs end with equal results from memories that agree on the arguments. -/
theorem algebraic : Cert.algebraic_KernelIdeal_ReferenceIdeal := by
  intro m g m' g' _ hagree
  refine ⟨fun c _ => Cert.Spec.kerResult (predOf m c) (targetOf m c) (pfOf m c) (tfOf m c),
    Cert.KernelIdeal.KV.ker_run m g (Cert.KernelIdeal.KV.w4_result m g), ?_⟩
  refine (θ_run Cert.ReferenceIdeal.defs _ _).mono (fun r h c => ⟨(h c).1.trans ?_, (h c).2⟩) (Cert.RefSide.ref_run m' g')
  obtain ⟨e0, e1, e2, e3, e4, e5, e6, e7⟩ := hagree c
  rw [e0, e1, e2, e3, e4, e5, e6, e7]
  funext _
  exact (Cert.Algebra.ker_eq_ref (predOf m c) (targetOf m c) (pfOf m c) (tfOf m c)).symm

theorem claim : Cert.Claim := ⟨Cert.Kernel.Gen.facts, Cert.KernelIdeal.Gen.facts, Cert.ReferenceIdeal.Gen.facts, Cert.Pre_finite_inputs.Gen.facts,
  fun m g _ => Cert.Kernel.HF.frame m g,
  fun m g _ => Cert.KernelIdeal.HF.frame m g,
  Cert.RefSide.frame_ri,
  trivial,
  algebraic⟩

end Cert.Proof

end
